-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S4096x32 : Shape := ⟨2, ![4096, 32]⟩
abbrev S512x512 : Shape := ⟨2, ![512, 512]⟩
abbrev S512 : Shape := ⟨1, ![512]⟩
abbrev S512x256 : Shape := ⟨2, ![512, 256]⟩
abbrev S256 : Shape := ⟨1, ![256]⟩
abbrev S288x16 : Shape := ⟨2, ![288, 16]⟩
abbrev S16 : Shape := ⟨1, ![16]⟩
abbrev S_ : Shape := ⟨0, ![]⟩
abbrev S4096 : Shape := ⟨1, ![4096]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S288x16 : S_.BroadcastsInDim S288x16 (![] : Fin 0 → Fin S288x16.rank)
  reducesTo_S288x16_S_d0_1 : S288x16.ReducesTo [0, 1] S_
  bcast_S_S16 : S_.BroadcastsInDim S16 (![] : Fin 0 → Fin S16.rank)
  reducesTo_S16_S_d0 : S16.ReducesTo [0] S_
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_

variable [Facts]

def fn_part3 {F : FTy → Type} [FloatOps F] (main_v43 : IVec S_ 1) (main_v49 : IVec S_ 1) : IVec S_ 1 :=
  let main_v50 : IVec S_ 1 := andi main_v43 main_v49
  main_v50

def fn_part2 {F : FTy → Type} [FloatOps F] (main_arg1 : FVec F S4096x4096 .f32) (main_arg7 : FVec F S288x16 .f32) (main_arg8 : FVec F S16 .f32) (main_v33 : IVec S_ 1) : IVec S_ 1 :=
  let main_v34 : FVec F S288x16 .f32 := Host.absf main_arg7
  let main_cst_12 : FVec F S_ .f32 := constant S_ .f32 0x7F800000#32
  let main_v35 : FVec F S288x16 .f32 := broadcastInDim S288x16 ![] bcast_S_S288x16 main_cst_12
  let main_v36 : IVec S288x16 1 := cmpf .olt main_v34 main_v35
  let main_c_13 : IVec S_ 1 := constantI S_ 1 1#1
  let main_v37 : IVec S_ 1 := (fun x v => Host.reduce IntOp.andi x v reducesTo_S288x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_cst_16 : FVec F S_ .f32 := constant S_ .f32 0x00000000#32
  let main_v44 : FVec F S4096 .f32 := (fun x v => Host.reduceAdd x v reducesTo_S4096x4096_S4096_d1 h_S_) main_arg1 main_cst_16
  let main_cst_17 : FVec F S_ .f32 := constant S_ .f32 0x3F800000#32
  let main_v45 : FVec F S4096 .f32 := broadcastInDim S4096 ![] bcast_S_S4096 main_cst_17
  let main_v46 : FVec F S4096 .f32 := addf main_v45 main_v44
  let main_cst_18 : FVec F S_ .f32 := constant S_ .f32 0x00000000#32
  let main_v47 : FVec F S4096 .f32 := broadcastInDim S4096 ![] bcast_S_S4096 main_cst_18
  let main_v48 : IVec S4096 1 := cmpf .ogt main_v46 main_v47
  let main_c_19 : IVec S_ 1 := constantI S_ 1 1#1
  let main_v49 : IVec S_ 1 := (fun x v => Host.reduce IntOp.andi x v reducesTo_S4096_S_d0 h_S_) main_v48 main_c_19
  fn_part3 (F := F) main_v43 main_v49

def fn_part1 {F : FTy → Type} [FloatOps F] (main_arg1 : FVec F S4096x4096 .f32) (main_arg4 : FVec F S512 .f32) (main_arg5 : FVec F S512x256 .f32) (main_arg6 : FVec F S256 .f32) (main_arg7 : FVec F S288x16 .f32) (main_arg8 : FVec F S16 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg7 main_arg8 main_v33

def fn {F : FTy → Type} [FloatOps F] (main_arg0 : FVec F S4096x512 .f32) (main_arg1 : FVec F S4096x4096 .f32) (main_arg2 : FVec F S4096x32 .f32) (main_arg3 : FVec F S512x512 .f32) (main_arg4 : FVec F S512 .f32) (main_arg5 : FVec F S512x256 .f32) (main_arg6 : FVec F S256 .f32) (main_arg7 : FVec F S288x16 .f32) (main_arg8 : FVec F S16 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg4 main_arg5 main_arg6 main_arg7 main_arg8 main_v13 main_v16
-- ==== Kernel.lean ====
abbrev S4096x512 : Shape := ⟨2, ![4096, 512]⟩
abbrev S4096x4096 : Shape := ⟨2, ![4096, 4096]⟩
abbrev S4096x32 : Shape := ⟨2, ![4096, 32]⟩
abbrev S512x512 : Shape := ⟨2, ![512, 512]⟩
abbrev S512 : Shape := ⟨1, ![512]⟩
abbrev S512x256 : Shape := ⟨2, ![512, 256]⟩
abbrev S256 : Shape := ⟨1, ![256]⟩
abbrev S288x16 : Shape := ⟨2, ![288, 16]⟩
abbrev S16 : Shape := ⟨1, ![16]⟩
abbrev S1x512 : Shape := ⟨2, ![1, 512]⟩
abbrev S1x256 : Shape := ⟨2, ![1, 256]⟩
abbrev S256x16 : Shape := ⟨2, ![256, 16]⟩
abbrev S32x16 : Shape := ⟨2, ![32, 16]⟩
abbrev S1x16 : Shape := ⟨2, ![1, 16]⟩
abbrev S4096x256 : Shape := ⟨2, ![4096, 256]⟩
abbrev S4096x16 : Shape := ⟨2, ![4096, 16]⟩
abbrev S256x4096 : Shape := ⟨2, ![256, 4096]⟩
abbrev S1024x512 : Shape := ⟨2, ![1024, 512]⟩
abbrev S1024x32 : Shape := ⟨2, ![1024, 32]⟩
abbrev S1024x256 : Shape := ⟨2, ![1024, 256]⟩
abbrev S1024x16 : Shape := ⟨2, ![1024, 16]⟩
abbrev S4096x1 : Shape := ⟨2, ![4096, 1]⟩
abbrev S256x1 : Shape := ⟨2, ![256, 1]⟩
abbrev S1024x1 : Shape := ⟨2, ![1024, 1]⟩
abbrev S1024x4096 : Shape := ⟨2, ![1024, 4096]⟩
abbrev S1024 : Shape := ⟨1, ![1024]⟩

abbrev nBuf : Space → Nat
  | .hbm => 18
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x32, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S288x16, .f32⟩
  | .hbm, ⟨8, _⟩ => ⟨S16, .f32⟩
  | .hbm, ⟨9, _⟩ => ⟨S4096x512, .bf16⟩
  | .hbm, ⟨10, _⟩ => ⟨S512x512, .bf16⟩
  | .hbm, ⟨11, _⟩ => ⟨S1x512, .f32⟩
  | .hbm, ⟨12, _⟩ => ⟨S1x256, .f32⟩
  | .hbm, ⟨13, _⟩ => ⟨S256x16, .f32⟩
  | .hbm, ⟨14, _⟩ => ⟨S32x16, .f32⟩
  | .hbm, ⟨15, _⟩ => ⟨S1x16, .f32⟩
  | .hbm, ⟨16, _⟩ => ⟨S4096x256, .f32⟩
  | .hbm, ⟨17, _⟩ => ⟨S4096x16, .f32⟩
  | .local _ .vmem, ⟨0, _⟩ => ⟨S256x4096, .f32⟩
  | .local _ .vmem, ⟨1, _⟩ => ⟨S256x4096, .f32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x256, .f32⟩
  | .local _ .vmem, ⟨6, _⟩ => ⟨S1x512, .f32⟩
  | .local _ .vmem, ⟨7, _⟩ => ⟨S1x256, .f32⟩
  | .local _ .vmem, ⟨8, _⟩ => ⟨S1024x32, .f32⟩
  | .local _ .vmem, ⟨9, _⟩ => ⟨S1024x32, .f32⟩
  | .local _ .vmem, ⟨10, _⟩ => ⟨S256x16, .f32⟩
  | .local _ .vmem, ⟨11, _⟩ => ⟨S32x16, .f32⟩
  | .local _ .vmem, ⟨12, _⟩ => ⟨S1x16, .f32⟩
  | .local _ .vmem, ⟨13, _⟩ => ⟨S1024x256, .f32⟩
  | .local _ .vmem, ⟨14, _⟩ => ⟨S1024x256, .f32⟩
  | .local _ .vmem, ⟨15, _⟩ => ⟨S1024x16, .f32⟩
  | .local _ .vmem, ⟨16, _⟩ => ⟨S1024x16, .f32⟩
  | .local _ .vmem, ⟨17, _⟩ => ⟨S4096x4096, .bf16⟩
  | .local _ .vmem, ⟨18, _⟩ => ⟨S4096x512, .bf16⟩
  | .local _ .vmem, ⟨19, _⟩ => ⟨S4096x256, .bf16⟩
  | .local _ .vmem, ⟨20, _⟩ => ⟨S4096x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v18 : BitVec 32 := Scalar.muli arg0 c256_i32
  let v19 : Index := Scalar.indexCast v18
  let c0_7 : Index := 0#32
  ![v19.toNat, 0]
def k0_off2 (i : grid0.Coords) : Fin 2 → Nat :=
  let arg0 : BitVec 32 := BitVec.ofNat 32 (i 0).val
  let c256_i32_9 : BitVec 32 := 256#32
  let v28 : BitVec 32 := Scalar.muli arg0 c256_i32_9
  let v29 : Index := Scalar.indexCast v28
  let c0_10 : Index := 0#32
  ![v29.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let c20_i32 : BitVec 32 := 20#32
  let v4 : BitVec 1 := Scalar.cmpi .slt arg0 c20_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 2 → Nat :=
  let arg0 : BitVec 32 := BitVec.ofNat 32 (i 0).val
  let c16_i32_6 : BitVec 32 := 16#32
  let v16 : BitVec 32 := Scalar.subi arg0 c16_i32_6
  let c1024_i32 : BitVec 32 := 1024#32
  let v17 : BitVec 32 := Scalar.muli v16 c1024_i32
  let v18 : Index := Scalar.indexCast v17
  let c0 : Index := 0#32
  ![v18.toNat, 0]
def k0_off4 (i : grid0.Coords) : Fin 2 → Nat :=
  let arg0 : BitVec 32 := BitVec.ofNat 32 (i 0).val
  let c16_i32_6 : BitVec 32 := 16#32
  let v16 : BitVec 32 := Scalar.subi arg0 c16_i32_6
  let c1024_i32 : BitVec 32 := 1024#32
  let v17 : BitVec 32 := Scalar.muli v16 c1024_i32
  let v28 : Index := Scalar.indexCast v17
  let c0_11 : Index := 0#32
  ![v28.toNat, 0]
def k0_cond3 (i : grid0.Coords) : BitVec 1 :=
  let arg0 : BitVec 32 := BitVec.ofNat 32 (i 0).val
  let c20_i32_2 : BitVec 32 := 20#32
  let v8 : BitVec 1 := Scalar.cmpi .sge arg0 c20_i32_2
  let c24_i32 : BitVec 32 := 24#32
  let v9 : BitVec 1 := Scalar.cmpi .slt arg0 c24_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off5 (i : grid0.Coords) : Fin 2 → Nat :=
  let arg0 : BitVec 32 := BitVec.ofNat 32 (i 0).val
  let c20_i32_6 : BitVec 32 := 20#32
  let v16 : BitVec 32 := Scalar.subi arg0 c20_i32_6
  let c1024_i32 : BitVec 32 := 1024#32
  let v17 : BitVec 32 := Scalar.muli v16 c1024_i32
  let v18 : Index := Scalar.indexCast v17
  let c0 : Index := 0#32
  ![v18.toNat, 0]
def k0_off6 (i : grid0.Coords) : Fin 2 → Nat :=
  let arg0 : BitVec 32 := BitVec.ofNat 32 (i 0).val
  let c20_i32_6 : BitVec 32 := 20#32
  let v16 : BitVec 32 := Scalar.subi arg0 c20_i32_6
  let c1024_i32 : BitVec 32 := 1024#32
  let v17 : BitVec 32 := Scalar.muli v16 c1024_i32
  let v22 : Index := Scalar.indexCast v17
  let c0_9 : Index := 0#32
  ![v22.toNat, 0]
def k0_off7 (i : grid0.Coords) : Fin 2 → Nat :=
  let arg0 : BitVec 32 := BitVec.ofNat 32 (i 0).val
  let c20_i32_6 : BitVec 32 := 20#32
  let v16 : BitVec 32 := Scalar.subi arg0 c20_i32_6
  let c1024_i32 : BitVec 32 := 1024#32
  let v17 : BitVec 32 := Scalar.muli v16 c1024_i32
  let v25 : Index := Scalar.indexCast v17
  let c0_10 : Index := 0#32
  ![v25.toNat, 0]
def k0_off8 (i : grid0.Coords) : Fin 2 → Nat :=
  let arg0 : BitVec 32 := BitVec.ofNat 32 (i 0).val
  let c20_i32_6 : BitVec 32 := 20#32
  let v16 : BitVec 32 := Scalar.subi arg0 c20_i32_6
  let c1024_i32 : BitVec 32 := 1024#32
  let v17 : BitVec 32 := Scalar.muli v16 c1024_i32
  let v46 : Index := Scalar.indexCast v17
  let c0_19 : Index := 0#32
  ![v46.toNat, 0]
def k0_cond4 (i : grid0.Coords) : BitVec 1 :=
  let arg0 : BitVec 32 := BitVec.ofNat 32 (i 0).val
  let c24_i32_4 : BitVec 32 := 24#32
  let v13 : BitVec 1 := Scalar.cmpi .sge arg0 c24_i32_4
  let v14 : BitVec 32 := Scalar.extui v13
  let c0_i32_5 : BitVec 32 := 0#32
  let v15 : BitVec 1 := Scalar.cmpi .ne v14 c0_i32_5
  v15

def k0_off9 (i : grid0.Coords) : Fin 2 → Nat :=
  let arg0 : BitVec 32 := BitVec.ofNat 32 (i 0).val
  let c24_i32_6 : BitVec 32 := 24#32
  let v16 : BitVec 32 := Scalar.subi arg0 c24_i32_6
  let c1024_i32 : BitVec 32 := 1024#32
  let v17 : BitVec 32 := Scalar.muli v16 c1024_i32
  let v18 : Index := Scalar.indexCast v17
  let c0 : Index := 0#32
  ![v18.toNat, 0]
def k0_off10 (i : grid0.Coords) : Fin 2 → Nat :=
  let arg0 : BitVec 32 := BitVec.ofNat 32 (i 0).val
  let c24_i32_6 : BitVec 32 := 24#32
  let v16 : BitVec 32 := Scalar.subi arg0 c24_i32_6
  let c1024_i32 : BitVec 32 := 1024#32
  let v17 : BitVec 32 := Scalar.muli v16 c1024_i32
  let v22 : Index := Scalar.indexCast v17
  let c0_9 : Index := 0#32
  ![v22.toNat, 0]
def k0_off11 (i : grid0.Coords) : Fin 2 → Nat :=
  let arg0 : BitVec 32 := BitVec.ofNat 32 (i 0).val
  let c24_i32_6 : BitVec 32 := 24#32
  let v16 : BitVec 32 := Scalar.subi arg0 c24_i32_6
  let c1024_i32 : BitVec 32 := 1024#32
  let v17 : BitVec 32 := Scalar.muli v16 c1024_i32
  let v25 : Index := Scalar.indexCast v17
  let c0_10 : Index := 0#32
  ![v25.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S512_S1x512 : S512.ShapeCasts S1x512
  shapeCasts_S256_S1x256 : S256.ShapeCasts S1x256
  slices_S288x16_S256x16_0_0 : S288x16.Slices ![0, 0] S256x16
  slices_S288x16_S32x16_256_0 : S288x16.Slices ![256, 0] S32x16
  shapeCasts_S16_S1x16 : S16.ShapeCasts S1x16
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  h_S256x1 : 0 < S256x1.numel
  shapeCasts_S256x1_S256x1 : S256x1.ShapeCasts S256x1
  h_S1024x1 : 0 < S1024x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1024x1_S1024x512 : S1024x1.Broadcasts S1024x512
  h_S1024x4096 : 0 < S1024x4096.numel
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  broadcasts_S1024x1_S1024x256 : S1024x1.Broadcasts S1024x256
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1024x32_S1024x32_0_0 : ∀ a, (![0, 0] : Fin 2 → Nat) a + S1024x32.size a ≤ S1024x32.size a
  h_S1024x32 : 0 < S1024x32.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  dot_S1024x512_S512x512_S1024x512_1_0_0_1_n_n_wf : DotDims.WF S1024x512 S512x512 S1024x512 [1] [0] [0] [1] [] []
  dot_S1024x4096_S4096x512_S1024x512_1_0_0_1_n_n_wf : DotDims.WF S1024x4096 S4096x512 S1024x512 [1] [0] [0] [1] [] []
  dot_S1024x512_S512x256_S1024x256_1_0_0_1_n_n_wf : DotDims.WF S1024x512 S512x256 S1024x256 [1] [0] [0] [1] [] []
  dot_S1024x4096_S4096x256_S1024x256_1_0_0_1_n_n_wf : DotDims.WF S1024x4096 S4096x256 S1024x256 [1] [0] [0] [1] [] []
  dot_S1024x256_S256x16_S1024x16_1_0_0_1_n_n_wf : DotDims.WF S1024x256 S256x16 S1024x16 [1] [0] [0] [1] [] []
  dot_S1024x32_S32x16_S1024x16_1_0_0_1_n_n_wf : DotDims.WF S1024x32 S32x16 S1024x16 [1] [0] [0] [1] [] []
  hrank0 : 0 < grid0.rank
  k0_off1_inb : ∀ i : grid0.Coords, ∀ (k0_h1 : k0_cond1 i = 1#1), ∀ a, (k0_off1 i) a + S256x4096.size a ≤ S4096x4096.size a
  k0_off1_packedbf16 : ∀ i : grid0.Coords, ∀ (k0_h1 : k0_cond1 i = 1#1), (Rect.unit (s := S4096x4096) (k0_off1 i) S256x4096.size (k0_off1_inb i k0_h1)).PackedRows (EltTy.packing .bf16)
  k0_off2_inb : ∀ i : grid0.Coords, ∀ (k0_h1 : k0_cond1 i = 1#1), ∀ a, (k0_off2 i) a + S256x1.size a ≤ S4096x1.size a
  k0_off3_inb : ∀ i : grid0.Coords, ∀ (k0_h2 : k0_cond2 i = 1#1), ∀ a, (k0_off3 i) a + S1024x1.size a ≤ S4096x1.size a
  k0_off4_inb : ∀ i : grid0.Coords, ∀ (k0_h2 : k0_cond2 i = 1#1), ∀ a, (k0_off4 i) a + S1024x512.size a ≤ S4096x512.size a
  k0_off4_packedbf16 : ∀ i : grid0.Coords, ∀ (k0_h2 : k0_cond2 i = 1#1), (Rect.unit (s := S4096x512) (k0_off4 i) S1024x512.size (k0_off4_inb i k0_h2)).PackedRows (EltTy.packing .bf16)
  k0_off5_inb : ∀ i : grid0.Coords, ∀ (k0_h3 : k0_cond3 i = 1#1), ∀ a, (k0_off5 i) a + S1024x4096.size a ≤ S4096x4096.size a
  k0_off6_inb : ∀ i : grid0.Coords, ∀ (k0_h3 : k0_cond3 i = 1#1), ∀ a, (k0_off6 i) a + S1024x512.size a ≤ S4096x512.size a
  k0_off7_inb : ∀ i : grid0.Coords, ∀ (k0_h3 : k0_cond3 i = 1#1), ∀ a, (k0_off7 i) a + S1024x1.size a ≤ S4096x1.size a
  k0_off8_inb : ∀ i : grid0.Coords, ∀ (k0_h3 : k0_cond3 i = 1#1), ∀ a, (k0_off8 i) a + S1024x256.size a ≤ S4096x256.size a
  k0_off8_packedbf16 : ∀ i : grid0.Coords, ∀ (k0_h3 : k0_cond3 i = 1#1), (Rect.unit (s := S4096x256) (k0_off8 i) S1024x256.size (k0_off8_inb i k0_h3)).PackedRows (EltTy.packing .bf16)
  k0_off9_inb : ∀ i : grid0.Coords, ∀ (k0_h4 : k0_cond4 i = 1#1), ∀ a, (k0_off9 i) a + S1024x4096.size a ≤ S4096x4096.size a
  k0_off10_inb : ∀ i : grid0.Coords, ∀ (k0_h4 : k0_cond4 i = 1#1), ∀ a, (k0_off10 i) a + S1024x256.size a ≤ S4096x256.size a
  k0_off11_inb : ∀ i : grid0.Coords, ∀ (k0_h4 : k0_cond4 i = 1#1), ∀ a, (k0_off11 i) a + S1024x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S4096x32.size a
  hwx0_6 : ∀ i : grid0.Coords, EltTy.bits .f32 = 32 ∨ (Rect.block (s := S4096x32) S1024x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S256x16.size a
  hwx0_7 : ∀ i : grid0.Coords, EltTy.bits .f32 = 32 ∨ (Rect.block (s := S256x16) S256x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x16.size a ≤ S32x16.size a
  hwx0_8 : ∀ i : grid0.Coords, EltTy.bits .f32 = 32 ∨ (Rect.block (s := S32x16) S32x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S4096x256.size a
  hwx0_10 : ∀ i : grid0.Coords, EltTy.bits .f32 = 32 ∨ (Rect.block (s := S4096x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x16.size a ≤ S4096x16.size a
  hwx0_11 : ∀ i : grid0.Coords, EltTy.bits .f32 = 32 ∨ (Rect.block (s := S4096x16) S1024x16.size (cc0_transform_11 i) (hinb0_11 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S32x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S1024x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond4 i == 1#1) | 11 => fun i => !(k0_cond4 i == 1#1) | ⟨_ + 12, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S4096x32 : Shape := ⟨2, ![4096, 32]⟩
abbrev S512x512 : Shape := ⟨2, ![512, 512]⟩
abbrev S512 : Shape := ⟨1, ![512]⟩
abbrev S512x256 : Shape := ⟨2, ![512, 256]⟩
abbrev S256 : Shape := ⟨1, ![256]⟩
abbrev S288x16 : Shape := ⟨2, ![288, 16]⟩
abbrev S16 : Shape := ⟨1, ![16]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x512 : Shape := ⟨2, ![1, 512]⟩
abbrev S4096x256 : Shape := ⟨2, ![4096, 256]⟩
abbrev S1x256 : Shape := ⟨2, ![1, 256]⟩
abbrev S4096x288 : Shape := ⟨2, ![4096, 288]⟩
abbrev S4096x16 : Shape := ⟨2, ![4096, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x32, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S288x16, .f32⟩
  | .hbm, ⟨8, _⟩ => ⟨S16, .f32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S_, .f32⟩
  | .hbm, ⟨36, _⟩ => ⟨S4096x512, .f32⟩
  | .hbm, ⟨37, _⟩ => ⟨S4096x512, .i1⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x4096, .i32⟩
  | .hbm, ⟨43, _⟩ => ⟨S4096x4096, .i32⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1, .f32⟩
  | .hbm, ⟨57, _⟩ => ⟨S4096x4096, .f32⟩
  | .hbm, ⟨58, _⟩ => ⟨S4096x4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x256, .f32⟩
  | .hbm, ⟨63, _⟩ => ⟨S4096x256, .f32⟩
  | .hbm, ⟨64, _⟩ => ⟨S1x256, .f32⟩
  | .hbm, ⟨65, _⟩ => ⟨S4096x256, .f32⟩
  | .hbm, ⟨66, _⟩ => ⟨S4096x256, .f32⟩
  | .hbm, ⟨67, _⟩ => ⟨S4096x288, .f32⟩
  | .hbm, ⟨68, _⟩ => ⟨S4096x16, .f32⟩
  | .hbm, ⟨69, _⟩ => ⟨S1x16, .f32⟩
  | .hbm, ⟨70, _⟩ => ⟨S4096x16, .f32⟩
  | .hbm, ⟨71, _⟩ => ⟨S4096x16, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096x1, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x16, .f32⟩
  | .hbm, ⟨85, _⟩ => ⟨S4096x16, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x32_S4096x288_d1 : Shape.Concatenates [S4096x256, S4096x32] S4096x288 1
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  bcast_S4096x1_S4096x16_0_1 : S4096x1.BroadcastsInDim S4096x16 (![0, 1] : Fin 2 → Fin S4096x16.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x288_S288x16_S4096x16_1_0_0_1_n_n_wf : DotDims.WF S4096x288 S288x16 S4096x16 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x288_S288x16_S4096x16_1_0_0_1_n_n : DotDims S4096x288 S288x16 S4096x16 where
  lhsContracting := [1]
  rhsContracting := [0]
  lhsNonContracting := [0]
  rhsNonContracting := [1]
  lhsBatch := []
  rhsBatch := []
  wf := dot_S4096x288_S288x16_S4096x16_1_0_0_1_n_n_wf

class Facts : Prop extends Facts₀ where

variable [Facts]
-- ==== Proof.KernelBody.lean ====
/-
  The kernel's body at one grid point, at any float instance.

  Called on whole staging buffers (the ten input windows' and the two output windows') and on the four whole scratch
  buffers, the body runs to its end and faults nowhere: every load is of a rectangle inside its buffer, every store
  is of a rectangle inside its buffer (the rows a phase writes start at a multiple of the phase's row count computed
  from the grid coordinate, and the printed program carries the proof that they fit). Each of the four phases stands
  under a condition on the grid coordinate alone, so at a symbolic point each buffer a phase stores into ends at "the
  store's result if the condition holds, else what it held". The ten input buffers are only loaded from: they end
  as they began. Nothing is said here of what the two output buffers and the four scratch buffers end with, only
  that they are still whole buffers at some contents.
-/
import proofs.«154251_g79121887527625_cont_sun_m_466_24_alg».proof.Proof.Gen.Kernel.Skeleton
import proofs.«154251_g79121887527625_cont_sun_m_466_24_alg».proof.Proof.Gen.Kernel.Launch
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1600000 in
/-- The body from the ten input buffers at contents `x0 … x9` and the other six at any contents: it reaches its
    continuation holding the inputs at the same contents and the other six at some contents. -/
theorem body_run (c : Dev nD) (i : grid0.Coords) (arg1 : Memref sig .tc .vmem S256x4096 .f32) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x32 .f32) (harg7 : arg7.IsWhole) (arg8 : Memref sig .tc .vmem S256x16 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S4096x4096 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4096x1 .f32) (harg16 : arg16.IsWhole)
    (x0 : Vec F S256x4096 .f32) (x1 : Vec F S1024x512 .bf16) (x2 : Vec F S512x512 .bf16) (x3 : Vec F S512x256 .f32) (x4 : Vec F S1x512 .f32) (x5 : Vec F S1x256 .f32) (x6 : Vec F S1024x32 .f32) (x7 : Vec F S256x16 .f32) (x8 : Vec F S32x16 .f32) (x9 : Vec F S1x16 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
        ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec!
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.Kernel.Body

end
-- ==== Proof.KernelFrame.lean ====
/-
  The frame of the program: it terminates, nothing faults, and its nine argument arrays end unchanged.

  The pallas_call is one pipeline of 28 grid points over twelve windows (ten inputs, two outputs) and four scratch
  buffers. For the frame nothing need be known of what the body computes. The proof data says: each input window's
  staging buffer holds, before and after the body at every point, that point's block of the array as the region
  found it (the body only loads from it); the two output windows are handed to the body at any contents and taken
  back at any contents; the four scratch buffers and the generator register are held, at any contents, by the
  region's invariant, which the body returns as it found it up to contents. The body's run at one point is the
  module before this one. Since only output blocks are ever written back, the three argument arrays that are
  staged through a window (the adjacency, the side features and the second weight matrix) end at their entry
  contents, and the six that no window of this call stages are not touched by the region at all; the host
  operations before the region (two format changes, three reshapes and two slices) write fresh buffers only.
-/
import proofs.«154251_g79121887527625_cont_sun_m_466_24_alg».proof.Proof.Gen.Kernel.Frame
import proofs.«154251_g79121887527625_cont_sun_m_466_24_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output windows: nothing of what the body leaves in them is named. -/
def forgets : Fin 12 → Bool := fun w => w.val == 10 || w.val == 11

/-- The proof data on core `c`: the arrays as the region finds them; after the body each input's buffer at its
    block, the outputs' at nothing named; the invariant the scratch buffers and the generator register at any
    contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

/-- An input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X))

/-- The four scratch operands as whole memrefs. -/
abbrev scM0 : Memref sig .tc .vmem S4096x4096 .bf16 := Memref.whole cc0_scratch0
abbrev scM1 : Memref sig .tc .vmem S4096x512 .bf16 := Memref.whole cc0_scratch1
abbrev scM2 : Memref sig .tc .vmem S4096x256 .bf16 := Memref.whole cc0_scratch2
abbrev scM3 : Memref sig .tc .vmem S4096x1 .f32 := Memref.whole cc0_scratch3

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

set_option maxHeartbeats 1600000 in
/-- The body at any point: the inputs' buffers hold their blocks and come back holding them; the outputs' and the
    scratch buffers go in at some contents and come back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, after_0, after_1, after_2, after_3, after_4, after_5, after_6, after_7, after_8, after_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (body_run c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitr [Hg]; swap; · iexact Hg
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point, the two outputs forgotten. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- Every weakly fair execution of @main terminates, every input array of the pipeline unchanged, every unscoped
    buffer that is no array of it at its region-entry contents. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs and its nine argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      (Eq.mp (congrFun (((dats m 0 c).toRForget forgets).ArrAt_in 0 rfl _) _) ((h c).1 0)).trans ((A_eq m c 0).trans (V_main_arg1 m c)),
      (Eq.mp (congrFun (((dats m 0 c).toRForget forgets).ArrAt_in 6 rfl _) _) ((h c).1 6)).trans ((A_eq m c 6).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Eq.mp (congrFun (((dats m 0 c).toRForget forgets).ArrAt_in 3 rfl _) _) ((h c).1 3)).trans ((A_eq m c 3).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Kernel.Body

end
-- ==== Proof.KernelIdealBody.lean ====
/-
  The kernel's body at one grid point, at any float instance.

  Called on whole staging buffers (the ten input windows' and the two output windows') and on the four whole scratch
  buffers, the body runs to its end and faults nowhere: every load is of a rectangle inside its buffer, every store
  is of a rectangle inside its buffer (the rows a phase writes start at a multiple of the phase's row count computed
  from the grid coordinate, and the printed program carries the proof that they fit). Each of the four phases stands
  under a condition on the grid coordinate alone, so at a symbolic point each buffer a phase stores into ends at "the
  store's result if the condition holds, else what it held". The ten input buffers are only loaded from: they end
  as they began. Nothing is said here of what the two output buffers and the four scratch buffers end with, only
  that they are still whole buffers at some contents.
-/
import proofs.«154251_g79121887527625_cont_sun_m_466_24_alg».proof.Proof.Gen.KernelIdeal.Skeleton
import proofs.«154251_g79121887527625_cont_sun_m_466_24_alg».proof.Proof.Gen.KernelIdeal.Launch
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1600000 in
/-- The body from the ten input buffers at contents `x0 … x9` and the other six at any contents: it reaches its
    continuation holding the inputs at the same contents and the other six at some contents. -/
theorem body_run (c : Dev nD) (i : grid0.Coords) (arg1 : Memref sig .tc .vmem S256x4096 .f32) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x32 .f32) (harg7 : arg7.IsWhole) (arg8 : Memref sig .tc .vmem S256x16 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S4096x4096 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4096x1 .f32) (harg16 : arg16.IsWhole)
    (x0 : Vec F S256x4096 .f32) (x1 : Vec F S1024x512 .bf16) (x2 : Vec F S512x512 .bf16) (x3 : Vec F S512x256 .f32) (x4 : Vec F S1x512 .f32) (x5 : Vec F S1x256 .f32) (x6 : Vec F S1024x32 .f32) (x7 : Vec F S256x16 .f32) (x8 : Vec F S32x16 .f32) (x9 : Vec F S1x16 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
        ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec!
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Body

end
-- ==== Proof.KernelIdealFrame.lean ====
/-
  The frame of the program: it terminates, nothing faults, and its nine argument arrays end unchanged.

  The pallas_call is one pipeline of 28 grid points over twelve windows (ten inputs, two outputs) and four scratch
  buffers. For the frame nothing need be known of what the body computes. The proof data says: each input window's
  staging buffer holds, before and after the body at every point, that point's block of the array as the region
  found it (the body only loads from it); the two output windows are handed to the body at any contents and taken
  back at any contents; the four scratch buffers and the generator register are held, at any contents, by the
  region's invariant, which the body returns as it found it up to contents. The body's run at one point is the
  module before this one. Since only output blocks are ever written back, the three argument arrays that are
  staged through a window (the adjacency, the side features and the second weight matrix) end at their entry
  contents, and the six that no window of this call stages are not touched by the region at all; the host
  operations before the region (two format changes, three reshapes and two slices) write fresh buffers only.
-/
import proofs.«154251_g79121887527625_cont_sun_m_466_24_alg».proof.Proof.Gen.KernelIdeal.Frame
import proofs.«154251_g79121887527625_cont_sun_m_466_24_alg».proof.Proof.KernelIdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output windows: nothing of what the body leaves in them is named. -/
def forgets : Fin 12 → Bool := fun w => w.val == 10 || w.val == 11

/-- The proof data on core `c`: the arrays as the region finds them; after the body each input's buffer at its
    block, the outputs' at nothing named; the invariant the scratch buffers and the generator register at any
    contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

/-- An input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X))

/-- The four scratch operands as whole memrefs. -/
abbrev scM0 : Memref sig .tc .vmem S4096x4096 .bf16 := Memref.whole cc0_scratch0
abbrev scM1 : Memref sig .tc .vmem S4096x512 .bf16 := Memref.whole cc0_scratch1
abbrev scM2 : Memref sig .tc .vmem S4096x256 .bf16 := Memref.whole cc0_scratch2
abbrev scM3 : Memref sig .tc .vmem S4096x1 .f32 := Memref.whole cc0_scratch3

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

set_option maxHeartbeats 1600000 in
/-- The body at any point: the inputs' buffers hold their blocks and come back holding them; the outputs' and the
    scratch buffers go in at some contents and come back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, after_0, after_1, after_2, after_3, after_4, after_5, after_6, after_7, after_8, after_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (body_run c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitr [Hg]; swap; · iexact Hg
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point, the two outputs forgotten. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- Every weakly fair execution of @main terminates, every input array of the pipeline unchanged, every unscoped
    buffer that is no array of it at its region-entry contents. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs and its nine argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      (Eq.mp (congrFun (((dats m 0 c).toRForget forgets).ArrAt_in 0 rfl _) _) ((h c).1 0)).trans ((A_eq m c 0).trans (V_main_arg1 m c)),
      (Eq.mp (congrFun (((dats m 0 c).toRForget forgets).ArrAt_in 6 rfl _) _) ((h c).1 6)).trans ((A_eq m c 6).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Eq.mp (congrFun (((dats m 0 c).toRForget forgets).ArrAt_in 3 rfl _) _) ((h c).1 3)).trans ((A_eq m c 3).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.KernelIdeal.Body

end
-- ==== Proof.ReferenceLine.lean ====
/-
  The reference program as one straight line of host operations, and its frame.

  The reference is plain host code: it builds the identity matrix (two index grids compared for equality, read as
  0 / 1), adds the adjacency, sums each row, takes 1 over the square root of the sums, scales the matrix by that
  vector on its rows and on its columns, and applies the result to x W0 (+ b0, then the leaky rectifier, which the
  program calls as a function that itself calls a select) and again to the rectified values times W1 (+ b1); then
  the classifier: the concatenation of that with the side features times Wc, + bc, and a soft-max of each row
  (row maximum, exponential of the difference, division by the row sum). Written out at the two calls this is 77
  operations, each reading buffers written before it and writing a buffer of its own; none writes an argument.
  So every execution terminates, nothing faults, and the nine argument arrays end as they began.
-/
import proofs.«154251_g79121887527625_cont_sun_m_466_24_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two function bodies written out where they are called. -/
abbrev ops : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    binary main_v5 main_arg1 main_v6 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    binary main_v6 main_cst main_v7 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v7 main_v8 (Host.sqrt : (⟨S4096, .f32⟩ : BufTy).Contents (Elt F) → (⟨S4096, .f32⟩ : BufTy).Contents (Elt F)),
    nullary main_cst_0 (constant S_ .f32 0x3F800000#32),
    unary main_cst_0 main_v9 (broadcastInDim S4096 ![] bcast_S_S4096 : (⟨S_, .f32⟩ : BufTy).Contents (Elt F) → (⟨S4096, .f32⟩ : BufTy).Contents (Elt F)),
    binary main_v9 main_v8 main_v10 (Host.divf : (⟨S4096, .f32⟩ : BufTy).Contents (Elt F) → (⟨S4096, .f32⟩ : BufTy).Contents (Elt F) → (⟨S4096, .f32⟩ : BufTy).Contents (Elt F)),
    unary main_v10 main_v11 (broadcastInDim S4096x1 ![0] bcast_S4096_S4096x1_0 : (⟨S4096, .f32⟩ : BufTy).Contents (Elt F) → (⟨S4096x1, .f32⟩ : BufTy).Contents (Elt F)),
    unary main_v11 main_v12 (broadcastInDim S4096x4096 ![0, 1] bcast_S4096x1_S4096x4096_0_1 : (⟨S4096x1, .f32⟩ : BufTy).Contents (Elt F) → (⟨S4096x4096, .f32⟩ : BufTy).Contents (Elt F)),
    binary main_v6 main_v12 main_v13 (mulf : (⟨S4096x4096, .f32⟩ : BufTy).Contents (Elt F) → (⟨S4096x4096, .f32⟩ : BufTy).Contents (Elt F) → (⟨S4096x4096, .f32⟩ : BufTy).Contents (Elt F)),
    unary main_v10 main_v14 (broadcastInDim S1x4096 ![1] bcast_S4096_S1x4096_1 : (⟨S4096, .f32⟩ : BufTy).Contents (Elt F) → (⟨S1x4096, .f32⟩ : BufTy).Contents (Elt F)),
    unary main_v14 main_v15 (broadcastInDim S4096x4096 ![0, 1] bcast_S1x4096_S4096x4096_0_1 : (⟨S1x4096, .f32⟩ : BufTy).Contents (Elt F) → (⟨S4096x4096, .f32⟩ : BufTy).Contents (Elt F)),
    binary main_v13 main_v15 main_v16 (mulf : (⟨S4096x4096, .f32⟩ : BufTy).Contents (Elt F) → (⟨S4096x4096, .f32⟩ : BufTy).Contents (Elt F) → (⟨S4096x4096, .f32⟩ : BufTy).Contents (Elt F)),
    binary main_arg0 main_arg3 main_v17 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_v16 main_v17 main_v18 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_arg4 main_v19 (broadcastInDim S1x512 ![1] bcast_S512_S1x512_1 : (⟨S512, .f32⟩ : BufTy).Contents (Elt F) → (⟨S1x512, .f32⟩ : BufTy).Contents (Elt F)),
    unary main_v19 main_v20 (broadcastInDim S4096x512 ![0, 1] bcast_S1x512_S4096x512_0_1 : (⟨S1x512, .f32⟩ : BufTy).Contents (Elt F) → (⟨S4096x512, .f32⟩ : BufTy).Contents (Elt F)),
    binary main_v18 main_v20 main_v21 (addf : (⟨S4096x512, .f32⟩ : BufTy).Contents (Elt F) → (⟨S4096x512, .f32⟩ : BufTy).Contents (Elt F) → (⟨S4096x512, .f32⟩ : BufTy).Contents (Elt F)),
    nullary main_cst_1 (constant S_ .f32 0x3C23D70A#32),
    TRef.nullary main_call0.cst (constant S_ .f32 0x00000000#32),
    TRef.unary main_call0.cst main_call0.v0 (broadcastInDim S4096x512 ![] bcast_S_S4096x512),
    TRef.binary (.of main_v21) main_call0.v0 main_call0.v1 (cmpf .oge),
    TRef.unary (.of main_cst_1) main_call0.v2 id,
    TRef.unary main_call0.v2 main_call0.v3 (broadcastInDim S4096x512 ![] bcast_S_S4096x512),
    TRef.binary main_call0.v3 (.of main_v21) main_call0.v4 mulf,
    TRef.ternary main_call0.v1 (.of main_v21) main_call0.v4 main_call0.call0.v0 select,
    nullary main_v23 (iotaInDim S4096x4096 32 0),
    nullary main_v24 (iotaInDim S4096x4096 32 1),
    nullary main_c_2 (constantI S_ 32 0#32),
    unary main_c_2 main_v25 (broadcastInDim S4096x4096 ![] bcast_S_S4096x4096 : (⟨S_, .i32⟩ : BufTy).Contents (Elt F) → (⟨S4096x4096, .i32⟩ : BufTy).Contents (Elt F)),
    binary main_v23 main_v25 main_v26 (addi : (⟨S4096x4096, .i32⟩ : BufTy).Contents (Elt F) → (⟨S4096x4096, .i32⟩ : BufTy).Contents (Elt F) → (⟨S4096x4096, .i32⟩ : BufTy).Contents (Elt F)),
    binary main_v26 main_v24 main_v27 (cmpi .eq : (⟨S4096x4096, .i32⟩ : BufTy).Contents (Elt F) → (⟨S4096x4096, .i32⟩ : BufTy).Contents (Elt F) → (⟨S4096x4096, .i1⟩ : BufTy).Contents (Elt F)),
    unary main_v27 main_v28 (uitofp .f32 : (⟨S4096x4096, .i1⟩ : BufTy).Contents (Elt F) → (⟨S4096x4096, .f32⟩ : BufTy).Contents (Elt F)),
    binary main_v28 main_arg1 main_v29 (addf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x00000000#32),
    binary main_v29 main_cst_3 main_v30 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v30 main_v31 (Host.sqrt : (⟨S4096, .f32⟩ : BufTy).Contents (Elt F) → (⟨S4096, .f32⟩ : BufTy).Contents (Elt F)),
    nullary main_cst_4 (constant S_ .f32 0x3F800000#32),
    unary main_cst_4 main_v32 (broadcastInDim S4096 ![] bcast_S_S4096 : (⟨S_, .f32⟩ : BufTy).Contents (Elt F) → (⟨S4096, .f32⟩ : BufTy).Contents (Elt F)),
    binary main_v32 main_v31 main_v33 (Host.divf : (⟨S4096, .f32⟩ : BufTy).Contents (Elt F) → (⟨S4096, .f32⟩ : BufTy).Contents (Elt F) → (⟨S4096, .f32⟩ : BufTy).Contents (Elt F)),
    unary main_v33 main_v34 (broadcastInDim S4096x1 ![0] bcast_S4096_S4096x1_0 : (⟨S4096, .f32⟩ : BufTy).Contents (Elt F) → (⟨S4096x1, .f32⟩ : BufTy).Contents (Elt F)),
    unary main_v34 main_v35 (broadcastInDim S4096x4096 ![0, 1] bcast_S4096x1_S4096x4096_0_1 : (⟨S4096x1, .f32⟩ : BufTy).Contents (Elt F) → (⟨S4096x4096, .f32⟩ : BufTy).Contents (Elt F)),
    binary main_v29 main_v35 main_v36 (mulf : (⟨S4096x4096, .f32⟩ : BufTy).Contents (Elt F) → (⟨S4096x4096, .f32⟩ : BufTy).Contents (Elt F) → (⟨S4096x4096, .f32⟩ : BufTy).Contents (Elt F)),
    unary main_v33 main_v37 (broadcastInDim S1x4096 ![1] bcast_S4096_S1x4096_1 : (⟨S4096, .f32⟩ : BufTy).Contents (Elt F) → (⟨S1x4096, .f32⟩ : BufTy).Contents (Elt F)),
    unary main_v37 main_v38 (broadcastInDim S4096x4096 ![0, 1] bcast_S1x4096_S4096x4096_0_1 : (⟨S1x4096, .f32⟩ : BufTy).Contents (Elt F) → (⟨S4096x4096, .f32⟩ : BufTy).Contents (Elt F)),
    binary main_v36 main_v38 main_v39 (mulf : (⟨S4096x4096, .f32⟩ : BufTy).Contents (Elt F) → (⟨S4096x4096, .f32⟩ : BufTy).Contents (Elt F) → (⟨S4096x4096, .f32⟩ : BufTy).Contents (Elt F)),
    binary main_v22 main_arg5 main_v40 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    binary main_v39 main_v40 main_v41 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg6 main_v42 (broadcastInDim S1x256 ![1] bcast_S256_S1x256_1 : (⟨S256, .f32⟩ : BufTy).Contents (Elt F) → (⟨S1x256, .f32⟩ : BufTy).Contents (Elt F)),
    unary main_v42 main_v43 (broadcastInDim S4096x256 ![0, 1] bcast_S1x256_S4096x256_0_1 : (⟨S1x256, .f32⟩ : BufTy).Contents (Elt F) → (⟨S4096x256, .f32⟩ : BufTy).Contents (Elt F)),
    binary main_v41 main_v43 main_v44 (addf : (⟨S4096x256, .f32⟩ : BufTy).Contents (Elt F) → (⟨S4096x256, .f32⟩ : BufTy).Contents (Elt F) → (⟨S4096x256, .f32⟩ : BufTy).Contents (Elt F)),
    binary main_v44 main_arg2 main_v45 ((fun a b => concatenate S4096x288 1 [⟨S4096x256, a⟩, ⟨S4096x32, b⟩] concatenates_S4096x256_S4096x32_S4096x288_d1) : (⟨S4096x256, .f32⟩ : BufTy).Contents (Elt F) → (⟨S4096x32, .f32⟩ : BufTy).Contents (Elt F) → (⟨S4096x288, .f32⟩ : BufTy).Contents (Elt F)),
    binary main_v45 main_arg7 main_v46 ((fun l r => Host.dotGeneral dot_S4096x288_S288x16_S4096x16_1_0_0_1_n_n none l r) : (⟨S4096x288, .f32⟩ : BufTy).Contents (Elt F) → (⟨S288x16, .f32⟩ : BufTy).Contents (Elt F) → (⟨S4096x16, .f32⟩ : BufTy).Contents (Elt F)),
    unary main_arg8 main_v47 (broadcastInDim S1x16 ![1] bcast_S16_S1x16_1 : (⟨S16, .f32⟩ : BufTy).Contents (Elt F) → (⟨S1x16, .f32⟩ : BufTy).Contents (Elt F)),
    unary main_v47 main_v48 (broadcastInDim S4096x16 ![0, 1] bcast_S1x16_S4096x16_0_1 : (⟨S1x16, .f32⟩ : BufTy).Contents (Elt F) → (⟨S4096x16, .f32⟩ : BufTy).Contents (Elt F)),
    binary main_v46 main_v48 main_v49 (addf : (⟨S4096x16, .f32⟩ : BufTy).Contents (Elt F) → (⟨S4096x16, .f32⟩ : BufTy).Contents (Elt F) → (⟨S4096x16, .f32⟩ : BufTy).Contents (Elt F)),
    nullary main_cst_5 (constant S_ .f32 0xFF800000#32),
    binary main_v49 main_cst_5 main_v50 ((fun x v => Host.reduce FloatOps.maximumf x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_cst_6 (constant S_ .f32 0xFF800000#32),
    unary main_cst_6 main_v51 (broadcastInDim S4096 ![] bcast_S_S4096 : (⟨S_, .f32⟩ : BufTy).Contents (Elt F) → (⟨S4096, .f32⟩ : BufTy).Contents (Elt F)),
    binary main_v51 main_v50 main_v52 (maximumf : (⟨S4096, .f32⟩ : BufTy).Contents (Elt F) → (⟨S4096, .f32⟩ : BufTy).Contents (Elt F) → (⟨S4096, .f32⟩ : BufTy).Contents (Elt F)),
    unary main_v52 main_v53 (broadcastInDim S4096x1 ![0] bcast_S4096_S4096x1_0 : (⟨S4096, .f32⟩ : BufTy).Contents (Elt F) → (⟨S4096x1, .f32⟩ : BufTy).Contents (Elt F)),
    unary main_v53 main_v54 (broadcastInDim S4096x16 ![0, 1] bcast_S4096x1_S4096x16_0_1 : (⟨S4096x1, .f32⟩ : BufTy).Contents (Elt F) → (⟨S4096x16, .f32⟩ : BufTy).Contents (Elt F)),
    binary main_v49 main_v54 main_v55 (subf : (⟨S4096x16, .f32⟩ : BufTy).Contents (Elt F) → (⟨S4096x16, .f32⟩ : BufTy).Contents (Elt F) → (⟨S4096x16, .f32⟩ : BufTy).Contents (Elt F)),
    unary main_v55 main_v56 (Host.exp : (⟨S4096x16, .f32⟩ : BufTy).Contents (Elt F) → (⟨S4096x16, .f32⟩ : BufTy).Contents (Elt F)),
    nullary main_cst_7 (constant S_ .f32 0x00000000#32),
    binary main_v56 main_cst_7 main_v57 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v57 main_v58 (broadcastInDim S4096x1 ![0] bcast_S4096_S4096x1_0 : (⟨S4096, .f32⟩ : BufTy).Contents (Elt F) → (⟨S4096x1, .f32⟩ : BufTy).Contents (Elt F)),
    unary main_v58 main_v59 (broadcastInDim S4096x16 ![0, 1] bcast_S4096x1_S4096x16_0_1 : (⟨S4096x1, .f32⟩ : BufTy).Contents (Elt F) → (⟨S4096x16, .f32⟩ : BufTy).Contents (Elt F)),
    binary main_v56 main_v59 main_v60 (Host.divf : (⟨S4096x16, .f32⟩ : BufTy).Contents (Elt F) → (⟨S4096x16, .f32⟩ : BufTy).Contents (Elt F) → (⟨S4096x16, .f32⟩ : BufTy).Contents (Elt F)) ]

set_option maxRecDepth 4096 in
set_option maxHeartbeats 4000000 in
/-- @main is that straight line: the functions unfolded at their calls, sequencing reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., nullary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Every weakly fair execution of @main terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.ReferenceFrame.lean ====
/-
  The reference's frame: none of its 77 operations writes an argument array, so each argument ends as it began.
-/
import proofs.«154251_g79121887527625_cont_sun_m_466_24_alg».proof.Proof.ReferenceLine

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 8192 in
/-- The program runs and its nine argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩) (run_fold m ρ)

end Cert.ReferenceIdeal.Line

end
-- ==== Proof.Spec.lean ====
/-
  The two programs' results as formulas, entry by entry, on the extended reals.

  Inputs: features x (4096 x 512), adjacency adj (4096 x 4096), side features sd (4096 x 32), weights w0 (512 x 512),
  w1 (512 x 256), wc (288 x 16) and biases b0, b1, bc. Write rs i for the sum of row i of adj.

  The kernel never forms the normalised adjacency. With d i = rsqrt (1 + rs i) it computes, for a layer with
  support s (s = x w0, then s = leaky (…) w1), the scaled support t = d * s row by row, and then
  d i * (sum_j adj i j * t j c + t i c) + b c. The reference forms M = I + adj, d' i = 1 / sqrt (sum_j M i j), the
  matrix N i j = (M i j * d' i) * d' j, and computes sum_j N i j * s j c + b c. The classifier multiplies the
  concatenation [h, sd] by wc in the reference and h by the first 256 rows of wc plus sd by the last 32 rows in the
  kernel; both add bc and take the soft-max of each row of 16 logits: the exponential of the logit less the row's
  maximum, divided by the row's sum of those exponentials.

  `Ker` is the kernel's formula, `Ref` the reference's; `Inputs.Finite` says every input entry is a real number,
  `Inputs.PosRows` that 1 + rs i is positive for every row (where the reference's 1 / sqrt is a positive real).
-/
import Idealize.ShloMosaic.PureOps.Ideal
import Idealize.ShloMosaic.Lib.ValueIdx

noncomputable section

namespace Cert.Gcn

open Idealize.ShloMosaic Idealize.ShloMosaic.ValueIdx
open scoped BigOperators

/-- The nine argument arrays, read at `Ideal`. -/
structure Inputs where
  x : (⟨2, ![4096, 512]⟩ : Shape).Idx → EReal
  adj : (⟨2, ![4096, 4096]⟩ : Shape).Idx → EReal
  sd : (⟨2, ![4096, 32]⟩ : Shape).Idx → EReal
  w0 : (⟨2, ![512, 512]⟩ : Shape).Idx → EReal
  b0 : (⟨1, ![512]⟩ : Shape).Idx → EReal
  w1 : (⟨2, ![512, 256]⟩ : Shape).Idx → EReal
  b1 : (⟨1, ![256]⟩ : Shape).Idx → EReal
  wc : (⟨2, ![288, 16]⟩ : Shape).Idx → EReal
  bc : (⟨1, ![16]⟩ : Shape).Idx → EReal

/-- Every entry of every input is a real number. -/
def Inputs.Finite (I : Inputs) : Prop :=
  (∀ j, ∃ r : ℝ, I.x j = (r : EReal)) ∧ (∀ j, ∃ r : ℝ, I.adj j = (r : EReal)) ∧ (∀ j, ∃ r : ℝ, I.sd j = (r : EReal))
  ∧ (∀ j, ∃ r : ℝ, I.w0 j = (r : EReal)) ∧ (∀ j, ∃ r : ℝ, I.b0 j = (r : EReal)) ∧ (∀ j, ∃ r : ℝ, I.w1 j = (r : EReal))
  ∧ (∀ j, ∃ r : ℝ, I.b1 j = (r : EReal)) ∧ (∀ j, ∃ r : ℝ, I.wc j = (r : EReal)) ∧ (∀ j, ∃ r : ℝ, I.bc j = (r : EReal))

/-- Every row sum of I + adj, that is 1 + the row sum of adj, is positive. -/
def Inputs.PosRows (I : Inputs) : Prop :=
  ∀ i : Fin 4096, (0 : EReal) < 1 + ∑ j : Fin 4096, I.adj (ix2 i j)

/-- The slope 0.01 as the f32 word both programs carry. -/
def slope : EReal := Ideal.ofBits .f32 0x3C23D70A#32

/-- The leaky rectifier as both programs spell it: z where z ≥ 0, else slope * z. -/
def leaky (z : EReal) : EReal := Scalar.select (Ideal.cmp .oge z 0) z (slope * z)

/-- Row k of the first 256 rows of wc, and row 256 + k of it. -/
def lo (k : Fin 256) : Fin 288 := ⟨k.val, by omega⟩
def hi (k : Fin 32) : Fin 288 := ⟨256 + k.val, by omega⟩

/-- The soft-max of a row of 16 logits: exp (z c - max z) / sum of those. -/
def rowMax (z : Fin 16 → EReal) : EReal := (Finset.univ : Finset (Fin 16)).fold max (⊥ : EReal) z
def expShift (z : Fin 16 → EReal) (c : Fin 16) : EReal := Ideal.exp (z c - rowMax z)
def softmax (z : Fin 16 → EReal) (c : Fin 16) : EReal := Ideal.div (expShift z c) (∑ c' : Fin 16, expShift z c')

namespace Ker

def d (I : Inputs) (i : Fin 4096) : EReal := Ideal.rsqrt (1 + ∑ j : Fin 4096, I.adj (ix2 i j))
def s0 (I : Inputs) (i : Fin 4096) (c : Fin 512) : EReal := d I i * ∑ k : Fin 512, I.x (ix2 i k) * I.w0 (ix2 k c)
def h0 (I : Inputs) (i : Fin 4096) (c : Fin 512) : EReal :=
  leaky (d I i * ((∑ j : Fin 4096, I.adj (ix2 i j) * s0 I j c) + s0 I i c) + I.b0 (ix1 c))
def s1 (I : Inputs) (i : Fin 4096) (c : Fin 256) : EReal := d I i * ∑ k : Fin 512, h0 I i k * I.w1 (ix2 k c)
def h (I : Inputs) (i : Fin 4096) (c : Fin 256) : EReal :=
  d I i * ((∑ j : Fin 4096, I.adj (ix2 i j) * s1 I j c) + s1 I i c) + I.b1 (ix1 c)
def logits (I : Inputs) (i : Fin 4096) (c : Fin 16) : EReal :=
  ((∑ k : Fin 256, h I i k * I.wc (ix2 (lo k) c)) + ∑ k : Fin 32, I.sd (ix2 i k) * I.wc (ix2 (hi k) c)) + I.bc (ix1 c)
def y (I : Inputs) (i : Fin 4096) (c : Fin 16) : EReal := softmax (logits I i) c

end Ker

namespace Ref

def eye (i j : Fin 4096) : EReal := if i = j then 1 else 0
def m (I : Inputs) (i j : Fin 4096) : EReal := eye i j + I.adj (ix2 i j)
def d (I : Inputs) (i : Fin 4096) : EReal := Ideal.div 1 (Ideal.sqrt (∑ j : Fin 4096, m I i j))
def n (I : Inputs) (i j : Fin 4096) : EReal := (m I i j * d I i) * d I j
def sup0 (I : Inputs) (i : Fin 4096) (c : Fin 512) : EReal := ∑ k : Fin 512, I.x (ix2 i k) * I.w0 (ix2 k c)
def h0 (I : Inputs) (i : Fin 4096) (c : Fin 512) : EReal := leaky ((∑ j : Fin 4096, n I i j * sup0 I j c) + I.b0 (ix1 c))
def sup1 (I : Inputs) (i : Fin 4096) (c : Fin 256) : EReal := ∑ k : Fin 512, h0 I i k * I.w1 (ix2 k c)
def h (I : Inputs) (i : Fin 4096) (c : Fin 256) : EReal := (∑ j : Fin 4096, n I i j * sup1 I j c) + I.b1 (ix1 c)
def cat (I : Inputs) (i : Fin 4096) (k : Fin 288) : EReal :=
  if hk : k.val < 256 then h I i ⟨k.val, hk⟩ else I.sd (ix2 i ⟨k.val - 256, by omega⟩)
def logits (I : Inputs) (i : Fin 4096) (c : Fin 16) : EReal := (∑ k : Fin 288, cat I i k * I.wc (ix2 k c)) + I.bc (ix1 c)
def y (I : Inputs) (i : Fin 4096) (c : Fin 16) : EReal := softmax (logits I i) c

end Ref

end Cert.Gcn

end
-- ==== Proof.KernelInputs.lean ====
/-
  The specification's inputs read off a memory of the idealized kernel, and the row of an array that a row of a
  block is.
-/
import proofs.«154251_g79121887527625_cont_sun_m_466_24_alg».proof.Proof.Gen.KernelIdeal.Frame
import proofs.«154251_g79121887527625_cont_sun_m_466_24_alg».proof.Proof.Spec

noncomputable section

namespace Cert.KernelIdeal.Val

open Cert.KernelIdeal Cert.KernelIdeal.Gen Idealize.ShloMosaic Idealize.ShloMosaic.TcCoe Idealize.SL.Sem

/-- The nine argument arrays of core `c` in memory `m`, as the specification's inputs. -/
def inp (m : (ℓ : Loc nD τ sig) → Buf (Elt Ideal) ℓ) (c : Dev nD) : Cert.Gcn.Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

/-- Row `n` of a 4096-row array (total: read modulo 4096; every use has `n < 4096`). -/
def row (n : ℕ) : Fin 4096 := ⟨n % 4096, Nat.mod_lt _ (by norm_num)⟩

theorem row_val {n : ℕ} (h : n < 4096) : (row n).val = n := Nat.mod_eq_of_lt h

theorem row_eq (r : Fin 4096) {n : ℕ} (h : r.val = n) : row n = r := Fin.ext (by rw [row_val (h ▸ r.isLt), h])

end Cert.KernelIdeal.Val

end
-- ==== Proof.RefValueTerm.lean ====
/-
  The reference's two results as composed array terms of its nine argument arrays.

  The program is a straight line of 77 host operations. Read at a result buffer, the fold of the operations is a
  term built from the argument arrays alone: the matrix M = I + adj (two index grids compared for equality, read as
  0 / 1, plus adj), the vector d = 1 / sqrt (row sums of M), the matrix N = (M * d on the rows) * d on the columns,
  the first layer leaky (N (x w0) + b0), the second layer N (that w1) + b1, which is the first result, and the
  classifier: the concatenation of the second layer with the side features, times wc, plus bc, and the soft-max of
  each row, which is the second result. The program computes M, d and N twice, by the same operations on the same
  argument, so one definition serves both layers. The nine argument arrays are not written by any operation.
-/
import proofs.«154251_g79121887527625_cont_sun_m_466_24_alg».proof.Proof.ReferenceLine
import proofs.«154251_g79121887527625_cont_sun_m_466_24_alg».proof.Proof.Spec

noncomputable section

namespace Cert.RefValue

open Cert.ReferenceIdeal Cert.ReferenceIdeal.Gen Idealize.ShloMosaic Idealize.ShloMosaic.TcCoe Idealize.SL.Sem Idealize.ShloMosaic.StableHlo

/-- The identity matrix as the program builds it: row grid (plus a zero grid) compared with the column grid, as 0 / 1. -/
def eyeT : FVec Ideal S4096x4096 .f32 :=
  uitofp .f32 (cmpi .eq (addi (iotaInDim S4096x4096 32 0) (broadcastInDim S4096x4096 ![] bcast_S_S4096x4096 (constantI S_ 32 0#32)))
    (iotaInDim S4096x4096 32 1))

/-- M = I + adj. -/
def mT (adj : FVec Ideal S4096x4096 .f32) : FVec Ideal S4096x4096 .f32 := addf eyeT adj

/-- The row sums of M, from zero. -/
def rsT (adj : FVec Ideal S4096x4096 .f32) : FVec Ideal S4096 .f32 :=
  Host.reduceAdd (mT adj) (constant (F := Ideal) S_ .f32 0x00000000#32) reducesTo_S4096x4096_S4096_d1 h_S_

/-- d = 1 / sqrt (row sums). -/
def dT (adj : FVec Ideal S4096x4096 .f32) : FVec Ideal S4096 .f32 :=
  Host.divf (broadcastInDim S4096 ![] bcast_S_S4096 (constant (F := Ideal) S_ .f32 0x3F800000#32)) (Host.sqrt (rsT adj))

/-- N = (M * d on the rows) * d on the columns. -/
def nT (adj : FVec Ideal S4096x4096 .f32) : FVec Ideal S4096x4096 .f32 :=
  mulf (mulf (mT adj) (broadcastInDim S4096x4096 ![0, 1] bcast_S4096x1_S4096x4096_0_1 (broadcastInDim S4096x1 ![0] bcast_S4096_S4096x1_0 (dT adj))))
    (broadcastInDim S4096x4096 ![0, 1] bcast_S1x4096_S4096x4096_0_1 (broadcastInDim S1x4096 ![1] bcast_S4096_S1x4096_1 (dT adj)))

/-- x w0. -/
def sup0T (x : FVec Ideal S4096x512 .f32) (w0 : FVec Ideal S512x512 .f32) : FVec Ideal S4096x512 .f32 :=
  Host.dotGeneral dot_S4096x512_S512x512_S4096x512_1_0_0_1_n_n none x w0

/-- N (x w0) + b0, before the rectifier. -/
def pre0T (x : FVec Ideal S4096x512 .f32) (adj : FVec Ideal S4096x4096 .f32) (w0 : FVec Ideal S512x512 .f32) (b0 : FVec Ideal S512 .f32) :
    FVec Ideal S4096x512 .f32 :=
  addf (Host.dotGeneral dot_S4096x4096_S4096x512_S4096x512_1_0_0_1_n_n none (nT adj) (sup0T x w0))
    (broadcastInDim S4096x512 ![0, 1] bcast_S1x512_S4096x512_0_1 (broadcastInDim S1x512 ![1] bcast_S512_S1x512_1 b0))

/-- The leaky rectifier of an array: z where z ≥ 0, else slope * z. -/
def leakyT (z : FVec Ideal S4096x512 .f32) : FVec Ideal S4096x512 .f32 :=
  select (cmpf .oge z (broadcastInDim S4096x512 ![] bcast_S_S4096x512 (constant (F := Ideal) S_ .f32 0x00000000#32))) z
    (mulf (broadcastInDim S4096x512 ![] bcast_S_S4096x512 (id (constant (F := Ideal) S_ .f32 0x3C23D70A#32))) z)

/-- The first layer's output. -/
def h0T (x : FVec Ideal S4096x512 .f32) (adj : FVec Ideal S4096x4096 .f32) (w0 : FVec Ideal S512x512 .f32) (b0 : FVec Ideal S512 .f32) :
    FVec Ideal S4096x512 .f32 := leakyT (pre0T x adj w0 b0)

/-- The second layer's output: N (h0 w1) + b1. The first result. -/
def hT (x : FVec Ideal S4096x512 .f32) (adj : FVec Ideal S4096x4096 .f32) (w0 : FVec Ideal S512x512 .f32) (b0 : FVec Ideal S512 .f32)
    (w1 : FVec Ideal S512x256 .f32) (b1 : FVec Ideal S256 .f32) : FVec Ideal S4096x256 .f32 :=
  addf (Host.dotGeneral dot_S4096x4096_S4096x256_S4096x256_1_0_0_1_n_n none (nT adj)
      (Host.dotGeneral dot_S4096x512_S512x256_S4096x256_1_0_0_1_n_n none (h0T x adj w0 b0) w1))
    (broadcastInDim S4096x256 ![0, 1] bcast_S1x256_S4096x256_0_1 (broadcastInDim S1x256 ![1] bcast_S256_S1x256_1 b1))

/-- The classifier's logits from the second layer's output h: [h, sd] wc + bc. -/
def logitsT (h : FVec Ideal S4096x256 .f32) (sd : FVec Ideal S4096x32 .f32) (wc : FVec Ideal S288x16 .f32) (bc : FVec Ideal S16 .f32) :
    FVec Ideal S4096x16 .f32 :=
  addf (Host.dotGeneral dot_S4096x288_S288x16_S4096x16_1_0_0_1_n_n none
      (concatenate S4096x288 1 [⟨S4096x256, h⟩, ⟨S4096x32, sd⟩] concatenates_S4096x256_S4096x32_S4096x288_d1) wc)
    (broadcastInDim S4096x16 ![0, 1] bcast_S1x16_S4096x16_0_1 (broadcastInDim S1x16 ![1] bcast_S16_S1x16_1 bc))

/-- The row maxima of the logits, from minus infinity, joined once more with minus infinity. -/
def rmaxT (z : FVec Ideal S4096x16 .f32) : FVec Ideal S4096 .f32 :=
  maximumf (broadcastInDim S4096 ![] bcast_S_S4096 (constant (F := Ideal) S_ .f32 0xFF800000#32))
    (Host.reduce FloatOps.maximumf z (constant (F := Ideal) S_ .f32 0xFF800000#32) reducesTo_S4096x16_S4096_d1 h_S_)

/-- The exponentials of the logits less their row maximum. -/
def expT (z : FVec Ideal S4096x16 .f32) : FVec Ideal S4096x16 .f32 :=
  Host.exp (subf z (broadcastInDim S4096x16 ![0, 1] bcast_S4096x1_S4096x16_0_1 (broadcastInDim S4096x1 ![0] bcast_S4096_S4096x1_0 (rmaxT z))))

/-- The soft-max of each row of the logits. -/
def smT (z : FVec Ideal S4096x16 .f32) : FVec Ideal S4096x16 .f32 :=
  Host.divf (expT z) (broadcastInDim S4096x16 ![0, 1] bcast_S4096x1_S4096x16_0_1 (broadcastInDim S4096x1 ![0] bcast_S4096_S4096x1_0
    (Host.reduceAdd (expT z) (constant (F := Ideal) S_ .f32 0x00000000#32) reducesTo_S4096x16_S4096_d1 h_S_)))

/-- The second result. -/
def yT (x : FVec Ideal S4096x512 .f32) (adj : FVec Ideal S4096x4096 .f32) (sd : FVec Ideal S4096x32 .f32) (w0 : FVec Ideal S512x512 .f32)
    (b0 : FVec Ideal S512 .f32) (w1 : FVec Ideal S512x256 .f32) (b1 : FVec Ideal S256 .f32) (wc : FVec Ideal S288x16 .f32) (bc : FVec Ideal S16 .f32) :
    FVec Ideal S4096x16 .f32 := smT (logitsT (hT x adj w0 b0 w1 b1) sd wc bc)

attribute [local irreducible] Host.reduce Host.reduceAdd concatenate in
set_option maxRecDepth 16384 in
set_option maxHeartbeats 4000000 in
/-- The fold of the operations at the first result buffer is the second layer's term of the arguments. -/
theorem v44_term (V : Valuation τ sig (Elt Ideal)) :
    after (Line.ops (F := Ideal)) V (main_v44 : DevRef τ sig)
      = hT (V (main_arg0 : DevRef τ sig)) (V (main_arg1 : DevRef τ sig)) (V (main_arg3 : DevRef τ sig)) (V (main_arg4 : DevRef τ sig))
          (V (main_arg5 : DevRef τ sig)) (V (main_arg6 : DevRef τ sig)) := by
  after_results_simp
  rfl

attribute [local irreducible] Host.reduce Host.reduceAdd concatenate in
set_option maxRecDepth 16384 in
set_option maxHeartbeats 4000000 in
/-- The fold of the operations at the second result buffer is the soft-max term of the arguments. -/
theorem v60_term (V : Valuation τ sig (Elt Ideal)) :
    after (Line.ops (F := Ideal)) V (main_v60 : DevRef τ sig)
      = yT (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) := by
  after_results_simp
  rfl

/-! No operation writes an argument buffer. -/

set_option maxRecDepth 16384 in
theorem arg0_keep (V : Valuation τ sig (Elt Ideal)) :
    after (Line.ops (F := Ideal)) V (main_arg0 : DevRef τ sig) = V (main_arg0 : DevRef τ sig) := by after_results_simp
set_option maxRecDepth 16384 in
theorem arg1_keep (V : Valuation τ sig (Elt Ideal)) :
    after (Line.ops (F := Ideal)) V (main_arg1 : DevRef τ sig) = V (main_arg1 : DevRef τ sig) := by after_results_simp
set_option maxRecDepth 16384 in
theorem arg2_keep (V : Valuation τ sig (Elt Ideal)) :
    after (Line.ops (F := Ideal)) V (main_arg2 : DevRef τ sig) = V (main_arg2 : DevRef τ sig) := by after_results_simp
set_option maxRecDepth 16384 in
theorem arg3_keep (V : Valuation τ sig (Elt Ideal)) :
    after (Line.ops (F := Ideal)) V (main_arg3 : DevRef τ sig) = V (main_arg3 : DevRef τ sig) := by after_results_simp
set_option maxRecDepth 16384 in
theorem arg4_keep (V : Valuation τ sig (Elt Ideal)) :
    after (Line.ops (F := Ideal)) V (main_arg4 : DevRef τ sig) = V (main_arg4 : DevRef τ sig) := by after_results_simp
set_option maxRecDepth 16384 in
theorem arg5_keep (V : Valuation τ sig (Elt Ideal)) :
    after (Line.ops (F := Ideal)) V (main_arg5 : DevRef τ sig) = V (main_arg5 : DevRef τ sig) := by after_results_simp
set_option maxRecDepth 16384 in
theorem arg6_keep (V : Valuation τ sig (Elt Ideal)) :
    after (Line.ops (F := Ideal)) V (main_arg6 : DevRef τ sig) = V (main_arg6 : DevRef τ sig) := by after_results_simp
set_option maxRecDepth 16384 in
theorem arg7_keep (V : Valuation τ sig (Elt Ideal)) :
    after (Line.ops (F := Ideal)) V (main_arg7 : DevRef τ sig) = V (main_arg7 : DevRef τ sig) := by after_results_simp
set_option maxRecDepth 16384 in
theorem arg8_keep (V : Valuation τ sig (Elt Ideal)) :
    after (Line.ops (F := Ideal)) V (main_arg8 : DevRef τ sig) = V (main_arg8 : DevRef τ sig) := by after_results_simp

end Cert.RefValue

end
-- ==== Proof.RefValueOps.lean ====
/-
  Host operations read at one index, for arrays of rank one and two at the extended reals.

  A column vector stretched along the rows, a row vector stretched down the columns, a matrix product, a row sum
  from zero, a row maximum from a starting value, and the identity matrix built from two index grids: each read at
  explicit coordinates is the textbook expression in the entries of its operands.
-/
import Idealize.ShloMosaic.Lib.IdealHost
import Idealize.ShloMosaic.Lib.Pipeline.Value
import Idealize.ShloMosaic.PureOps.Ideal.Laws

noncomputable section

namespace Cert.RefValue

open Idealize.ShloMosaic Idealize.ShloMosaic.ValueIdx
open scoped BigOperators

/-- A vector of length n placed as a column and stretched to n x m reads, at (i, j), its entry i. -/
theorem colBroadcast_apply {α : Type} (n m : Nat) (h1 : (⟨1, ![n]⟩ : Shape).BroadcastsInDim ⟨2, ![n, 1]⟩ ![0])
    (h2 : (⟨2, ![n, 1]⟩ : Shape).BroadcastsInDim ⟨2, ![n, m]⟩ ![0, 1]) (x : (⟨1, ![n]⟩ : Shape).Idx → α) (i : Fin n) (j : Fin m) :
    broadcastInDim ⟨2, ![n, m]⟩ ![0, 1] h2 (broadcastInDim ⟨2, ![n, 1]⟩ ![0] h1 x) (ix2 i j) = x (ix1 i) := by
  rw [broadcastInDim_apply ![0, 1] h2 _ (ix2 i j) (ix2 i (0 : Fin 1)) ?_, broadcastInDim_apply ![0] h1 x (ix2 i (0 : Fin 1)) (ix1 i) ?_]
  · intro a
    match a with
    | ⟨0, _⟩ =>
      show i.val = if n = 1 then 0 else i.val
      have := i.isLt
      split <;> omega
  · intro a
    match a with
    | ⟨0, _⟩ =>
      show i.val = if n = 1 then 0 else i.val
      have := i.isLt
      split <;> omega
    | ⟨1, _⟩ => rfl

/-- A vector of length m placed as a row and stretched to n x m reads, at (i, j), its entry j. -/
theorem rowBroadcast_apply {α : Type} (n m : Nat) (h1 : (⟨1, ![m]⟩ : Shape).BroadcastsInDim ⟨2, ![1, m]⟩ ![1])
    (h2 : (⟨2, ![1, m]⟩ : Shape).BroadcastsInDim ⟨2, ![n, m]⟩ ![0, 1]) (x : (⟨1, ![m]⟩ : Shape).Idx → α) (i : Fin n) (j : Fin m) :
    broadcastInDim ⟨2, ![n, m]⟩ ![0, 1] h2 (broadcastInDim ⟨2, ![1, m]⟩ ![1] h1 x) (ix2 i j) = x (ix1 j) := by
  rw [broadcastInDim_apply ![0, 1] h2 _ (ix2 i j) (ix2 (0 : Fin 1) j) ?_, broadcastInDim_apply ![1] h1 x (ix2 (0 : Fin 1) j) (ix1 j) ?_]
  · intro a
    match a with
    | ⟨0, _⟩ =>
      show j.val = if m = 1 then 0 else j.val
      have := j.isLt
      split <;> omega
  · intro a
    match a with
    | ⟨0, _⟩ => rfl
    | ⟨1, _⟩ =>
      show j.val = if m = 1 then 0 else j.val
      have := j.isLt
      split <;> omega

/-- The product of an M x K matrix with a K x N matrix reads, at (i, c), the sum over k of l i k * r k c. -/
theorem plainDot_apply (M K N : Nat) (prec : Option ContractPrecision) (sched : HostSchedule)
    (l : FVec Ideal ⟨2, ![M, K]⟩ .f32) (r : FVec Ideal ⟨2, ![K, N]⟩ .f32) (i : Fin M) (c : Fin N) :
    FloatOps.dotGeneral (DotDims.plain M K N) prec sched l r (ix2 i c) = ∑ k : Fin K, l (ix2 i k) * r (ix2 k c) := by
  rw [Ideal.dotGeneral_apply, ← Equiv.sum_comp (contrEquiv1 (DotDims.plain M K N) K rfl rfl).symm]
  refine Finset.sum_congr rfl fun k _ => ?_
  have hl : (DotDims.plain M K N).lhsIdx (ix2 i c) ((contrEquiv1 (DotDims.plain M K N) K rfl rfl).symm k) = ix2 i k := by
    funext a
    match a with
    | ⟨0, _⟩ => rfl
    | ⟨1, _⟩ =>
      refine Fin.ext ?_
      exact ((DotDims.plain M K N).lhsIdx_val_of_single (cl := 1) rfl _ _).trans (contrEquiv1_symm_val _ K rfl rfl k)
  have hr : (DotDims.plain M K N).rhsIdx (ix2 i c) ((contrEquiv1 (DotDims.plain M K N) K rfl rfl).symm k) = ix2 k c := by
    funext a
    match a with
    | ⟨1, _⟩ => rfl
    | ⟨0, _⟩ =>
      refine Fin.ext ?_
      exact ((DotDims.plain M K N).rhsIdx_val_of_single (cr := 0) rfl _ _).trans (contrEquiv1_symm_val _ K rfl rfl k)
  rw [hl, hr]

/-- The sum of each row of an n x m matrix, started from zero, reads at i the sum over j of x i j. -/
theorem rowSum_apply (n m : Nat) (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (x : FVec Ideal ⟨2, ![n, m]⟩ .f32) (i : Fin n) :
    Host.reduceAdd x (constant (F := Ideal) ⟨0, ![]⟩ .f32 0x00000000#32) h' hu (ix1 i) = ∑ j : Fin m, x (ix2 i j) := by
  rw [hostReduceAdd_apply, Ideal.hostReduceAdd_single h' h, constant_apply, Ideal.ofBits_zero_f32, zero_add]
  refine Finset.sum_congr rfl fun j _ => congrArg x ?_
  funext a
  match a with
  | ⟨0, _⟩ => exact Fin.ext rfl
  | ⟨1, _⟩ => exact Fin.ext rfl

/-- The maximum of each row of an n x m matrix, started from the value a word b denotes, reads at i the running
    maximum of x i j over j from that value. -/
theorem rowMax_apply (n m : Nat) (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (x : FVec Ideal ⟨2, ![n, m]⟩ .f32) (b : BitVec 32) (i : Fin n) :
    Host.reduce FloatOps.maximumf x (constant (F := Ideal) ⟨0, ![]⟩ .f32 b) h' hu (ix1 i)
      = (Finset.univ : Finset (Fin m)).fold max (Ideal.ofBits .f32 b) fun j => x (ix2 i j) := by
  rw [Host.reduce_eq_fold_single FloatOps.maximumf x _ h' h hu]
  show (Finset.univ : Finset (Fin m)).fold max (Ideal.ofBits .f32 b) (x ∘ h.lift (ix1 i)) = _
  congr 1
  funext j
  refine congrArg x ?_
  funext a
  match a with
  | ⟨0, _⟩ => exact Fin.ext rfl
  | ⟨1, _⟩ => exact Fin.ext rfl

/-- The f32 word 0xFF800000 denotes minus infinity, the bottom of the extended reals. -/
theorem ofBits_neg_inf_f32 : Ideal.ofBits .f32 0xFF800000#32 = (⊥ : EReal) := by
  simp [Ideal.ofBits, Ideal.ieee]

/-- The identity matrix as two index grids (the row grid plus a grid of zeros, and the column grid) compared for
    equality and read as 0 / 1: one on the diagonal, zero off it. -/
theorem eye_apply (n : Nat) (hn : n ≤ 2 ^ 32) (hb : (⟨0, ![]⟩ : Shape).BroadcastsInDim ⟨2, ![n, n]⟩ ![]) (i j : Fin n) :
    (uitofp .f32 (cmpi .eq (addi (iotaInDim ⟨2, ![n, n]⟩ 32 0) (broadcastInDim ⟨2, ![n, n]⟩ ![] hb (constantI ⟨0, ![]⟩ 32 0#32)))
      (iotaInDim ⟨2, ![n, n]⟩ 32 1)) : FVec Ideal ⟨2, ![n, n]⟩ .f32) (ix2 i j) = if i = j then 1 else 0 := by
  have hz : broadcastInDim ⟨2, ![n, n]⟩ ![] hb (constantI ⟨0, ![]⟩ 32 0#32) (ix2 i j) = 0#32 := by
    rw [broadcastInDim_scalar_apply]; rfl
  show (((IntOp.cmpi .eq (IntOp.addi (BitVec.ofNat 32 i.val) (broadcastInDim ⟨2, ![n, n]⟩ ![] hb (constantI ⟨0, ![]⟩ 32 0#32) (ix2 i j)))
      (BitVec.ofNat 32 j.val)).toNat : ℝ) : EReal) = _
  rw [hz]
  have hi := i.isLt
  have hj := j.isLt
  by_cases e : i = j
  · subst e
    simp [IntOp.cmpi, IntOp.addi]
  · have hne : i.val ≠ j.val := fun h => e (Fin.ext h)
    have hw : ¬ BitVec.ofNat 32 i.val = BitVec.ofNat 32 j.val := by
      intro h
      have h2 := congrArg BitVec.toNat h
      simp only [BitVec.toNat_ofNat] at h2
      rw [Nat.mod_eq_of_lt (by omega), Nat.mod_eq_of_lt (by omega)] at h2
      exact hne h2
    simp [IntOp.cmpi, IntOp.addi, e, hw]

end Cert.RefValue

end
-- ==== Proof.RefValueStages.lean ====
/-
  The reference's array terms read at one index are the specification's formulas.

  Stage by stage, in the order the program computes them: M = I + adj, the row sums, d = 1 / sqrt of them,
  N i j = (M i j * d i) * d j, the support x w0, the first layer leaky (N (x w0) + b0), the second support, the
  second layer N (h0 w1) + b1, the concatenation with the side features, the logits, the row maximum, the shifted
  exponentials, and the soft-max. Each stage is a pointwise operation, a stretched vector, a row reduction or a
  matrix product of the stages before it, so each lemma is one reading of that operation at explicit coordinates.
-/
import proofs.«154251_g79121887527625_cont_sun_m_466_24_alg».proof.Proof.RefValueTerm
import proofs.«154251_g79121887527625_cont_sun_m_466_24_alg».proof.Proof.RefValueOps

noncomputable section

namespace Cert.RefValue

open Cert.ReferenceIdeal Cert.ReferenceIdeal.Gen Idealize.ShloMosaic Idealize.ShloMosaic.ValueIdx
open scoped BigOperators

/-! ## The normalised adjacency -/

/-- M at (i, j): the identity's entry plus adj's. -/
theorem mT_apply (adj : FVec Ideal S4096x4096 .f32) (i j : Fin 4096) : mT adj (ix2 i j) = Gcn.Ref.eye i j + adj (ix2 i j) := by
  unfold mT
  rw [addf_apply]
  exact congrArg (· + adj (ix2 i j)) (eye_apply 4096 (by norm_num) bcast_S_S4096x4096 i j)

theorem m_eq (I : Gcn.Inputs) (i j : Fin 4096) : mT I.adj (ix2 i j) = Gcn.Ref.m I i j := mT_apply I.adj i j

/-- The row sums of M. -/
theorem rsT_apply (adj : FVec Ideal S4096x4096 .f32) (i : Fin 4096) : rsT adj (ix1 i) = ∑ j : Fin 4096, mT adj (ix2 i j) :=
  rowSum_apply 4096 4096 reducesTo_S4096x4096_S4096_d1 (by decide) h_S_ (mT adj) i

/-- d at i: one over the square root of row i's sum. -/
theorem dT_apply (adj : FVec Ideal S4096x4096 .f32) (i : Fin 4096) :
    dT adj (ix1 i) = Ideal.div 1 (Ideal.sqrt (∑ j : Fin 4096, mT adj (ix2 i j))) := by
  unfold dT
  rw [hostDivf_apply, broadcastInDim_scalar_apply, constant_apply, Ideal.ofBits_one_f32]
  show Ideal.div 1 (Ideal.sqrt (rsT adj (ix1 i))) = _
  rw [rsT_apply]

theorem d_eq (I : Gcn.Inputs) (i : Fin 4096) : dT I.adj (ix1 i) = Gcn.Ref.d I i := by
  rw [dT_apply]
  unfold Gcn.Ref.d
  exact congrArg (fun s => Ideal.div 1 (Ideal.sqrt s)) (Finset.sum_congr rfl fun j _ => m_eq I i j)

/-- N at (i, j): (M i j * d i) * d j. -/
theorem n_eq (I : Gcn.Inputs) (i j : Fin 4096) : nT I.adj (ix2 i j) = Gcn.Ref.n I i j := by
  unfold nT Gcn.Ref.n
  rw [mulf_apply, mulf_apply, colBroadcast_apply 4096 4096, rowBroadcast_apply 4096 4096, m_eq, d_eq, d_eq]

/-! ## The two layers -/

theorem sup0_eq (I : Gcn.Inputs) (i : Fin 4096) (c : Fin 512) : sup0T I.x I.w0 (ix2 i c) = Gcn.Ref.sup0 I i c :=
  plainDot_apply 4096 512 512 _ _ I.x I.w0 i c

/-- The rectifier of an array at an index is the rectifier of the entry. -/
theorem leakyT_apply (z : FVec Ideal S4096x512 .f32) (j : S4096x512.Idx) : leakyT z j = Gcn.leaky (z j) := by
  show Scalar.select (Ideal.cmp .oge (z j) (Ideal.ofBits .f32 0x00000000#32)) (z j) (Ideal.ofBits .f32 0x3C23D70A#32 * z j) = _
  rw [Ideal.ofBits_zero_f32]
  rfl

theorem pre0_eq (I : Gcn.Inputs) (i : Fin 4096) (c : Fin 512) :
    pre0T I.x I.adj I.w0 I.b0 (ix2 i c) = (∑ j : Fin 4096, Gcn.Ref.n I i j * Gcn.Ref.sup0 I j c) + I.b0 (ix1 c) := by
  unfold pre0T
  rw [addf_apply, rowBroadcast_apply 4096 512]
  refine congrArg (· + I.b0 (ix1 c)) ?_
  refine (plainDot_apply 4096 4096 512 _ _ (nT I.adj) (sup0T I.x I.w0) i c).trans (Finset.sum_congr rfl fun j _ => ?_)
  rw [n_eq, sup0_eq]

theorem h0_eq (I : Gcn.Inputs) (i : Fin 4096) (c : Fin 512) : h0T I.x I.adj I.w0 I.b0 (ix2 i c) = Gcn.Ref.h0 I i c := by
  unfold h0T Gcn.Ref.h0
  rw [leakyT_apply, pre0_eq]

theorem sup1_eq (I : Gcn.Inputs) (i : Fin 4096) (c : Fin 256) :
    Host.dotGeneral (φ₁ := .f32) (φ₂ := .f32) dot_S4096x512_S512x256_S4096x256_1_0_0_1_n_n none (h0T I.x I.adj I.w0 I.b0) I.w1 (ix2 i c)
      = Gcn.Ref.sup1 I i c := by
  unfold Gcn.Ref.sup1
  refine (plainDot_apply 4096 512 256 _ _ (h0T I.x I.adj I.w0 I.b0) I.w1 i c).trans (Finset.sum_congr rfl fun k _ => ?_)
  rw [h0_eq]

/-- The first result at (i, c). -/
theorem h_apply (I : Gcn.Inputs) (i : Fin 4096) (c : Fin 256) : hT I.x I.adj I.w0 I.b0 I.w1 I.b1 (ix2 i c) = Gcn.Ref.h I i c := by
  unfold hT Gcn.Ref.h
  rw [addf_apply, rowBroadcast_apply 4096 256]
  refine congrArg (· + I.b1 (ix1 c)) ?_
  refine (plainDot_apply 4096 4096 256 _ _ (nT I.adj) _ i c).trans (Finset.sum_congr rfl fun j _ => ?_)
  rw [n_eq, sup1_eq]

/-! ## The classifier -/

/-- The concatenation of a 4096 x 256 array with a 4096 x 32 one along the columns, at (i, k): the first below
    column 256, the second from there on. -/
theorem cat_apply (h : FVec Ideal S4096x256 .f32) (sd : FVec Ideal S4096x32 .f32) (i : Fin 4096) (k : Fin 288) :
    concatenate S4096x288 1 [⟨S4096x256, h⟩, ⟨S4096x32, sd⟩] concatenates_S4096x256_S4096x32_S4096x288_d1 (ix2 i k)
      = if hk : k.val < 256 then h (ix2 i ⟨k.val, hk⟩) else sd (ix2 i ⟨k.val - 256, by omega⟩) := by
  by_cases hk : k.val < 256
  · rw [dif_pos hk]
    refine concatenate_apply_piece (t := S4096x288) (1 : Fin 2) [⟨S4096x256, h⟩, ⟨S4096x32, sd⟩] concatenates_S4096x256_S4096x32_S4096x288_d1 (ix2 i k) 0 (Nat.zero_lt_succ _) S4096x256 h rfl rfl 0 rfl
      (ix2 i ⟨k.val, hk⟩) ?_ ?_
    · intro b hb
      match b with
      | ⟨0, _⟩ => rfl
      | ⟨1, _⟩ => exact absurd rfl hb
    · exact Nat.zero_add _
  · rw [dif_neg hk]
    refine concatenate_apply_piece (t := S4096x288) (1 : Fin 2) [⟨S4096x256, h⟩, ⟨S4096x32, sd⟩] concatenates_S4096x256_S4096x32_S4096x288_d1 (ix2 i k) 1 (Nat.succ_lt_succ (Nat.zero_lt_succ _)) S4096x32 sd rfl rfl 256 rfl
      (ix2 i ⟨k.val - 256, by omega⟩) ?_ ?_
    · intro b hb
      match b with
      | ⟨0, _⟩ => rfl
      | ⟨1, _⟩ => exact absurd rfl hb
    · show 256 + (k.val - 256) = k.val
      omega

theorem logits_eq (I : Gcn.Inputs) (i : Fin 4096) (c : Fin 16) :
    logitsT (hT I.x I.adj I.w0 I.b0 I.w1 I.b1) I.sd I.wc I.bc (ix2 i c) = Gcn.Ref.logits I i c := by
  unfold logitsT Gcn.Ref.logits
  rw [addf_apply, rowBroadcast_apply 4096 16]
  refine congrArg (· + I.bc (ix1 c)) ?_
  refine (plainDot_apply 4096 288 16 _ _ _ I.wc i c).trans (Finset.sum_congr rfl fun k _ => ?_)
  refine congrArg (· * I.wc (ix2 k c)) ?_
  rw [cat_apply]
  unfold Gcn.Ref.cat
  by_cases hk : k.val < 256
  · rw [dif_pos hk, dif_pos hk, h_apply]
  · rw [dif_neg hk, dif_neg hk]

/-! ## The soft-max of a row -/

/-- The row maximum: joining once more with minus infinity changes nothing. -/
theorem rmaxT_apply (z : FVec Ideal S4096x16 .f32) (i : Fin 4096) : rmaxT z (ix1 i) = Gcn.rowMax fun c => z (ix2 i c) := by
  unfold rmaxT Gcn.rowMax
  rw [maximumf_apply, rowMax_apply 4096 16 reducesTo_S4096x16_S4096_d1 (by decide) h_S_, broadcastInDim_scalar_apply, constant_apply,
    ofBits_neg_inf_f32]
  exact max_eq_right bot_le

theorem expT_apply (z : FVec Ideal S4096x16 .f32) (i : Fin 4096) (c : Fin 16) :
    expT z (ix2 i c) = Gcn.expShift (fun c => z (ix2 i c)) c := by
  unfold expT Gcn.expShift
  show Ideal.exp (subf z _ (ix2 i c)) = _
  rw [subf_apply, colBroadcast_apply 4096 16, rmaxT_apply]

theorem smT_apply (z : FVec Ideal S4096x16 .f32) (i : Fin 4096) (c : Fin 16) :
    smT z (ix2 i c) = Gcn.softmax (fun c => z (ix2 i c)) c := by
  unfold smT Gcn.softmax
  rw [hostDivf_apply, colBroadcast_apply 4096 16, rowSum_apply 4096 16 reducesTo_S4096x16_S4096_d1 (by decide) h_S_, expT_apply]
  exact congrArg (Ideal.div _) (Finset.sum_congr rfl fun c' _ => expT_apply z i c')

/-- The second result at (i, c). -/
theorem y_apply (I : Gcn.Inputs) (i : Fin 4096) (c : Fin 16) :
    yT I.x I.adj I.sd I.w0 I.b0 I.w1 I.b1 I.wc I.bc (ix2 i c) = Gcn.Ref.y I i c := by
  unfold yT Gcn.Ref.y
  rw [smT_apply]
  exact congrArg (fun z => Gcn.softmax z c) (funext fun c' => logits_eq I i c')

end Cert.RefValue

end
-- ==== Proof.RefValue.lean ====
/-
  The reference's two results as the specification's formulas of its own argument arrays.

  The program is a straight line of host operations; read at a result buffer the fold of the operations is a composed
  array term of the nine argument arrays, and that term, read at an index (i, c), is the reference's formula: the
  second layer N (h0 w1) + b1 for the first result, the soft-max of the classifier's logits for the second. So every
  execution ends with the first result buffer holding Ref.h of the launch arguments, the second holding Ref.y of
  them, and the nine argument arrays as they began.
-/
import proofs.«154251_g79121887527625_cont_sun_m_466_24_alg».proof.Proof.RefValueStages

noncomputable section

namespace Cert.ReferenceIdeal.RefValue

open Cert.ReferenceIdeal Cert.ReferenceIdeal.Gen Idealize.ShloMosaic Idealize.ShloMosaic.TcCoe Idealize.SL.Sem Idealize.ShloMosaic.StableHlo
  Idealize.ShloMosaic.ValueIdx

/-- The nine argument arrays of core `c` in a memory `m` of the reference program, as the specification's inputs. -/
def inpM (m : (ℓ : Loc nD τ sig) → Buf (Elt Ideal) ℓ) (c : Dev nD) : Cert.Gcn.Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

/-- Two arrays of rank two that agree at every pair of coordinates are equal. -/
theorem ext2 {n0 n1 : Nat} {α : Type} {f g : (⟨2, ![n0, n1]⟩ : Shape).Idx → α} (h : ∀ a b, f (ix2 a b) = g (ix2 a b)) : f = g :=
  funext fun j => by rw [eq_ix2 j]; exact h _ _

/-- The second layer's term of the launch arguments is the reference's formula Ref.h of them, entry by entry. -/
theorem h_eq (m : (ℓ : Loc nD τ sig) → Buf (Elt Ideal) ℓ) (c : Dev nD) :
    Cert.RefValue.hT (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6))
      = fun j : (⟨2, ![4096, 256]⟩ : Shape).Idx => Cert.Gcn.Ref.h (inpM m c) (j 0) (j 1) :=
  ext2 fun a b => Cert.RefValue.h_apply (inpM m c) a b

/-- The soft-max term of the launch arguments is the reference's formula Ref.y of them, entry by entry. -/
theorem y_eq (m : (ℓ : Loc nD τ sig) → Buf (Elt Ideal) ℓ) (c : Dev nD) :
    Cert.RefValue.yT (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
      = fun j : (⟨2, ![4096, 16]⟩ : Shape).Idx => Cert.Gcn.Ref.y (inpM m c) (j 0) (j 1) :=
  ext2 fun a b => Cert.RefValue.y_apply (inpM m c) a b

/-- Every execution of the reference terminates with its first result buffer holding Ref.h of the launch arguments,
    its second holding Ref.y of them, and the nine argument arrays unchanged. -/
theorem run_values (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v44) = (fun j => Cert.Gcn.Ref.h (inpM m c) (j 0) (j 1))
      ∧ r.2.mem ((c.tc : Thread Cert.ReferenceIdeal.nD Cert.ReferenceIdeal.τ).loc Cert.ReferenceIdeal.main_v60) = (fun j => Cert.Gcn.Ref.y (inpM m c) (j 0) (j 1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run defs _ _).mono (fun _ h c => ⟨
      (h c main_v44).trans ((Cert.RefValue.v44_term (launchContents m c)).trans (h_eq m c)),
      (h c main_v60).trans ((Cert.RefValue.v60_term (launchContents m c)).trans (y_eq m c)),
      (h c main_arg0).trans (Cert.RefValue.arg0_keep (launchContents m c)),
      (h c main_arg1).trans (Cert.RefValue.arg1_keep (launchContents m c)),
      (h c main_arg2).trans (Cert.RefValue.arg2_keep (launchContents m c)),
      (h c main_arg3).trans (Cert.RefValue.arg3_keep (launchContents m c)),
      (h c main_arg4).trans (Cert.RefValue.arg4_keep (launchContents m c)),
      (h c main_arg5).trans (Cert.RefValue.arg5_keep (launchContents m c)),
      (h c main_arg6).trans (Cert.RefValue.arg6_keep (launchContents m c)),
      (h c main_arg7).trans (Cert.RefValue.arg7_keep (launchContents m c)),
      (h c main_arg8).trans (Cert.RefValue.arg8_keep (launchContents m c))⟩) (Line.run_fold m ρ)

end Cert.ReferenceIdeal.RefValue

end
-- ==== Proof.LibFiniteInputs.lean ====
/-
  Finiteness read back from a comparison. On the extended reals the absolute value of x is max x (-x); it lies strictly
  below +∞ exactly when x is neither infinity, that is, when x is a real number. A predicate "every |x i| < +inf",
  computed as the reduction by "and", over all axes and from the word 1, of the elementwise comparison of the absolute
  values against an array that is +inf everywhere, being 1, therefore makes every entry of x a real.
-/
import Idealize.ShloMosaic.Lib.ReduceAll
import Idealize.ShloMosaic.PureOps.Ideal

noncomputable section

namespace Cert.LibFiniteInputs

open Idealize.ShloMosaic

/-- The float pattern of +inf denotes the top of the extended reals. -/
theorem ofBits_posInf : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "|x| < y" at one element, as the word 1: the order fact. -/
theorem abs_lt_of_cmp_eq_one (x y : EReal) (h : Ideal.cmp .olt (max x (-x)) y = 1#1) : max x (-x) < y := by
  have h' : BitVec.ofBool (decide (max x (-x) < y)) = 1#1 := h
  by_contra hn
  rw [decide_eq_false hn] at h'
  exact absurd h' (by decide)

/-- An array x of any shape, all of whose absolute values compare below an array that is the float +inf everywhere —
    the comparison reduced by "and" over all its axes, from any initial word, into a result with one index, being 1 —
    has a real number at every index. -/
theorem real_of_all_abs_lt_inf {s t u : Shape} {axes : List (Fin s.rank)} [Subsingleton t.Idx]
    (x b : FVec Ideal s .f32) (hb : ∀ i, b i = Ideal.ofBits .f32 0x7F800000#32)
    (init : IVec u 1) (hr : s.ReducesTo axes t) (hu : 0 < u.numel) (j : t.Idx)
    (e : Host.reduce IntOp.andi (cmpf .olt (Host.absf x) b) init hr hu j = 1#1) (i : s.Idx) :
    ∃ r : ℝ, x i = (r : EReal) := by
  have h1 : cmpf .olt (Host.absf x) b i = 1#1 := Host.reduce_andi_all _ init hr hu j e i
  have h2 : Ideal.cmp .olt (max (x i) (-(x i))) (b i) = 1#1 := h1
  rw [hb i, ofBits_posInf] at h2
  exact real_of_abs_lt_top (x i) (abs_lt_of_cmp_eq_one _ _ h2)

end Cert.LibFiniteInputs

end
-- ==== Proof.PreDecode.lean ====
/-
  The precondition read back. The predicate on the nine argument arrays is the conjunction of ten tests, each reduced by
  "and" to one word: for every array, that all its absolute values lie strictly below +inf; and, for the adjacency, that
  1 plus each row's sum lies strictly above 0. The predicate being 1 makes each of the ten tests 1. A test of the first
  kind makes every entry of its array a real number. The last one, read at row i, is the comparison 0 < 1 + (0 + the
  sum over the row's 4096 entries), the leading 0 being the word the row sums start from.
-/
import proofs.«154251_g79121887527625_cont_sun_m_466_24_alg».proof.Proof.Spec
import proofs.«154251_g79121887527625_cont_sun_m_466_24_alg».proof.Proof.LibFiniteInputs
import proofs.«154251_g79121887527625_cont_sun_m_466_24_alg».proof.Pre_finite_inputs
import Idealize.ShloMosaic.Lib.IdealHost
import Idealize.ShloMosaic.Lib.ReduceAll
import Idealize.ShloMosaic.PureOps.Ideal.Laws

noncomputable section

namespace Cert.PreDecode

open Idealize.ShloMosaic Idealize.ShloMosaic.ValueIdx
open Cert.Pre_finite_inputs
open scoped BigOperators

/-- The shape with no axes has one index. -/
instance : Subsingleton S_.Idx := ⟨fun a b => funext fun d => d.elim0⟩

/-- The float pattern of 1.0 denotes the extended real 1. -/
theorem ofBits_one : Ideal.ofBits .f32 0x3F800000#32 = 1 := by
  simp [Ideal.ofBits, Ideal.ieee, -EReal.coe_mul]; norm_num

/-- The comparison "x > y" at one element, as the word 1: the order fact. -/
theorem lt_of_cmp_ogt_eq_one (x y : EReal) (h : Ideal.cmp .ogt x y = 1#1) : y < x := by
  have h' : BitVec.ofBool (decide (y < x)) = 1#1 := h
  by_contra hn
  rw [decide_eq_false hn] at h'
  exact absurd h' (by decide)

/-- The adjacency's shape with its second axis summed out is the shape of its rows. -/
theorem reduces_rows : S4096x4096.Reduces [1] S4096 := by decide

/-- The index the row sum at row i reads at position k is (i, k). -/
theorem lift_rows (i : Fin 4096) (k : Fin 4096) : reduces_rows.lift (ix1 i) k = ix2 i k := by
  funext a; match a with | ⟨0, _⟩ => rfl | ⟨1, _⟩ => rfl

/-- One test of the first kind: the array's entries are reals. -/
theorem all_real {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  Cert.LibFiniteInputs.real_of_all_abs_lt_inf x _ (fun _ => rfl) _ hr hu ix0 e i

/-- The last test: 1 plus every row sum of the adjacency is positive. -/
theorem rows_pos (a1 : FVec Ideal S4096x4096 .f32) (hb : S_.BroadcastsInDim S4096 ![]) (hr' : S4096x4096.ReducesTo [1] S4096)
    (hr : S4096.ReducesTo [0] S_) (hu : 0 < S_.numel)
    (e : Host.reduce IntOp.andi
      (cmpf .ogt (addf (broadcastInDim S4096 ![] hb (constant (F := Ideal) S_ .f32 0x3F800000#32))
          (Host.reduceAdd a1 (constant (F := Ideal) S_ .f32 0x00000000#32) hr' hu))
        (broadcastInDim S4096 ![] hb (constant (F := Ideal) S_ .f32 0x00000000#32)))
      (constantI S_ 1 1#1) hr hu ix0 = 1#1) (i : Fin 4096) :
    (0 : EReal) < 1 + ∑ j : Fin 4096, a1 (ix2 i j) := by
  have h1 := Host.reduce_andi_all _ _ hr hu ix0 e (ix1 i)
  have h2 : Ideal.cmp .ogt (Ideal.ofBits .f32 0x3F800000#32
      + Ideal.hostReduceAdd hr' a1 (Ideal.ofBits .f32 0x00000000#32) (ix1 i)) (Ideal.ofBits .f32 0x00000000#32) = 1#1 := h1
  rw [Ideal.hostReduceAdd_single hr' reduces_rows, Ideal.ofBits_zero_f32, ofBits_one, zero_add] at h2
  have h3 := lt_of_cmp_ogt_eq_one _ _ h2
  have h4 : (∑ k : Fin (S4096x4096.size 1), a1 (reduces_rows.lift (ix1 i) k)) = ∑ j : Fin 4096, a1 (ix2 i j) :=
    Finset.sum_congr rfl fun k _ => congrArg a1 (lift_rows i k)
  rw [h4] at h3
  exact h3

variable [Facts]
open Facts

/-- The predicate being 1 on nine arrays makes every entry of each a real number and 1 plus every row sum of the second
    (the adjacency) positive. -/
theorem decode (a0 : FVec Ideal S4096x512 .f32) (a1 : FVec Ideal S4096x4096 .f32) (a2 : FVec Ideal S4096x32 .f32)
    (a3 : FVec Ideal S512x512 .f32) (a4 : FVec Ideal S512 .f32) (a5 : FVec Ideal S512x256 .f32) (a6 : FVec Ideal S256 .f32)
    (a7 : FVec Ideal S288x16 .f32) (a8 : FVec Ideal S16 .f32)
    (h : Cert.Pre_finite_inputs.fn (F := Ideal) a0 a1 a2 a3 a4 a5 a6 a7 a8 = fun _ => 1#1) :
    (Cert.Gcn.Inputs.mk a0 a1 a2 a3 a4 a5 a6 a7 a8).Finite ∧ (Cert.Gcn.Inputs.mk a0 a1 a2 a3 a4 a5 a6 a7 a8).PosRows := by
  have h0 := congrFun h ix0
  dsimp only [fn, fn_part1, fn_part2, fn_part3] at h0
  obtain ⟨h43, h49⟩ := IntOp.andi_eq_one.1 h0
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨⟨all_real a0 _ _ _ h3, all_real a1 _ _ _ h7, all_real a2 _ _ _ h12, all_real a3 _ _ _ h17, all_real a4 _ _ _ h22,
    all_real a5 _ _ _ h27, all_real a6 _ _ _ h32, all_real a7 _ _ _ h37, all_real a8 _ _ _ h42⟩,
    rows_pos a1 _ _ _ _ h49⟩

end Cert.PreDecode

end
-- ==== Proof.PreDecodeKernel.lean ====
/-
  The precondition of the idealized kernel, read back at one device: the nine argument arrays held in the initial memory
  form an input all of whose entries are real numbers and whose adjacency has 1 plus every row sum positive.
-/
import proofs.«154251_g79121887527625_cont_sun_m_466_24_alg».proof.Defs
import proofs.«154251_g79121887527625_cont_sun_m_466_24_alg».proof.Proof.PreDecode

noncomputable section

namespace Cert.PreDecode

open Idealize.ShloMosaic Idealize.SL.Sem
open Cert.KernelIdeal

/-- The nine argument arrays the initial memory holds at device c, as one input. -/
def inputsOf (m : (ℓ : Loc nD τ sig) → Buf (Elt Ideal) ℓ) (c : Dev nD) : Cert.Gcn.Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

/-- Under the kernel's precondition the input at every device is finite with positive row sums. -/
theorem of_pre [Cert.Pre_finite_inputs.Facts] (m : (ℓ : Loc nD τ sig) → Buf (Elt Ideal) ℓ) (hpre : Cert.Pre_KernelIdeal m)
    (c : Dev nD) : (inputsOf m c).Finite ∧ (inputsOf m c).PosRows :=
  decode _ _ _ _ _ _ _ _ _ (hpre c)

end Cert.PreDecode

end
-- ==== Proof.LibSoftmaxLaw.lean ====
/-
  THE SOFTMAX-AVERAGE LAW OVER THE EXTENDED REALS.

  One row of an attention layer: scores s k (k over a finite nonempty set of keys), a shift M,
  weights p k = exp (s k - M), normalizer L = sum of the p k, one value column v k. Two programs
  compute the weighted average in two orders:

    "normalize, then average":   sum over k of (p k / L) * v k          (a softmax followed by a product)
    "average, then normalize":   (sum over k of p k * v k) / L          (one division at the end)

  Over the real numbers the two are equal (the division distributes over the finite sum), and both are
  equal to (sum of exp (s k) * v k) / (sum of exp (s k)), WHATEVER real number the shift M is: the factor
  exp (-M) cancels between numerator and denominator. Over the extended reals [-oo, +oo], with the
  conventions that make every operation total, distributing a division over a sum is false in general
  (at an infinite or zero normalizer), so the statement needs the finiteness that is in fact there:
  if every score, the shift and every value are (coercions of) real numbers, every weight exp (s k - M)
  is a positive real, the normalizer is a positive real (the key set is not empty), no operation leaves
  the reals, and the extended-real computation is the coercion of the real one.

  The file proves, in this order:
    * the coercion from the reals commutes with finite sums;
    * the bit patterns of the constants 1, 64, 1/8, 0 and -oo, and sqrt 64 = 8, 1 / sqrt 64 = 1/8;
    * a score written (sum of q d * k d) * c and the same score written sum of (q d * c) * k d are one real;
    * the running maximum, from -oo, of finitely many reals over a nonempty set is a real (the largest one);
    * the two orders of the weighted average above, each equal to the coercion of the real softmax average,
      hence equal to each other.
-/
import Idealize.ShloMosaic.PureOps.Ideal
import Idealize.ShloMosaic.PureOps.Ideal.Laws

namespace Cert.AttnLaw

open Idealize.ShloMosaic
open scoped BigOperators

/-! ## The coercion from the reals commutes with finite sums -/

/-- The coercion of a finite sum of reals is the sum of the coercions. -/
theorem coe_sum {ι : Type*} (t : Finset ι) (g : ι → ℝ) :
    ((∑ k ∈ t, g k : ℝ) : EReal) = ∑ k ∈ t, (g k : EReal) := by
  classical
  induction t using Finset.induction_on with
  | empty => simp
  | insert a t ha ih => rw [Finset.sum_insert ha, Finset.sum_insert ha, EReal.coe_add, ih]

/-- A finite sum of extended reals each of which is (the coercion of) a real is the coercion of the real sum. -/
theorem sum_eq_coe {ι : Type*} (t : Finset ι) (f : ι → EReal) (g : ι → ℝ) (hf : ∀ k ∈ t, f k = (g k : EReal)) :
    ∑ k ∈ t, f k = ((∑ k ∈ t, g k : ℝ) : EReal) := by
  rw [coe_sum]; exact Finset.sum_congr rfl hf

/-! ## The constants -/

/-- The f32 pattern 0x3F800000 denotes one. -/
theorem ofBits_one : Ideal.ofBits .f32 0x3F800000#32 = ((1 : ℝ) : EReal) := by
  simp [Ideal.ofBits, Ideal.ieee, -EReal.coe_mul]; norm_num

/-- The f32 pattern 0x42800000 denotes sixty-four. -/
theorem ofBits_sixtyfour : Ideal.ofBits .f32 0x42800000#32 = ((64 : ℝ) : EReal) := by
  simp [Ideal.ofBits, Ideal.ieee, -EReal.coe_mul]; norm_num

/-- The f32 pattern 0x3E000000 denotes one eighth. -/
theorem ofBits_eighth : Ideal.ofBits .f32 0x3E000000#32 = ((1 / 8 : ℝ) : EReal) := by
  simp [Ideal.ofBits, Ideal.ieee, -EReal.coe_mul]; norm_num

/-- The f32 pattern 0xFF800000 denotes minus infinity, the bottom of the extended reals. -/
theorem ofBits_neg_inf : Ideal.ofBits .f32 0xFF800000#32 = (⊥ : EReal) := by
  simp [Ideal.ofBits, Ideal.ieee]

/-- The f32 pattern 0x00000000 denotes zero. -/
theorem ofBits_zero : Ideal.ofBits .f32 0x00000000#32 = (0 : EReal) := Ideal.ofBits_zero_f32

/-- The square root of sixty-four is eight. -/
theorem sqrt_sixtyfour : Ideal.sqrt ((64 : ℝ) : EReal) = ((8 : ℝ) : EReal) := by
  have h : Real.sqrt 64 = 8 := by
    rw [show (64 : ℝ) = 8 ^ 2 by norm_num]; exact Real.sqrt_sq (by norm_num)
  rw [Ideal.sqrt_coe, if_neg (by norm_num), h]

/-- One divided by the square root of sixty-four is one eighth. -/
theorem one_div_sqrt_sixtyfour :
    Ideal.div ((1 : ℝ) : EReal) (Ideal.sqrt ((64 : ℝ) : EReal)) = ((1 / 8 : ℝ) : EReal) := by
  rw [sqrt_sixtyfour, Ideal.div_coe (by norm_num), ← EReal.coe_mul, one_mul]

/-- The reference's scale, one over the square root of the head width, written with the bit patterns of its
    two constants, is one eighth. -/
theorem scale_eq_eighth :
    Ideal.div (Ideal.ofBits .f32 0x3F800000#32) (Ideal.sqrt (Ideal.ofBits .f32 0x42800000#32)) = ((1 / 8 : ℝ) : EReal) := by
  rw [ofBits_one, ofBits_sixtyfour, one_div_sqrt_sixtyfour]

/-- ... and is the kernel's folded constant, the f32 pattern 0x3E000000. -/
theorem scale_eq_ofBits :
    Ideal.div (Ideal.ofBits .f32 0x3F800000#32) (Ideal.sqrt (Ideal.ofBits .f32 0x42800000#32))
      = Ideal.ofBits .f32 0x3E000000#32 := by
  rw [scale_eq_eighth, ofBits_eighth]

/-! ## One score, written two ways -/

/-- A finite sum of products of (coercions of) reals is the coercion of the real sum of products. -/
theorem sum_mul_coe {ι : Type*} (t : Finset ι) (x w : ι → ℝ) :
    ∑ e ∈ t, (x e : EReal) * (w e : EReal) = ((∑ e ∈ t, x e * w e : ℝ) : EReal) :=
  sum_eq_coe t _ _ fun e _ => (EReal.coe_mul (x e) (w e)).symm

/-- The reference's score: the contraction of a query row with a key row, then the scale. -/
theorem score_scaled_after {δ : Type*} (D : Finset δ) (q k : δ → ℝ) (c : ℝ) :
    (∑ d ∈ D, (q d : EReal) * (k d : EReal)) * (c : EReal) = (((∑ d ∈ D, q d * k d) * c : ℝ) : EReal) := by
  rw [sum_mul_coe, ← EReal.coe_mul]

/-- The kernel's score: the scale folded into the query row before the contraction. The same real. -/
theorem score_scaled_before {δ : Type*} (D : Finset δ) (q k : δ → ℝ) (c : ℝ) :
    ∑ d ∈ D, ((q d : EReal) * (c : EReal)) * (k d : EReal) = (((∑ d ∈ D, q d * k d) * c : ℝ) : EReal) := by
  rw [Finset.sum_mul]
  exact sum_eq_coe D _ _ fun d _ => by rw [← EReal.coe_mul, ← EReal.coe_mul, mul_right_comm]

/-! ## The running maximum of finitely many reals -/

/-- The fold of the maximum, from minus infinity, over a nonempty finite set of (coercions of) reals is the
    coercion of the largest of them. The operation is any one that IS the maximum (so the statement applies to
    the lattice's max and to a float instance's maximum field alike), the initial value anything that is
    minus infinity, and the folded function anything that is pointwise a real on the set. -/
theorem fold_max_eq_coe_sup' {ι : Type*} (op : EReal → EReal → EReal) [Std.Commutative op] [Std.Associative op]
    (hop : ∀ x y, op x y = max x y) (t : Finset ι) (ht : t.Nonempty) (b : EReal) (hb : b = ⊥)
    (f : ι → EReal) (s : ι → ℝ) (hf : ∀ k ∈ t, f k = (s k : EReal)) :
    t.fold op b f = ((t.sup' ht s : ℝ) : EReal) := by
  subst hb
  induction ht using Finset.Nonempty.cons_induction with
  | singleton a =>
    rw [Finset.fold_singleton, hop, hf a (Finset.mem_singleton_self a), Finset.sup'_singleton]
    exact max_eq_left bot_le
  | cons a t ha ht ih =>
    rw [Finset.fold_cons, hop, hf a (Finset.mem_cons_self a t), ih fun k hk => hf k (Finset.mem_cons_of_mem hk),
      Finset.sup'_cons ht]
    exact (EReal.coe_strictMono.monotone.map_max).symm

/-- So that fold is (the coercion of) a real, which is all the softmax-average law asks of its shift. -/
theorem fold_max_eq_coe {ι : Type*} (op : EReal → EReal → EReal) [Std.Commutative op] [Std.Associative op]
    (hop : ∀ x y, op x y = max x y) (t : Finset ι) (ht : t.Nonempty) (b : EReal) (hb : b = ⊥)
    (f : ι → EReal) (s : ι → ℝ) (hf : ∀ k ∈ t, f k = (s k : EReal)) :
    ∃ M : ℝ, t.fold op b f = (M : EReal) ∧ (∀ k ∈ t, s k ≤ M) ∧ ∃ k ∈ t, M = s k := by
  refine ⟨t.sup' ht s, fold_max_eq_coe_sup' op hop t ht b hb f s hf, fun k hk => Finset.le_sup' s hk, ?_⟩
  obtain ⟨k, hk, e⟩ := Finset.exists_mem_eq_sup' ht s
  exact ⟨k, hk, e⟩

/-- A further maximum with minus infinity in front changes nothing. -/
theorem max_bot_coe (M : ℝ) : max (⊥ : EReal) (M : EReal) = (M : EReal) := max_eq_right bot_le

/-! ## The softmax average -/

/-- The real softmax average of the values v with scores s over the key set t. -/
noncomputable def softmaxAvg {κ : Type*} (t : Finset κ) (s v : κ → ℝ) : ℝ :=
  (∑ k ∈ t, Real.exp (s k) * v k) / ∑ k ∈ t, Real.exp (s k)

/-- Over the reals the softmax average does not depend on the shift: the factor exp (-M) cancels. -/
theorem softmaxAvg_shift {κ : Type*} (t : Finset κ) (s v : κ → ℝ) (M : ℝ) :
    (∑ k ∈ t, Real.exp (s k - M) * v k) / (∑ k ∈ t, Real.exp (s k - M)) = softmaxAvg t s v := by
  have hM : Real.exp M ≠ 0 := (Real.exp_pos M).ne'
  have h1 : ∑ k ∈ t, Real.exp (s k - M) * v k = (∑ k ∈ t, Real.exp (s k) * v k) / Real.exp M := by
    rw [Finset.sum_div]; exact Finset.sum_congr rfl fun k _ => by rw [Real.exp_sub]; ring
  have h2 : ∑ k ∈ t, Real.exp (s k - M) = (∑ k ∈ t, Real.exp (s k)) / Real.exp M := by
    rw [Finset.sum_div]; exact Finset.sum_congr rfl fun k _ => by rw [Real.exp_sub]
  rw [h1, h2, softmaxAvg, div_div_div_cancel_right₀ hM]

/-- The normalizer of a nonempty key set is a positive real. -/
theorem normalizer_pos {κ : Type*} (t : Finset κ) (ht : t.Nonempty) (s : κ → ℝ) (M : ℝ) :
    0 < ∑ k ∈ t, Real.exp (s k - M) :=
  Finset.sum_pos (fun k _ => Real.exp_pos _) ht

/-- A weight: the exponential of a real score minus a real shift is the coercion of the real exponential. -/
theorem exp_sub_coe (s M : ℝ) : Ideal.exp ((s : EReal) - (M : EReal)) = ((Real.exp (s - M) : ℝ) : EReal) := by
  rw [← EReal.coe_sub, Ideal.exp_coe]

/-- The normalizer, over the extended reals, is the coercion of the real normalizer. -/
theorem normalizer_coe {κ : Type*} (t : Finset κ) (s : κ → ℝ) (M : ℝ) :
    ∑ k ∈ t, Ideal.exp ((s k : EReal) - (M : EReal)) = ((∑ k ∈ t, Real.exp (s k - M) : ℝ) : EReal) :=
  sum_eq_coe t _ _ fun k _ => exp_sub_coe (s k) M

/-- AVERAGE, THEN NORMALIZE (the kernel's order): the weighted sum of the values divided once by the normalizer
    is the coercion of the real softmax average, for real scores, any real shift and real values over a
    nonempty key set. -/
theorem avg_then_normalize {κ : Type*} (t : Finset κ) (ht : t.Nonempty) (s v : κ → ℝ) (M : ℝ) :
    Ideal.div (∑ k ∈ t, Ideal.exp ((s k : EReal) - (M : EReal)) * (v k : EReal))
        (∑ k ∈ t, Ideal.exp ((s k : EReal) - (M : EReal)))
      = ((softmaxAvg t s v : ℝ) : EReal) := by
  have hL : (∑ k ∈ t, Real.exp (s k - M)) ≠ 0 := (normalizer_pos t ht s M).ne'
  have hN : ∑ k ∈ t, Ideal.exp ((s k : EReal) - (M : EReal)) * (v k : EReal)
      = ((∑ k ∈ t, Real.exp (s k - M) * v k : ℝ) : EReal) :=
    sum_eq_coe t _ _ fun k _ => by rw [exp_sub_coe, ← EReal.coe_mul]
  rw [hN, normalizer_coe, Ideal.div_coe hL, ← EReal.coe_mul, ← softmaxAvg_shift t s v M, mul_one_div]

/-- NORMALIZE, THEN AVERAGE (the reference's order): each weight divided by the normalizer, times its value,
    summed, is the coercion of the same real softmax average. -/
theorem normalize_then_avg {κ : Type*} (t : Finset κ) (ht : t.Nonempty) (s v : κ → ℝ) (M : ℝ) :
    ∑ k ∈ t, Ideal.div (Ideal.exp ((s k : EReal) - (M : EReal))) (∑ k' ∈ t, Ideal.exp ((s k' : EReal) - (M : EReal)))
        * (v k : EReal)
      = ((softmaxAvg t s v : ℝ) : EReal) := by
  have hL : (∑ k ∈ t, Real.exp (s k - M)) ≠ 0 := (normalizer_pos t ht s M).ne'
  rw [normalizer_coe, ← softmaxAvg_shift t s v M, Finset.sum_div]
  exact sum_eq_coe t _ _ fun k _ => by
    rw [Ideal.div_coe hL, exp_sub_coe, ← EReal.coe_mul, ← EReal.coe_mul]
    congr 1; ring

/-- The same with the host sum's initial value, zero, in front of the normalizer. -/
theorem normalize_then_avg_zero_add {κ : Type*} (t : Finset κ) (ht : t.Nonempty) (s v : κ → ℝ) (M : ℝ) :
    ∑ k ∈ t, Ideal.div (Ideal.exp ((s k : EReal) - (M : EReal)))
          (0 + ∑ k' ∈ t, Ideal.exp ((s k' : EReal) - (M : EReal))) * (v k : EReal)
      = ((softmaxAvg t s v : ℝ) : EReal) := by
  rw [zero_add]; exact normalize_then_avg t ht s v M

/-- THE LAW: the two orders agree, each with its own real shift. -/
theorem avg_then_normalize_eq_normalize_then_avg {κ : Type*} (t : Finset κ) (ht : t.Nonempty) (s v : κ → ℝ)
    (M M' : ℝ) :
    Ideal.div (∑ k ∈ t, Ideal.exp ((s k : EReal) - (M' : EReal)) * (v k : EReal))
        (∑ k ∈ t, Ideal.exp ((s k : EReal) - (M' : EReal)))
      = ∑ k ∈ t, Ideal.div (Ideal.exp ((s k : EReal) - (M : EReal)))
          (0 + ∑ k' ∈ t, Ideal.exp ((s k' : EReal) - (M : EReal))) * (v k : EReal) := by
  rw [avg_then_normalize t ht s v M', normalize_then_avg_zero_add t ht s v M]

/-! ## The same law for terms that are only KNOWN to be reals

The forms a program's value is rewritten with: the scores, the values, the shift and the sum's initial
value are arbitrary extended-real terms, each with a proof that it is (the coercion of) a real. -/

/-- Average, then normalize, for terms known to be reals. -/
theorem avg_then_normalize_of_eq {κ : Type*} (t : Finset κ) (ht : t.Nonempty) (S V : κ → EReal) (Mx : EReal)
    (s v : κ → ℝ) (M : ℝ) (hS : ∀ k ∈ t, S k = (s k : EReal)) (hV : ∀ k ∈ t, V k = (v k : EReal))
    (hM : Mx = (M : EReal)) :
    Ideal.div (∑ k ∈ t, Ideal.exp (S k - Mx) * V k) (∑ k ∈ t, Ideal.exp (S k - Mx))
      = ((softmaxAvg t s v : ℝ) : EReal) := by
  subst hM
  have e1 : ∑ k ∈ t, Ideal.exp (S k - (M : EReal)) * V k
      = ∑ k ∈ t, Ideal.exp ((s k : EReal) - (M : EReal)) * (v k : EReal) :=
    Finset.sum_congr rfl fun k hk => by rw [hS k hk, hV k hk]
  have e2 : ∑ k ∈ t, Ideal.exp (S k - (M : EReal)) = ∑ k ∈ t, Ideal.exp ((s k : EReal) - (M : EReal)) :=
    Finset.sum_congr rfl fun k hk => by rw [hS k hk]
  rw [e1, e2, avg_then_normalize t ht s v M]

/-- Normalize, then average, for terms known to be reals; the normalizer's sum starts from a term z that is zero
    (a host sum's initial value; take z := 0 and the sum is plain after zero_add). -/
theorem normalize_then_avg_of_eq {κ : Type*} (t : Finset κ) (ht : t.Nonempty) (S V : κ → EReal) (Mx z : EReal)
    (s v : κ → ℝ) (M : ℝ) (hS : ∀ k ∈ t, S k = (s k : EReal)) (hV : ∀ k ∈ t, V k = (v k : EReal))
    (hM : Mx = (M : EReal)) (hz : z = 0) :
    ∑ k ∈ t, Ideal.div (Ideal.exp (S k - Mx)) (z + ∑ k' ∈ t, Ideal.exp (S k' - Mx)) * V k
      = ((softmaxAvg t s v : ℝ) : EReal) := by
  subst hM hz
  have e2 : ∑ k ∈ t, Ideal.exp (S k - (M : EReal)) = ∑ k ∈ t, Ideal.exp ((s k : EReal) - (M : EReal)) :=
    Finset.sum_congr rfl fun k hk => by rw [hS k hk]
  rw [zero_add, e2, ← normalize_then_avg t ht s v M]
  exact Finset.sum_congr rfl fun k hk => by rw [hS k hk, hV k hk]

/-- THE LAW for terms known to be reals: the kernel's row (scores SK, values VK, shift MK) and the reference's
    (SR, VR, MR, initial value z) agree as soon as both score families are the same reals, both value families
    are the same reals, and each shift is some real. -/
theorem row_eq_of_eq {κ : Type*} (t : Finset κ) (ht : t.Nonempty) (SK SR VK VR : κ → EReal) (MK MR z : EReal)
    (s v : κ → ℝ) (mK mR : ℝ)
    (hSK : ∀ k ∈ t, SK k = (s k : EReal)) (hSR : ∀ k ∈ t, SR k = (s k : EReal))
    (hVK : ∀ k ∈ t, VK k = (v k : EReal)) (hVR : ∀ k ∈ t, VR k = (v k : EReal))
    (hMK : MK = (mK : EReal)) (hMR : MR = (mR : EReal)) (hz : z = 0) :
    Ideal.div (∑ k ∈ t, Ideal.exp (SK k - MK) * VK k) (∑ k ∈ t, Ideal.exp (SK k - MK))
      = ∑ k ∈ t, Ideal.div (Ideal.exp (SR k - MR)) (z + ∑ k' ∈ t, Ideal.exp (SR k' - MR)) * VR k := by
  rw [avg_then_normalize_of_eq t ht SK VK MK s v mK hSK hVK hMK,
    normalize_then_avg_of_eq t ht SR VR MR z s v mR hSR hVR hMR hz]

end Cert.AttnLaw
-- ==== Proof.LibFiniteSums.lean ====
/-
  FINITENESS THROUGH SUMS OF PRODUCTS, AND THE ATTENTION ROW ASSEMBLED.

  On the extended reals [-oo, +oo] the ring laws fail at the infinities (a product does not distribute over a sum,
  a scale cannot be moved across a contraction, a quotient cannot be moved across a sum), and hold on the reals.
  A program whose inputs are finite never leaves the reals as long as it only adds, subtracts, multiplies,
  exponentiates, divides by something that is not zero, and takes maxima over nonempty sets. This file makes
  that precise:

    * IsReal x: the extended real x is (the coercion of) a real number; it is exactly "neither infinity", and
      it follows from |x| < +oo, the shape in which a precondition on a float array states it;
    * IsReal is closed under +, -, *, negation, exp, division by a nonzero real, finite sums, and the
      running maximum from -oo over a nonempty finite set;
    * a linear projection  (sum over e of x e * w e) + b  of reals is the coercion of the real projection,
      and so is that times a real scale; with or without an initial accumulator that is zero;
    * moving a real scale across a contraction of reals: sum of (q d * c) * k d = (sum of q d * k d) * c;
    * an output projection  (sum over n of o n * w n) + b  depends only on the values o n;
    * the attention row, assembled: for finite scores and values, "average, then normalize" with ANY finite
      shift equals "normalize, then average" with the running maximum as the shift, in the literal shape of
      a softmax (maximum joined once more with -oo, normalizer summed from an initial zero).
-/
import proofs.«154251_g79121887527625_cont_sun_m_466_24_alg».proof.Proof.LibSoftmaxLaw

namespace Cert.AttnLaw

open Idealize.ShloMosaic
open scoped BigOperators

/-! ## Being a real -/

/-- The extended real x is (the coercion of) a real number. -/
def IsReal (x : EReal) : Prop := ∃ r : ℝ, x = (r : EReal)

/-- A coercion is a real. -/
theorem isReal_coe (r : ℝ) : IsReal (r : EReal) := ⟨r, rfl⟩

/-- Zero is a real. -/
theorem isReal_zero : IsReal (0 : EReal) := ⟨0, rfl⟩

/-- One is a real. -/
theorem isReal_one : IsReal (1 : EReal) := ⟨1, rfl⟩

/-- A real is the coercion of its real part. -/
theorem IsReal.eq_coe_toReal {x : EReal} (h : IsReal x) : x = ((x.toReal : ℝ) : EReal) := by
  obtain ⟨r, rfl⟩ := h; rw [EReal.toReal_coe]

/-- Being a real is being neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- An extended real whose absolute value, max x (-x), is below plus infinity is a real. -/
theorem isReal_of_abs_lt_top {x : EReal} (h : max x (-x) < ⊤) : IsReal x := by
  induction x using EReal.rec with
  | bot => simp at h
  | top => simp at h
  | coe r => exact ⟨r, rfl⟩

/-- The f32 pattern 0x7F800000 denotes plus infinity, the top of the extended reals. -/
theorem ofBits_pos_inf : Ideal.ofBits .f32 0x7F800000#32 = (⊤ : EReal) := by
  simp [Ideal.ofBits, Ideal.ieee]

/-- The constants of the attention programs are reals. -/
theorem isReal_ofBits_one : IsReal (Ideal.ofBits .f32 0x3F800000#32) := ⟨1, ofBits_one⟩
theorem isReal_ofBits_eighth : IsReal (Ideal.ofBits .f32 0x3E000000#32) := ⟨1 / 8, ofBits_eighth⟩
theorem isReal_ofBits_zero : IsReal (Ideal.ofBits .f32 0x00000000#32) := ⟨0, ofBits_zero⟩
theorem isReal_scale :
    IsReal (Ideal.div (Ideal.ofBits .f32 0x3F800000#32) (Ideal.sqrt (Ideal.ofBits .f32 0x42800000#32))) :=
  ⟨1 / 8, scale_eq_eighth⟩

/-- Reals are closed under addition. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Reals are closed under multiplication. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Reals are closed under subtraction. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Reals are closed under negation. -/
theorem IsReal.neg {x : EReal} (hx : IsReal x) : IsReal (-x) := by
  obtain ⟨a, rfl⟩ := hx; exact ⟨-a, (EReal.coe_neg a).symm⟩

/-- The exponential of a real is a real. -/
theorem IsReal.exp {x : EReal} (hx : IsReal x) : IsReal (Ideal.exp x) := by
  obtain ⟨a, rfl⟩ := hx; exact ⟨Real.exp a, Ideal.exp_coe a⟩

/-- The quotient of a real by a nonzero real is a real. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun e => hy0 (by rw [e, EReal.coe_zero])
  exact ⟨a * (1 / b), by rw [Ideal.div_coe hb, EReal.coe_mul]⟩

/-- A finite sum of reals is a real. -/
theorem IsReal.sum {ι : Type*} (t : Finset ι) (f : ι → EReal) (h : ∀ k ∈ t, IsReal (f k)) : IsReal (∑ k ∈ t, f k) :=
  ⟨∑ k ∈ t, (f k).toReal, sum_eq_coe t f _ fun k hk => (h k hk).eq_coe_toReal⟩

/-- A finite sum of products of reals is a real. -/
theorem IsReal.sum_mul {ι : Type*} (t : Finset ι) (X W : ι → EReal) (hX : ∀ e ∈ t, IsReal (X e))
    (hW : ∀ e ∈ t, IsReal (W e)) : IsReal (∑ e ∈ t, X e * W e) :=
  IsReal.sum t _ fun e he => (hX e he).mul (hW e he)

/-- A linear projection of reals, with its bias, is a real. -/
theorem IsReal.affine {ι : Type*} (t : Finset ι) (X W : ι → EReal) (B : EReal) (hX : ∀ e ∈ t, IsReal (X e))
    (hW : ∀ e ∈ t, IsReal (W e)) (hB : IsReal B) : IsReal ((∑ e ∈ t, X e * W e) + B) :=
  (IsReal.sum_mul t X W hX hW).add hB

/-- The running maximum, from minus infinity, of reals over a nonempty finite set is a real. -/
theorem IsReal.fold_max {ι : Type*} (op : EReal → EReal → EReal) [Std.Commutative op] [Std.Associative op]
    (hop : ∀ x y, op x y = max x y) (t : Finset ι) (ht : t.Nonempty) (b : EReal) (hb : b = ⊥) (f : ι → EReal)
    (hf : ∀ k ∈ t, IsReal (f k)) : IsReal (t.fold op b f) :=
  ⟨_, fold_max_eq_coe_sup' op hop t ht b hb f (fun k => (f k).toReal) fun k hk => (hf k hk).eq_coe_toReal⟩

/-- Joining a real once more with minus infinity leaves it. -/
theorem IsReal.max_bot {x b : EReal} (hx : IsReal x) (hb : b = ⊥) : max b x = x := by
  subst hb; exact max_eq_right bot_le

/-! ## Linear projections, explicitly -/

/-- A sum of products of terms known to be reals is the coercion of the real sum of products. -/
theorem sum_mul_eq_coe {ι : Type*} (t : Finset ι) (X W : ι → EReal) (x w : ι → ℝ)
    (hX : ∀ e ∈ t, X e = (x e : EReal)) (hW : ∀ e ∈ t, W e = (w e : EReal)) :
    ∑ e ∈ t, X e * W e = ((∑ e ∈ t, x e * w e : ℝ) : EReal) :=
  sum_eq_coe t _ _ fun e he => by rw [hX e he, hW e he, EReal.coe_mul]

/-- A linear projection with bias, of reals, is the coercion of the real projection. -/
theorem affine_coe {ι : Type*} (t : Finset ι) (x w : ι → ℝ) (b : ℝ) :
    (∑ e ∈ t, (x e : EReal) * (w e : EReal)) + (b : EReal) = (((∑ e ∈ t, x e * w e) + b : ℝ) : EReal) := by
  rw [sum_mul_coe, ← EReal.coe_add]

/-- The same for terms known to be reals. -/
theorem affine_eq_coe {ι : Type*} (t : Finset ι) (X W : ι → EReal) (B : EReal) (x w : ι → ℝ) (b : ℝ)
    (hX : ∀ e ∈ t, X e = (x e : EReal)) (hW : ∀ e ∈ t, W e = (w e : EReal)) (hB : B = (b : EReal)) :
    (∑ e ∈ t, X e * W e) + B = (((∑ e ∈ t, x e * w e) + b : ℝ) : EReal) := by
  rw [sum_mul_eq_coe t X W x w hX hW, hB, ← EReal.coe_add]

/-- The same with an initial accumulator z that is zero in front of the sum (a matrix product into a zero
    accumulator, a host sum from an initial zero). -/
theorem acc_affine_eq_coe {ι : Type*} (t : Finset ι) (X W : ι → EReal) (B z : EReal) (x w : ι → ℝ) (b : ℝ)
    (hX : ∀ e ∈ t, X e = (x e : EReal)) (hW : ∀ e ∈ t, W e = (w e : EReal)) (hB : B = (b : EReal)) (hz : z = 0) :
    (z + ∑ e ∈ t, X e * W e) + B = (((∑ e ∈ t, x e * w e) + b : ℝ) : EReal) := by
  rw [hz, zero_add, affine_eq_coe t X W B x w b hX hW hB]

/-- A linear projection with bias, then a scale: the coercion of the real expression. -/
theorem affine_scaled_coe {ι : Type*} (t : Finset ι) (x w : ι → ℝ) (b c : ℝ) :
    ((∑ e ∈ t, (x e : EReal) * (w e : EReal)) + (b : EReal)) * (c : EReal)
      = ((((∑ e ∈ t, x e * w e) + b) * c : ℝ) : EReal) := by
  rw [affine_coe, ← EReal.coe_mul]

/-- The same for terms known to be reals. -/
theorem affine_scaled_eq_coe {ι : Type*} (t : Finset ι) (X W : ι → EReal) (B C : EReal) (x w : ι → ℝ) (b c : ℝ)
    (hX : ∀ e ∈ t, X e = (x e : EReal)) (hW : ∀ e ∈ t, W e = (w e : EReal)) (hB : B = (b : EReal))
    (hC : C = (c : EReal)) :
    ((∑ e ∈ t, X e * W e) + B) * C = ((((∑ e ∈ t, x e * w e) + b) * c : ℝ) : EReal) := by
  rw [affine_eq_coe t X W B x w b hX hW hB, hC, ← EReal.coe_mul]

/-! ## A scale across a contraction -/

/-- The reference's score for terms known to be reals. -/
theorem score_scaled_after_of_eq {δ : Type*} (D : Finset δ) (Q K : δ → EReal) (C : EReal) (q k : δ → ℝ) (c : ℝ)
    (hQ : ∀ d ∈ D, Q d = (q d : EReal)) (hK : ∀ d ∈ D, K d = (k d : EReal)) (hC : C = (c : EReal)) :
    (∑ d ∈ D, Q d * K d) * C = (((∑ d ∈ D, q d * k d) * c : ℝ) : EReal) := by
  rw [sum_mul_eq_coe D Q K q k hQ hK, hC, ← EReal.coe_mul]

/-- The kernel's score for terms known to be reals. -/
theorem score_scaled_before_of_eq {δ : Type*} (D : Finset δ) (Q K : δ → EReal) (C : EReal) (q k : δ → ℝ) (c : ℝ)
    (hQ : ∀ d ∈ D, Q d = (q d : EReal)) (hK : ∀ d ∈ D, K d = (k d : EReal)) (hC : C = (c : EReal)) :
    ∑ d ∈ D, (Q d * C) * K d = (((∑ d ∈ D, q d * k d) * c : ℝ) : EReal) := by
  rw [← score_scaled_before D q k c]
  exact Finset.sum_congr rfl fun d hd => by rw [hQ d hd, hK d hd, hC]

/-- On reals a scale moves across a contraction: folded into the left factor before, or applied after. -/
theorem score_before_eq_after {δ : Type*} (D : Finset δ) (Q K : δ → EReal) (C : EReal)
    (hQ : ∀ d ∈ D, IsReal (Q d)) (hK : ∀ d ∈ D, IsReal (K d)) (hC : IsReal C) :
    ∑ d ∈ D, (Q d * C) * K d = (∑ d ∈ D, Q d * K d) * C := by
  obtain ⟨c, hc⟩ := hC
  rw [score_scaled_before_of_eq D Q K C (fun d => (Q d).toReal) (fun d => (K d).toReal) c
      (fun d hd => (hQ d hd).eq_coe_toReal) (fun d hd => (hK d hd).eq_coe_toReal) hc,
    score_scaled_after_of_eq D Q K C (fun d => (Q d).toReal) (fun d => (K d).toReal) c
      (fun d hd => (hQ d hd).eq_coe_toReal) (fun d hd => (hK d hd).eq_coe_toReal) hc]

/-- A score of reals, scaled by a real, is a real. -/
theorem IsReal.score {δ : Type*} (D : Finset δ) (Q K : δ → EReal) (C : EReal)
    (hQ : ∀ d ∈ D, IsReal (Q d)) (hK : ∀ d ∈ D, IsReal (K d)) (hC : IsReal C) :
    IsReal ((∑ d ∈ D, Q d * K d) * C) :=
  (IsReal.sum_mul D Q K hQ hK).mul hC

/-! ## The output projection depends only on the head outputs -/

/-- Two families of head outputs that agree give the same output projection. -/
theorem proj_congr {ι : Type*} (t : Finset ι) (O O' W : ι → EReal) (B : EReal) (h : ∀ n ∈ t, O n = O' n) :
    (∑ n ∈ t, O n * W n) + B = (∑ n ∈ t, O' n * W n) + B :=
  congrArg (· + B) (Finset.sum_congr rfl fun n hn => by rw [h n hn])

/-- The same with an initial accumulator in front of the first sum. -/
theorem acc_proj_congr {ι : Type*} (t : Finset ι) (O O' W : ι → EReal) (B z : EReal) (h : ∀ n ∈ t, O n = O' n)
    (hz : z = 0) : (z + ∑ n ∈ t, O n * W n) + B = (∑ n ∈ t, O' n * W n) + B := by
  rw [hz, zero_add]; exact proj_congr t O O' W B h

/-! ## The attention row, assembled -/

/-- THE LAW under finiteness alone: the kernel's row (scores SK, values VK, any finite shift MK) equals the
    reference's (scores SR, values VR, any finite shift MR, normalizer summed from a z that is zero) as soon as
    the scores agree, the values agree, and all of them are reals. -/
theorem row_eq_of_isReal {κ : Type*} (t : Finset κ) (ht : t.Nonempty) (SK SR VK VR : κ → EReal) (MK MR z : EReal)
    (hS : ∀ k ∈ t, SK k = SR k) (hV : ∀ k ∈ t, VK k = VR k)
    (hSR : ∀ k ∈ t, IsReal (SR k)) (hVR : ∀ k ∈ t, IsReal (VR k))
    (hMK : IsReal MK) (hMR : IsReal MR) (hz : z = 0) :
    Ideal.div (∑ k ∈ t, Ideal.exp (SK k - MK) * VK k) (∑ k ∈ t, Ideal.exp (SK k - MK))
      = ∑ k ∈ t, Ideal.div (Ideal.exp (SR k - MR)) (z + ∑ k' ∈ t, Ideal.exp (SR k' - MR)) * VR k := by
  obtain ⟨mK, hmK⟩ := hMK
  obtain ⟨mR, hmR⟩ := hMR
  exact row_eq_of_eq t ht SK SR VK VR MK MR z (fun k => (SR k).toReal) (fun k => (VR k).toReal) mK mR
    (fun k hk => (hS k hk).trans (hSR k hk).eq_coe_toReal) (fun k hk => (hSR k hk).eq_coe_toReal)
    (fun k hk => (hV k hk).trans (hVR k hk).eq_coe_toReal) (fun k hk => (hVR k hk).eq_coe_toReal) hmK hmR hz

/-- The reference's shift: the running maximum of the scores from nI = -oo, joined once more with nI, is a real. -/
theorem IsReal.max_fold_max {ι : Type*} (t : Finset ι) (ht : t.Nonempty) (nI : EReal) (hnI : nI = ⊥) (f : ι → EReal)
    (hf : ∀ k ∈ t, IsReal (f k)) : IsReal (max nI (t.fold max nI f)) := by
  have h := IsReal.fold_max max (fun _ _ => rfl) t ht nI hnI f hf
  rw [h.max_bot hnI]; exact h

/-- THE ROW AGAINST A LITERAL SOFTMAX: the kernel's row with ANY finite shift MK equals the reference's row
    written out as a softmax does it — the shift is the fold of max from nI over the keys, joined once more
    with nI (nI = -oo), the normalizer is z plus the sum of the weights (z = 0), each weight is divided by
    the normalizer and multiplied by its value, and the products are summed. -/
theorem row_eq_softmax {κ : Type*} (t : Finset κ) (ht : t.Nonempty) (SK SR VK VR : κ → EReal) (MK nI z : EReal)
    (hS : ∀ k ∈ t, SK k = SR k) (hV : ∀ k ∈ t, VK k = VR k)
    (hSR : ∀ k ∈ t, IsReal (SR k)) (hVR : ∀ k ∈ t, IsReal (VR k))
    (hMK : IsReal MK) (hnI : nI = ⊥) (hz : z = 0) :
    Ideal.div (∑ k ∈ t, Ideal.exp (SK k - MK) * VK k) (∑ k ∈ t, Ideal.exp (SK k - MK))
      = ∑ k ∈ t, Ideal.div (Ideal.exp (SR k - max nI (t.fold max nI SR)))
          (z + ∑ k' ∈ t, Ideal.exp (SR k' - max nI (t.fold max nI SR))) * VR k :=
  row_eq_of_isReal t ht SK SR VK VR MK _ z hS hV hSR hVR hMK (IsReal.max_fold_max t ht nI hnI SR hSR) hz

/-- The same with the kernel's shift also a running maximum: the fold, by any operation that is the maximum, from
    an initial value that is -oo, of the kernel's own scores. -/
theorem row_eq_softmax_fold {κ : Type*} (op : EReal → EReal → EReal) [Std.Commutative op] [Std.Associative op]
    (hop : ∀ x y, op x y = max x y) (t : Finset κ) (ht : t.Nonempty) (SK SR VK VR : κ → EReal) (b nI z : EReal)
    (hS : ∀ k ∈ t, SK k = SR k) (hV : ∀ k ∈ t, VK k = VR k)
    (hSR : ∀ k ∈ t, IsReal (SR k)) (hVR : ∀ k ∈ t, IsReal (VR k))
    (hb : b = ⊥) (hnI : nI = ⊥) (hz : z = 0) :
    Ideal.div (∑ k ∈ t, Ideal.exp (SK k - t.fold op b SK) * VK k) (∑ k ∈ t, Ideal.exp (SK k - t.fold op b SK))
      = ∑ k ∈ t, Ideal.div (Ideal.exp (SR k - max nI (t.fold max nI SR)))
          (z + ∑ k' ∈ t, Ideal.exp (SR k' - max nI (t.fold max nI SR))) * VR k :=
  row_eq_softmax t ht SK SR VK VR _ nI z hS hV hSR hVR
    (IsReal.fold_max op hop t ht b hb SK fun k hk => (hS k hk) ▸ hSR k hk) hnI hz

/-- Each side of the row is a real (so what is computed from it stays finite). -/
theorem IsReal.row {κ : Type*} (t : Finset κ) (ht : t.Nonempty) (S V : κ → EReal) (M : EReal)
    (hS : ∀ k ∈ t, IsReal (S k)) (hV : ∀ k ∈ t, IsReal (V k)) (hM : IsReal M) :
    IsReal (Ideal.div (∑ k ∈ t, Ideal.exp (S k - M) * V k) (∑ k ∈ t, Ideal.exp (S k - M))) := by
  obtain ⟨m, hm⟩ := hM
  exact ⟨_, avg_then_normalize_of_eq t ht S V M (fun k => (S k).toReal) (fun k => (V k).toReal) m
    (fun k hk => (hS k hk).eq_coe_toReal) (fun k hk => (hV k hk).eq_coe_toReal) hm⟩

end Cert.AttnLaw
-- ==== Proof.LibNormalisedAdjacency.lean ====
/-
  THE NORMALISED-ADJACENCY LAYER LAW.

  A graph-convolution layer multiplies a support s (one column, indexed by the nodes) by the symmetrically
  normalised adjacency N = D (I + A) D, where A is the adjacency matrix, I the identity and D the diagonal
  matrix of the numbers d i (in the application d i = 1 / sqrt (row sum i of I + A)). Two programs compute row i
  of N s in two ways:

    "form the matrix":        sum over j of (((I i j + A i j) * d i) * d j) * s j
    "never form the matrix":  d i * ((sum over j of A i j * (d j * s j)) + d i * s i)

  Over the real numbers the two are equal: the identity's term of the sum is the single term d i * d i * s i, and
  d i is a common factor of all the others. Over the extended reals [-oo, +oo] a product does not distribute over
  a sum at the infinities, so the statement asks for what is in fact there: every entry of A, every d i and every
  s j is (the coercion of) a real number. Then neither side leaves the reals and the extended-real identity is
  the coercion of the real one. The law is stated for any finite type of nodes with decidable equality; the
  numbers d i are arbitrary reals (their being reciprocal square roots of row sums plays no part).

  The file ends with the degree scale itself: rsqrt (1 + row sum of A) and 1 / sqrt (row sum of I + A) are the same
  positive real when the row is real and 1 + its sum is positive.
-/
import proofs.«154251_g79121887527625_cont_sun_m_466_24_alg».proof.Proof.LibFiniteSums

namespace Cert.NormAdj

open Idealize.ShloMosaic Cert.AttnLaw
open scoped BigOperators

/-- THE LAYER LAW OVER THE REALS: row i of (D (I + A) D) s, with the matrix formed entry by entry, is
    d i * ((A (D s)) i + d i * s i). -/
theorem layer_law_real {ι : Type*} [Fintype ι] [DecidableEq ι] (a : ι → ι → ℝ) (d s : ι → ℝ) (i : ι) :
    ∑ j, ((((if i = j then (1 : ℝ) else 0) + a i j) * d i) * d j) * s j
      = d i * ((∑ j, a i j * (d j * s j)) + d i * s i) := by
  have h1 : ∀ j, ((((if i = j then (1 : ℝ) else 0) + a i j) * d i) * d j) * s j
      = (if i = j then d i * (d j * s j) else 0) + d i * (a i j * (d j * s j)) := by
    intro j; split_ifs <;> ring
  rw [Finset.sum_congr rfl fun j _ => h1 j, Finset.sum_add_distrib, Finset.sum_ite_eq,
    if_pos (Finset.mem_univ i), ← Finset.mul_sum]
  ring

/-- The identity matrix's entry, over the extended reals, is the coercion of the real one. -/
theorem eye_coe {ι : Type*} [DecidableEq ι] (i j : ι) :
    (if i = j then (1 : EReal) else 0) = (((if i = j then (1 : ℝ) else 0) : ℝ) : EReal) := by
  split_ifs <;> simp

/-- The identity matrix's entry is a real. -/
theorem isReal_eye {ι : Type*} [DecidableEq ι] (i j : ι) : IsReal (if i = j then (1 : EReal) else 0) :=
  ⟨_, eye_coe i j⟩

/-- THE LAYER LAW OVER THE EXTENDED REALS, for an adjacency A, scales D and a support S all of whose entries
    are reals: the row of the formed matrix (((I + A) i j * D i) * D j) against S equals
    D i * ((sum over j of A i j * (D j * S j)) + D i * S i). -/
theorem layer_law {ι : Type*} [Fintype ι] [DecidableEq ι] (A : ι → ι → EReal) (D S : ι → EReal)
    (hA : ∀ i j, IsReal (A i j)) (hD : ∀ i, IsReal (D i)) (hS : ∀ i, IsReal (S i)) (i : ι) :
    ∑ j, ((((if i = j then (1 : EReal) else 0) + A i j) * D i) * D j) * S j
      = D i * ((∑ j, A i j * (D j * S j)) + D i * S i) := by
  choose a ha using hA
  choose d hd using hD
  choose s hs using hS
  have hL : ∑ j, ((((if i = j then (1 : EReal) else 0) + A i j) * D i) * D j) * S j
      = ((∑ j, ((((if i = j then (1 : ℝ) else 0) + a i j) * d i) * d j) * s j : ℝ) : EReal) :=
    sum_eq_coe Finset.univ _ _ fun j _ => by
      rw [eye_coe, ha, hd, hd, hs, ← EReal.coe_add, ← EReal.coe_mul, ← EReal.coe_mul, ← EReal.coe_mul]
  have hR : ∑ j, A i j * (D j * S j) = ((∑ j, a i j * (d j * s j) : ℝ) : EReal) :=
    sum_eq_coe Finset.univ _ _ fun j _ => by
      rw [ha, hd, hs, ← EReal.coe_mul, ← EReal.coe_mul]
  rw [hL, hR, hd, hs, ← EReal.coe_mul, ← EReal.coe_add, ← EReal.coe_mul, layer_law_real]

/-- Both sides of the layer law are reals. -/
theorem isReal_layer {ι : Type*} [Fintype ι] (A : ι → ι → EReal) (D S : ι → EReal)
    (hA : ∀ i j, IsReal (A i j)) (hD : ∀ i, IsReal (D i)) (hS : ∀ i, IsReal (S i)) (i : ι) :
    IsReal (D i * ((∑ j, A i j * (D j * S j)) + D i * S i)) :=
  (hD i).mul ((IsReal.sum Finset.univ _ fun j _ => (hA i j).mul ((hD j).mul (hS j))).add ((hD i).mul (hS i)))

/-! ## The degree scale

The scale d i is the reciprocal square root of row i's sum of I + A. One program adds the identity's one to the
row sum of A and takes the reciprocal square root in one operation; the other sums the row of the formed matrix
I + A, takes the square root and divides one by it. For a row of reals whose sum with one is positive the two
are the same positive real, (sqrt v)⁻¹ with v = 1 + the row sum of A. -/

/-- The reciprocal square root of a positive real. -/
theorem rsqrt_pos_coe (v : ℝ) (hv : 0 < v) : Ideal.rsqrt (v : EReal) = (((Real.sqrt v)⁻¹ : ℝ) : EReal) := by
  rw [Ideal.rsqrt_coe, if_neg (not_lt.mpr hv.le), if_neg hv.ne']

/-- One divided by the square root of a positive real. -/
theorem one_div_sqrt_pos_coe (v : ℝ) (hv : 0 < v) :
    Ideal.div 1 (Ideal.sqrt (v : EReal)) = (((Real.sqrt v)⁻¹ : ℝ) : EReal) := by
  have hs : Real.sqrt v ≠ 0 := (Real.sqrt_pos.mpr hv).ne'
  rw [Ideal.sqrt_coe, if_neg (not_lt.mpr hv.le), Ideal.div_coe hs, one_mul, one_div]

/-- One plus the sum of a row of reals is the coercion of the real number 1 + the real sum. -/
theorem one_add_row_coe {ι : Type*} [Fintype ι] (A : ι → EReal) (a : ι → ℝ) (hA : ∀ j, A j = (a j : EReal)) :
    1 + ∑ j, A j = ((1 + ∑ j, a j : ℝ) : EReal) := by
  rw [sum_eq_coe Finset.univ A a fun j _ => hA j, ← EReal.coe_one, ← EReal.coe_add]

/-- The sum of row i of the formed matrix I + A is the same real. -/
theorem row_eye_add_coe {ι : Type*} [Fintype ι] [DecidableEq ι] (A : ι → EReal) (a : ι → ℝ)
    (hA : ∀ j, A j = (a j : EReal)) (i : ι) :
    ∑ j, ((if i = j then (1 : EReal) else 0) + A j) = ((1 + ∑ j, a j : ℝ) : EReal) := by
  have h : ∑ j, ((if i = j then (1 : ℝ) else 0) + a j) = 1 + ∑ j, a j := by
    rw [Finset.sum_add_distrib, Finset.sum_ite_eq, if_pos (Finset.mem_univ i)]
  rw [← h]
  exact sum_eq_coe Finset.univ _ _ fun j _ => by rw [eye_coe, hA, ← EReal.coe_add]

/-- THE DEGREE SCALE: for a row A of reals with 1 + its sum positive, the reciprocal square root of
    1 + the row sum and one over the square root of the row sum of I + A are one and the same real. -/
theorem degree_scale {ι : Type*} [Fintype ι] [DecidableEq ι] (A : ι → EReal) (hA : ∀ j, IsReal (A j)) (i : ι)
    (hpos : (0 : EReal) < 1 + ∑ j, A j) :
    ∃ r : ℝ, Ideal.rsqrt (1 + ∑ j, A j) = (r : EReal)
      ∧ Ideal.div 1 (Ideal.sqrt (∑ j, ((if i = j then (1 : EReal) else 0) + A j))) = (r : EReal) := by
  choose a ha using hA
  have h1 := one_add_row_coe A a ha
  have h2 := row_eye_add_coe A a ha i
  have hv : 0 < 1 + ∑ j, a j := by rw [h1] at hpos; exact EReal.coe_pos.mp hpos
  exact ⟨(Real.sqrt (1 + ∑ j, a j))⁻¹, by rw [h1, rsqrt_pos_coe _ hv], by rw [h2, one_div_sqrt_pos_coe _ hv]⟩

end Cert.NormAdj
-- ==== Proof.AlgebraReals.lean ====
/-
  THE INTERMEDIATES ARE REALS, AND THE TWO DEGREE SCALES AGREE.

  With every input entry a real number and every row sum of I + adj positive, the scale d i is the same positive
  real in both programs, and every intermediate of the reference's formula is a real: a contraction of reals, a
  row of the normalised adjacency, the leaky rectifier of a real (it selects the real itself or the slope times
  it, and the slope 0.01 is a real).
-/
import proofs.«154251_g79121887527625_cont_sun_m_466_24_alg».proof.Proof.Spec
import proofs.«154251_g79121887527625_cont_sun_m_466_24_alg».proof.Proof.LibNormalisedAdjacency

namespace Cert.Gcn

open Idealize.ShloMosaic Idealize.ShloMosaic.ValueIdx Cert.AttnLaw Cert.NormAdj
open scoped BigOperators

/-! ## The inputs -/

section Inputs
variable {I : Inputs} (hF : I.Finite)
include hF

theorem isReal_x (j) : IsReal (I.x j) := hF.1 j
theorem isReal_adj (j) : IsReal (I.adj j) := hF.2.1 j
theorem isReal_sd (j) : IsReal (I.sd j) := hF.2.2.1 j
theorem isReal_w0 (j) : IsReal (I.w0 j) := hF.2.2.2.1 j
theorem isReal_b0 (j) : IsReal (I.b0 j) := hF.2.2.2.2.1 j
theorem isReal_w1 (j) : IsReal (I.w1 j) := hF.2.2.2.2.2.1 j
theorem isReal_b1 (j) : IsReal (I.b1 j) := hF.2.2.2.2.2.2.1 j
theorem isReal_wc (j) : IsReal (I.wc j) := hF.2.2.2.2.2.2.2.1 j
theorem isReal_bc (j) : IsReal (I.bc j) := hF.2.2.2.2.2.2.2.2 j

end Inputs

/-! ## The leaky rectifier -/

/-- The slope, the f32 pattern 0x3C23D70A, is the real 10737418 / 2 ^ 30 (about 0.01). -/
theorem slope_eq : slope = ((10737418 * (2 : ℝ) ^ (-30 : ℤ) : ℝ) : EReal) := by
  unfold slope
  simp [Ideal.ofBits, Ideal.ieee, -EReal.coe_mul]

theorem isReal_slope : IsReal slope := ⟨_, slope_eq⟩

/-- The leaky rectifier of a real is a real: the real itself, or the slope times it. -/
theorem isReal_leaky {z : EReal} (hz : IsReal z) : IsReal (leaky z) := by
  unfold leaky Scalar.select
  split_ifs
  · exact hz
  · exact isReal_slope.mul hz

/-! ## The degree scale -/

section Scale
variable {I : Inputs} (hF : I.Finite) (hP : I.PosRows)
include hF hP

/-- The two programs' scales are one real. -/
theorem d_spec (i : Fin 4096) : ∃ r : ℝ, Ker.d I i = (r : EReal) ∧ Ref.d I i = (r : EReal) :=
  degree_scale (fun j => I.adj (ix2 i j)) (fun _ => isReal_adj hF _) i (hP i)

theorem d_eq (i : Fin 4096) : Ker.d I i = Ref.d I i := by
  obtain ⟨r, h1, h2⟩ := d_spec hF hP i
  rw [h1, h2]

theorem isReal_d (i : Fin 4096) : IsReal (Ref.d I i) := by
  obtain ⟨r, _, h2⟩ := d_spec hF hP i
  exact ⟨r, h2⟩

/-! ## The reference's intermediates -/

theorem isReal_n (i j : Fin 4096) : IsReal (Ref.n I i j) :=
  (((isReal_eye i j).add (isReal_adj hF _)).mul (isReal_d hF hP i)).mul (isReal_d hF hP j)

theorem isReal_sup0 (i : Fin 4096) (c : Fin 512) : IsReal (Ref.sup0 I i c) :=
  IsReal.sum_mul _ _ _ (fun _ _ => isReal_x hF _) (fun _ _ => isReal_w0 hF _)

theorem isReal_h0 (i : Fin 4096) (c : Fin 512) : IsReal (Ref.h0 I i c) :=
  isReal_leaky ((IsReal.sum_mul _ _ _ (fun j _ => isReal_n hF hP i j) (fun j _ => isReal_sup0 hF hP j c)).add
    (isReal_b0 hF _))

theorem isReal_sup1 (i : Fin 4096) (c : Fin 256) : IsReal (Ref.sup1 I i c) :=
  IsReal.sum_mul _ _ _ (fun k _ => isReal_h0 hF hP i k) (fun _ _ => isReal_w1 hF _)

end Scale

end Cert.Gcn
-- ==== Proof.AlgebraLayers.lean ====
/-
  THE TWO LAYERS AGREE.

  Each graph-convolution layer is the normalised-adjacency layer law applied to one column of a support: the
  reference multiplies the formed matrix N i j = ((eye i j + adj i j) * d i) * d j by the support, the kernel
  scales the support by d, multiplies by adj, adds the scaled support's own row and scales by d again. The scales
  agree and everything in sight is a real, so the law applies. The first layer's outputs being equal entry by
  entry, the second layer's supports are equal, and the law applies once more.
-/
import proofs.«154251_g79121887527625_cont_sun_m_466_24_alg».proof.Proof.AlgebraReals

namespace Cert.Gcn

open Idealize.ShloMosaic Idealize.ShloMosaic.ValueIdx Cert.AttnLaw Cert.NormAdj
open scoped BigOperators

variable {I : Inputs} (hF : I.Finite) (hP : I.PosRows)
include hF hP

/-- One layer: the kernel's row, written with the reference's scale and an arbitrary real support, is the
    reference's row of the formed matrix against that support. -/
theorem layer_eq (S : Fin 4096 → EReal) (hS : ∀ j, IsReal (S j)) (i : Fin 4096) :
    Ref.d I i * ((∑ j : Fin 4096, I.adj (ix2 i j) * (Ref.d I j * S j)) + Ref.d I i * S i)
      = ∑ j : Fin 4096, Ref.n I i j * S j :=
  (layer_law (fun i j => I.adj (ix2 i j)) (Ref.d I) S (fun _ _ => isReal_adj hF _) (isReal_d hF hP) hS i).symm

/-- The kernel's first scaled support is the reference's support times the scale. -/
theorem s0_eq (i : Fin 4096) (c : Fin 512) : Ker.s0 I i c = Ref.d I i * Ref.sup0 I i c := by
  unfold Ker.s0 Ref.sup0
  rw [d_eq hF hP i]

/-- The first layer. -/
theorem h0_eq (i : Fin 4096) (c : Fin 512) : Ker.h0 I i c = Ref.h0 I i c := by
  unfold Ker.h0 Ref.h0
  simp only [s0_eq hF hP]
  rw [d_eq hF hP i, layer_eq hF hP (fun j => Ref.sup0 I j c) (fun j => isReal_sup0 hF hP j c) i]

/-- The kernel's second scaled support is the reference's support times the scale. -/
theorem s1_eq (i : Fin 4096) (c : Fin 256) : Ker.s1 I i c = Ref.d I i * Ref.sup1 I i c := by
  unfold Ker.s1 Ref.sup1
  rw [d_eq hF hP i]
  exact congrArg _ (Finset.sum_congr rfl fun k _ => by rw [h0_eq hF hP i k])

/-- The second layer: the hidden features agree entry by entry. -/
theorem h_eq (i : Fin 4096) (c : Fin 256) : Ker.h I i c = Ref.h I i c := by
  unfold Ker.h Ref.h
  simp only [s1_eq hF hP]
  rw [d_eq hF hP i, layer_eq hF hP (fun j => Ref.sup1 I j c) (fun j => isReal_sup1 hF hP j c) i]

end Cert.Gcn
-- ==== Proof.AlgebraLogits.lean ====
/-
  THE CLASSIFIER AND THE SOFT-MAX AGREE.

  The reference multiplies the concatenation [h, sd] (288 columns) by wc; the kernel multiplies h by the first 256
  rows of wc and sd by the last 32 and adds the two. A sum over 288 = 256 + 32 positions is the sum over the first
  256 plus the sum over the last 32 (addition on the extended reals is associative and commutative: nothing here
  needs finiteness), the concatenation reads h at the first and sd at the last, and the hidden features agree.
  The soft-max is one and the same function of the row of logits on both sides.
-/
import proofs.«154251_g79121887527625_cont_sun_m_466_24_alg».proof.Proof.AlgebraLayers

namespace Cert.Gcn

open Idealize.ShloMosaic Idealize.ShloMosaic.ValueIdx Cert.AttnLaw Cert.NormAdj
open scoped BigOperators

/-- The concatenation at one of its first 256 positions is the hidden feature. -/
theorem cat_lo (I : Inputs) (i : Fin 4096) (k : Fin 256) : Ref.cat I i (lo k) = Ref.h I i k := by
  unfold Ref.cat
  rw [dif_pos (show (lo k).val < 256 from k.isLt)]
  rfl

/-- The concatenation at one of its last 32 positions is the side feature. -/
theorem cat_hi (I : Inputs) (i : Fin 4096) (k : Fin 32) : Ref.cat I i (hi k) = I.sd (ix2 i k) := by
  unfold Ref.cat
  rw [dif_neg (show ¬ (hi k).val < 256 from by simp [hi])]
  congr 2
  exact Fin.ext (by simp [hi])

/-- A sum over the 288 rows of wc is the sum over the first 256 plus the sum over the last 32. -/
theorem sum_288 (f : Fin 288 → EReal) : ∑ k : Fin 288, f k = ∑ k : Fin 256, f (lo k) + ∑ k : Fin 32, f (hi k) :=
  Fin.sum_univ_add (a := 256) (b := 32) f

variable {I : Inputs} (hF : I.Finite) (hP : I.PosRows)
include hF hP

/-- The logits agree. -/
theorem logits_eq (i : Fin 4096) (c : Fin 16) : Ker.logits I i c = Ref.logits I i c := by
  unfold Ker.logits Ref.logits
  rw [sum_288]
  simp only [cat_lo, cat_hi, h_eq hF hP]

/-- The class probabilities agree entry by entry. -/
theorem y_eq (i : Fin 4096) (c : Fin 16) : Ker.y I i c = Ref.y I i c := by
  unfold Ker.y Ref.y
  rw [show Ker.logits I i = Ref.logits I i from funext (logits_eq hF hP i)]

end Cert.Gcn
-- ==== Proof.Inv.lean ====
/-
  What the four scratch buffers hold before grid point `n`.

  The adjacency copy and the degree column are filled 256 rows per point over points 0 … 15; the scaled first-layer
  support 1024 rows per point over points 16 … 19; the scaled second-layer support 1024 rows per point over points
  20 … 23. Before point `n` the rows filled so far hold the specification's values; nothing is said of the others.
-/
import proofs.«154251_g79121887527625_cont_sun_m_466_24_alg».proof.Proof.Spec

noncomputable section

namespace Cert.Gcn

open Idealize.ShloMosaic Idealize.ShloMosaic.ValueIdx

/-- The scratch invariant before point `n`: `adjb` the adjacency copy, `s0b` and `s1b` the scaled supports, `db` the
    degree column. -/
def Inv (I : Inputs) (n : ℕ) (adjb : (⟨2, ![4096, 4096]⟩ : Shape).Idx → EReal) (s0b : (⟨2, ![4096, 512]⟩ : Shape).Idx → EReal)
    (s1b : (⟨2, ![4096, 256]⟩ : Shape).Idx → EReal) (db : (⟨2, ![4096, 1]⟩ : Shape).Idx → EReal) : Prop :=
  (∀ r : Fin 4096, r.val < 256 * n → (∀ j : Fin 4096, adjb (ix2 r j) = I.adj (ix2 r j)) ∧ db (ix2 r (0 : Fin 1)) = Ker.d I r)
  ∧ (∀ r : Fin 4096, r.val + 16384 < 1024 * n → ∀ q : Fin 512, s0b (ix2 r q) = Ker.s0 I r q)
  ∧ (∀ r : Fin 4096, r.val + 20480 < 1024 * n → ∀ q : Fin 256, s1b (ix2 r q) = Ker.s1 I r q)

/-- Before the first point nothing is claimed. -/
theorem inv_zero (I : Inputs) (adjb s0b s1b db) : Inv I 0 adjb s0b s1b db :=
  ⟨fun r h => absurd h (by omega), fun r h => absurd h (by omega), fun r h => absurd h (by omega)⟩

end Cert.Gcn

end
-- ==== Proof.Rows.lean ====
/-
  Row bands of a two-axis array.

  `Band b w o`: `w` is the rows `[o, o + (rows of w))` of `b`, read row by row. `RowsOf b b' o w`: `b'` is `b` with those
  rows replaced by `w`. One store of whole rows over old contents reads back as `RowsOf`; one load of whole rows reads
  as `Band`.
-/
import Idealize.ShloMosaic.Lib.WritesUnit
import Idealize.ShloMosaic.Lib.Pipeline.FrameBody

namespace Cert.Rows

open Idealize.ShloMosaic

/-- `w` is the band of rows of `b` starting at row `o`. -/
def Band {d dw : Fin 2 → ℕ} {α : Type} (b : (⟨2, d⟩ : Shape).Idx → α) (w : (⟨2, dw⟩ : Shape).Idx → α) (o : ℕ) : Prop :=
  ∀ (y : (⟨2, d⟩ : Shape).Idx) (x : (⟨2, dw⟩ : Shape).Idx), (y 0).val = o + (x 0).val → (y 1).val = (x 1).val → w x = b y

/-- `b'` is `b` with the band of rows starting at `o` replaced by `w`. -/
def RowsOf {d dw : Fin 2 → ℕ} {α : Type} (b b' : (⟨2, d⟩ : Shape).Idx → α) (o : ℕ) (w : (⟨2, dw⟩ : Shape).Idx → α) : Prop :=
  (∀ (y : (⟨2, d⟩ : Shape).Idx) (x : (⟨2, dw⟩ : Shape).Idx), (y 0).val = o + (x 0).val → (y 1).val = (x 1).val → b' y = w x)
  ∧ (∀ y : (⟨2, d⟩ : Shape).Idx, ((y 0).val < o ∨ o + dw 0 ≤ (y 0).val) → b' y = b y)

/-- One store of whole rows `[o, o + size 0)` over contents `f`, read back. -/
theorem rowsOf_writes {sig : RefSig} {κ : Kind} {sp : Space} {d : Fin 2 → ℕ} {e : EltTy} {Val : EltTy → Type}
    (v : View sig κ sp (⟨2, d⟩ : Shape) e) (f : v.ty.Contents Val) {off size : Fin 2 → ℕ} {o : ℕ}
    (inb : ∀ a : Fin 2, off a + size a ≤ d a) (w : (Rect.unit (s := ⟨2, d⟩) off size inb).shape.Idx → Val e)
    (hoff : off = ![o, 0]) :
    RowsOf (d := d) (dw := size) (v.read Val f) (v.read Val (v.writes Val f [(⟨Rect.unit (s := ⟨2, d⟩) off size inb, w⟩ : View.Piece Val (⟨2, d⟩ : Shape) e)])) o w :=
  ⟨fun y x h0 h1 => View.read_writes_cons_rows_of_mem v f inb w [] y x hoff h0 h1,
   fun y h => (View.read_writes_cons_rows_of_not_mem v f inb w [] y hoff rfl h).trans (by rw [View.writes_nil])⟩

/-- One load of whole rows `[o, o + size 0)`. -/
theorem band_ld {d : Fin 2 → ℕ} {α : Type} (b : (⟨2, d⟩ : Shape).Idx → α) {off size : Fin 2 → ℕ} {o : ℕ}
    (inb : ∀ a : Fin 2, off a + size a ≤ d a) (hoff : off = ![o, 0]) :
    Band (d := d) (dw := size) b (fun x => b ((Rect.unit (s := ⟨2, d⟩) off size inb).idx x)) o := by
  subst hoff
  intro y x h0 h1
  refine congrArg b (funext fun a => Fin.ext ?_)
  match a with
  | ⟨0, _⟩ => show o + 1 * (x 0).val = (y 0).val; omega
  | ⟨1, _⟩ => show 0 + 1 * (x 1).val = (y 1).val; omega

end Cert.Rows
-- ==== Proof.KernelIdealTrack.lean ====
/-
  THE PROOF DATA OF THE VALUE RUN OF THE IDEALIZED KERNEL.

  The pipeline has 28 grid points. At point t the two output windows' block is block max (t - 24, 0) of the hidden
  features and of the class probabilities; the body stores into them only from point 24 on, and there it stores
  the whole block: rows 1024 (t - 24) … of the specification's h and y. Before point 24 the output buffers are
  handed back as they were found. What the body carries from point to point is in the four scratch buffers:
  before point n they satisfy the scratch invariant at n (the rows filled so far hold the specification's
  values). Each input window's buffer holds, before and after the body, that point's block of its array.
-/
import proofs.«154251_g79121887527625_cont_sun_m_466_24_alg».proof.Proof.KernelIdealFrame
import proofs.«154251_g79121887527625_cont_sun_m_466_24_alg».proof.Proof.Inv
import proofs.«154251_g79121887527625_cont_sun_m_466_24_alg».proof.Proof.Rows
import proofs.«154251_g79121887527625_cont_sun_m_466_24_alg».proof.Proof.KernelInputs

set_option maxRecDepth 16384

noncomputable section

namespace Cert.KernelIdeal.Track

open Cert.KernelIdeal Cert.KernelIdeal.Gen Cert.KernelIdeal.Val Cert.Gcn Cert.Rows
open Cert.KernelIdeal.Body (scM0 scM1 scM2 scM3 PhiA_eq)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of hidden features the body leaves in the first output window at point t (t ≥ 24). -/
def outH (c : Dev nD) (t : Fin cfg0.N) : Vec Ideal S1024x256 .f32 :=
  fun y => Ker.h (inp m c) (row (1024 * (t.val - 24) + (y 0).val)) (y 1)

/-- The block of class probabilities the body leaves in the second output window at point t (t ≥ 24). -/
def outY (c : Dev nD) (t : Fin cfg0.N) : Vec Ideal S1024x16 .f32 :=
  fun y => Ker.y (inp m c) (row (1024 * (t.val - 24) + (y 0).val)) (y 1)

/-- The invariant before point n: the four scratch buffers at contents satisfying the scratch invariant at n,
    and the generator register at some state. -/
def Phi (c : Dev nD) (n : ℕ) : sProp 𝕄 :=
  iprop(iprop(∃ adjb s0b s1b db, ⌜Inv (inp m c) n adjb s0b s1b db⌝ ∗ owns (c : Thread nD τ) scM0 fullShare adjb
      ∗ owns (c : Thread nD τ) scM1 fullShare s0b ∗ owns (c : Thread nD τ) scM2 fullShare s1b ∗ owns (c : Thread nD τ) scM3 fullShare db)
    ∗ (∃ r, prngReg c r))

/-- The proof data on core c. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outH m c t
    | ⟨11, _⟩ => outY m c t
  Φ n := Phi m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outH m c t := by dsimp only [dats]
theorem after_11 (c : Dev nD) (t : Fin cfg0.N) : (dats m 0 c).after 11 t = outY m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem Phi_castSucc (c : Dev nD) (t : Fin cfg0.N) : (dats m 0 c).Φ t.castSucc = Phi m c t.val := by
  dsimp only [dats]; simp only [Fin.coe_castSucc]

theorem Phi_succ (c : Dev nD) (t : Fin cfg0.N) : (dats m 0 c).Φ t.succ = Phi m c (t.val + 1) := by
  dsimp only [dats]; simp only [Fin.val_succ]

/-! ## The grid: which pass runs where, and when the output windows are live -/

/-- The grid coordinate of point t is t. -/
theorem coords_val : ∀ t : Fin cfg0.N, ((grid0.coords t) 0).val = t.val :=
  (by decide +kernel : ∀ t : Fin grid0.N, ((grid0.coords t) 0).val = t.val)

/-- The four passes' conditions over the grid: points 0 … 15, 16 … 19, 20 … 23, 24 … 27. -/
theorem cond1_iff : ∀ t : Fin cfg0.N, k0_cond1 (grid0.coords t) = 1#1 ↔ t.val < 16 :=
  (by decide +kernel : ∀ t : Fin grid0.N, k0_cond1 (grid0.coords t) = 1#1 ↔ t.val < 16)
theorem cond2_iff : ∀ t : Fin cfg0.N, k0_cond2 (grid0.coords t) = 1#1 ↔ (16 ≤ t.val ∧ t.val < 20) :=
  (by decide +kernel : ∀ t : Fin grid0.N, k0_cond2 (grid0.coords t) = 1#1 ↔ (16 ≤ t.val ∧ t.val < 20))
theorem cond3_iff : ∀ t : Fin cfg0.N, k0_cond3 (grid0.coords t) = 1#1 ↔ (20 ≤ t.val ∧ t.val < 24) :=
  (by decide +kernel : ∀ t : Fin grid0.N, k0_cond3 (grid0.coords t) = 1#1 ↔ (20 ≤ t.val ∧ t.val < 24))
theorem cond4_iff : ∀ t : Fin cfg0.N, k0_cond4 (grid0.coords t) = 1#1 ↔ 24 ≤ t.val :=
  (by decide +kernel : ∀ t : Fin grid0.N, k0_cond4 (grid0.coords t) = 1#1 ↔ 24 ≤ t.val)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
/-- Before point 24 the two output windows are idle and are not written back; from point 24 on they are live. -/
theorem idle_10 : ∀ t : Fin cfg0.N, t.val < 24 → cfg0.idle 10 (grid0.coords t) = true := by decide +kernel
theorem idle_11 : ∀ t : Fin cfg0.N, t.val < 24 → cfg0.idle 11 (grid0.coords t) = true := by decide +kernel
theorem noFlush_10 : ∀ t : Fin cfg0.N, t.val < 24 → (cfg0.win 10).flush t = false := by decide +kernel
theorem noFlush_11 : ∀ t : Fin cfg0.N, t.val < 24 → (cfg0.win 11).flush t = false := by decide +kernel
theorem live_10 : ∀ t : Fin cfg0.N, 24 ≤ t.val → cfg0.idle 10 (grid0.coords t) = false := by decide +kernel
theorem live_11 : ∀ t : Fin cfg0.N, 24 ≤ t.val → cfg0.idle 11 (grid0.coords t) = false := by decide +kernel
theorem flush_10 : ∀ t : Fin cfg0.N, (cfg0.win 10).flush t = true ↔ 24 ≤ t.val := by decide +kernel
theorem flush_11 : ∀ t : Fin cfg0.N, (cfg0.win 11).flush t = true ↔ 24 ≤ t.val := by decide +kernel

theorem lt_28 (t : Fin cfg0.N) : t.val < 28 := t.isLt

/-! ## The body obligation's two sides at a point -/

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The two sides with the inputs' buffers at their blocks, the invariant at the point's number, and an input's
    buffer handed back at its block. -/
theorem bodyPre_eq (c : Dev nD) (t : Fin cfg0.N) : bodyPre m c t =
    iprop(Phi m c t.val ∗ (dats m 0 c).owesAt () t.castSucc
      ∗ (∃ d : (cfg0.win 0).block.Idx → Elt Ideal (cfg0.win 0).elt, owns (c : Thread nD τ) (st0_0 t) fullShare (iblk m c 0 t))
      ∗ (∃ d : (cfg0.win 1).block.Idx → Elt Ideal (cfg0.win 1).elt, owns (c : Thread nD τ) (st0_1 t) fullShare (iblk m c 1 t))
      ∗ (∃ d : (cfg0.win 2).block.Idx → Elt Ideal (cfg0.win 2).elt, owns (c : Thread nD τ) (st0_2 t) fullShare (iblk m c 2 t))
      ∗ (∃ d : (cfg0.win 3).block.Idx → Elt Ideal (cfg0.win 3).elt, owns (c : Thread nD τ) (st0_3 t) fullShare (iblk m c 3 t))
      ∗ (∃ d : (cfg0.win 4).block.Idx → Elt Ideal (cfg0.win 4).elt, owns (c : Thread nD τ) (st0_4 t) fullShare (iblk m c 4 t))
      ∗ (∃ d : (cfg0.win 5).block.Idx → Elt Ideal (cfg0.win 5).elt, owns (c : Thread nD τ) (st0_5 t) fullShare (iblk m c 5 t))
      ∗ (∃ d : (cfg0.win 6).block.Idx → Elt Ideal (cfg0.win 6).elt, owns (c : Thread nD τ) (st0_6 t) fullShare (iblk m c 6 t))
      ∗ (∃ d : (cfg0.win 7).block.Idx → Elt Ideal (cfg0.win 7).elt, owns (c : Thread nD τ) (st0_7 t) fullShare (iblk m c 7 t))
      ∗ (∃ d : (cfg0.win 8).block.Idx → Elt Ideal (cfg0.win 8).elt, owns (c : Thread nD τ) (st0_8 t) fullShare (iblk m c 8 t))
      ∗ (∃ d : (cfg0.win 9).block.Idx → Elt Ideal (cfg0.win 9).elt, owns (c : Thread nD τ) (st0_9 t) fullShare (iblk m c 9 t))
      ∗ (∃ d, owns (c : Thread nD τ) (st0_10 t) fullShare ((dats m 0 c).before 10 t d))
      ∗ (∃ d, owns (c : Thread nD τ) (st0_11 t) fullShare ((dats m 0 c).before 11 t d))) := by
  unfold bodyPre
  simp only [before_0, before_1, before_2, before_3, before_4, before_5, before_6, before_7, before_8, before_9, Phi_castSucc]

theorem leaves_in (c : Dev nD) (t : Fin cfg0.N) :
    (dats m 0 c).leavesExact 0 t = owns (c : Thread nD τ) (st0_0 t) fullShare (iblk m c 0 t) ∧
    (dats m 0 c).leavesExact 1 t = owns (c : Thread nD τ) (st0_1 t) fullShare (iblk m c 1 t) ∧
    (dats m 0 c).leavesExact 2 t = owns (c : Thread nD τ) (st0_2 t) fullShare (iblk m c 2 t) ∧
    (dats m 0 c).leavesExact 3 t = owns (c : Thread nD τ) (st0_3 t) fullShare (iblk m c 3 t) ∧
    (dats m 0 c).leavesExact 4 t = owns (c : Thread nD τ) (st0_4 t) fullShare (iblk m c 4 t) ∧
    (dats m 0 c).leavesExact 5 t = owns (c : Thread nD τ) (st0_5 t) fullShare (iblk m c 5 t) ∧
    (dats m 0 c).leavesExact 6 t = owns (c : Thread nD τ) (st0_6 t) fullShare (iblk m c 6 t) ∧
    (dats m 0 c).leavesExact 7 t = owns (c : Thread nD τ) (st0_7 t) fullShare (iblk m c 7 t) ∧
    (dats m 0 c).leavesExact 8 t = owns (c : Thread nD τ) (st0_8 t) fullShare (iblk m c 8 t) ∧
    (dats m 0 c).leavesExact 9 t = owns (c : Thread nD τ) (st0_9 t) fullShare (iblk m c 9 t) := by
  refine ⟨?_, ?_, ?_, ?_, ?_, ?_, ?_, ?_, ?_, ?_⟩
  · unfold Dat.leavesExact; rw [live_0 t, after_0]
  · unfold Dat.leavesExact; rw [live_1 t, after_1]
  · unfold Dat.leavesExact; rw [live_2 t, after_2]
  · unfold Dat.leavesExact; rw [live_3 t, after_3]
  · unfold Dat.leavesExact; rw [live_4 t, after_4]
  · unfold Dat.leavesExact; rw [live_5 t, after_5]
  · unfold Dat.leavesExact; rw [live_6 t, after_6]
  · unfold Dat.leavesExact; rw [live_7 t, after_7]
  · unfold Dat.leavesExact; rw [live_8 t, after_8]
  · unfold Dat.leavesExact; rw [live_9 t, after_9]

end Cert.KernelIdeal.Track

end
-- ==== Proof.PhaseA.lean ====
/-
  THE DEGREE PASS OF THE BODY, RUN AT A SYMBOLIC GRID POINT.
-/
import proofs.«154251_g79121887527625_cont_sun_m_466_24_alg».proof.Proof.Gen.KernelIdeal.Skeleton
import proofs.«154251_g79121887527625_cont_sun_m_466_24_alg».proof.Proof.Gen.KernelIdeal.Launch
import proofs.«154251_g79121887527625_cont_sun_m_466_24_alg».proof.Proof.Rows
import Idealize.ShloMosaic.Lib.Pipeline.FrameBody
import Idealize.ShloMosaic.Lib.Pipeline.Value
import Idealize.ShloMosaic.Lib.WritesUnit
import Idealize.ShloMosaic.Lib.Tactic

set_option maxRecDepth 16384

noncomputable section

namespace Cert.KernelIdeal.Phase

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3200000 in
/-- The degree pass (grid points 0 … 15): one block of 256 rows of the adjacency comes in; its rows go, unchanged in value, into rows 256 i … of the resident copy, and the reciprocal square root of one plus each row's sum into the same rows of the degree column. -/
theorem phaseA (c : Dev nD) (i : grid0.Coords) (arg1 : Memref sig .tc .vmem S256x4096 .f32) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x32 .f32) (harg7 : arg7.IsWhole) (arg8 : Memref sig .tc .vmem S256x16 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S4096x4096 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4096x1 .f32) (harg16 : arg16.IsWhole)
    (hc1 : k0_cond1 i = 1#1) (hc2 : ¬k0_cond2 i = 1#1) (hc3 : ¬k0_cond3 i = 1#1) (hc4 : ¬k0_cond4 i = 1#1)
    (x1 : Vec F S256x4096 .f32) (b13 : Vec F S4096x4096 .bf16) (b16 : Vec F S4096x1 .f32) :
    ∀ (E : Set ℕ) (K : PUnit → sProp 𝕄),
      iprop(owns (c : Thread nD τ) arg1 fullShare x1 ∗ owns (c : Thread nD τ) arg13 fullShare b13 ∗ owns (c : Thread nD τ) arg16 fullShare b16
          ∗ (iprop(owns (c : Thread nD τ) arg1 fullShare x1
              ∗ (∃ b13', owns (c : Thread nD τ) arg13 fullShare b13' ∗ ⌜RowsOf (d := ![4096, 4096]) (dw := ![256, 4096]) b13 b13' (256 * (i 0).val) (k0_pay1 x1)⌝)
              ∗ (∃ b16', owns (c : Thread nD τ) arg16 fullShare b16' ∗ ⌜RowsOf (d := ![4096, 1]) (dw := ![256, 1]) b16 b16' (256 * (i 0).val) (k0_pay2 x1)⌝)) -∗ K ⟨⟩))
        ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  unfold owns
  iintro ⟨⟨%g1, %hg1, R1⟩, ⟨%f13, %hf13, W13⟩, ⟨%f16, %hf16, W16⟩, Hk⟩
  obtain rfl := harg1.eq_unread hg1
  subst hf13
  subst hf16
  sl_exec (disch := first | exact hc1 | exact hc2 | exact hc3 | exact hc4)
  sl_step
  -- the whole-block load of the incoming rows reads the rows themselves
  have hld1 : View.readAt (Elt F) arg1.view (Rect.unit ![0, 0] S256x4096.size inb_S256x4096_S256x4096_0_0).toLoadRect (harg1.unread x1) = x1 := by
    rw [View.readAt_eq_ld, harg1.read_unread]; exact View.ld_unit_zero (S := S256x4096) (funext fun a => by fin_cases a <;> rfl) _ _
  iapply Hk
  isplitl [R1]
  · iexists (harg1.unread x1); isplitr
    · ipureintro; exact harg1.read_unread _
    iexact R1
  isplitl [W13]
  · iexists _; isplitl [W13]
    · iexists _; isplitr; swap
      · iexact W13
      ipureintro; rfl
    ipureintro
    -- one store of 256 whole rows at row 256 i over the old contents
    have h := rowsOf_writes arg13.view f13 (k0_off1_inb i hc1) (k0_pay1 (View.readAt (Elt F) arg1.view (Rect.unit ![0, 0] S256x4096.size inb_S256x4096_S256x4096_0_0).toLoadRect (harg1.unread x1))) (k0_off1_eq i)
    have e : k0_pay1 (View.readAt (Elt F) arg1.view (Rect.unit ![0, 0] S256x4096.size inb_S256x4096_S256x4096_0_0).toLoadRect (harg1.unread x1)) = k0_pay1 x1 := congrArg k0_pay1 hld1
    exact ⟨fun y x h0 h1 => (h.1 y x h0 h1).trans (congrFun e x), h.2⟩
  iexists _; isplitl [W16]
  · iexists _; isplitr; swap
    · iexact W16
    ipureintro; rfl
  ipureintro
  have h := rowsOf_writes arg16.view f16 (k0_off2_inb i hc1) (k0_pay2 (View.readAt (Elt F) arg1.view (Rect.unit ![0, 0] S256x4096.size inb_S256x4096_S256x4096_0_0).toLoadRect (harg1.unread x1))) (k0_off2_eq i)
  have e : k0_pay2 (View.readAt (Elt F) arg1.view (Rect.unit ![0, 0] S256x4096.size inb_S256x4096_S256x4096_0_0).toLoadRect (harg1.unread x1)) = k0_pay2 x1 := congrArg k0_pay2 hld1
  exact ⟨fun y x h0 h1 => (h.1 y x h0 h1).trans (congrFun e x), h.2⟩

end Cert.KernelIdeal.Phase

end
-- ==== Proof.LibColumn.lean ====
/-
  Layout and reduction operations of a row sum that keeps its axis, read at an index given by coordinates, at any
  extents: a vector cast to a column, a column broadcast over the lanes, a one-element array broadcast everywhere,
  and the float sum along the lanes of a matrix and down a column, each as a sum over a literal Fin range.
-/
import Idealize.ShloMosaic.Lib.ValueIdx
import Idealize.ShloMosaic.Lib.ValueLayout
import Idealize.ShloMosaic.Lib.Pipeline.Value
import Idealize.ShloMosaic.PureOps.Ideal.Laws

open scoped BigOperators

namespace Cert.Proof.Column

open Idealize.ShloMosaic Idealize.ShloMosaic.ValueIdx

variable {α : Type}

/-- An [a] array cast to the column [a, 1] reads, at (i, u), the operand at i, whatever the unit coordinate u:
    both positions in row-major order are i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, j), the column's entry of row i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A [1, 1] array broadcast to [a, b] reads its one element everywhere. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

variable {φ : FTy}

/-- The float sum along the lanes (axis 1) of an [a, b] matrix reads, at row i, the sum of that row's entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun c => ?_)
  match c with
  | ⟨0, _⟩ => rfl
  | ⟨1, _⟩ => rfl

/-- The float sum down an [a, 1] column (axis 0) reads, at its one index, the sum of the column's entries. -/
theorem colSum_apply {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction (F := Ideal) .add [0] ⟨1, ![1]⟩ src acc h hφ hacc (ix1 u) = ∑ k : Fin a, src (ix2 k (0 : Fin 1)) := by
  refine (Ideal.multiReduction_add_single src acc h hφ hacc (ix1 u)).trans ?_
  refine Finset.sum_congr rfl fun k _ => congrArg src (funext fun c => ?_)
  match c with
  | ⟨0, _⟩ => rfl
  | ⟨1, _⟩ => exact Fin.ext (by show u.val = 0; omega)

end Cert.Proof.Column
-- ==== Proof.PayloadA.lean ====
/-
  The kernel body's degree pass and its soft-max division, read at one entry.

  The degree pass stores the adjacency block unchanged (a format change is the identity on the extended reals, and
  a cast of a shape to itself moves nothing), and beside it the column d = rsqrt (1 + row sum): the lane sum of the
  block, kept as a column, with the constant one added in front. The last store of the classifier divides each entry
  of a row of sixteen by the row's sum, the sum carried back to the row through a column and a broadcast.
-/
import proofs.«154251_g79121887527625_cont_sun_m_466_24_alg».proof.Proof.Gen.KernelIdeal.Skeleton
import proofs.«154251_g79121887527625_cont_sun_m_466_24_alg».proof.Proof.Spec
import proofs.«154251_g79121887527625_cont_sun_m_466_24_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Gcn
open scoped BigOperators
open Cert.Proof.Column

/-- The f32 word 0x3F800000 is one. -/
theorem ofBits_one_f32 : Ideal.ofBits .f32 0x3F800000#32 = (1 : EReal) := by
  simp [Ideal.ofBits, Ideal.ieee, -EReal.coe_mul]; norm_num

/-- The adjacency block is stored as it was loaded. -/
theorem pay1_apply (a : Vec Ideal S256x4096 .f32) (p : Fin 256) (q : Fin 4096) :
    k0_pay1 (F := Ideal) a (ix2 p q) = a (ix2 p q) := by
  dsimp only [Gen.k0_pay1]
  rw [shapeCast_self]
  rfl

/-- The degree column at row p: rsqrt of one plus the row's sum. -/
theorem pay2_apply (a : Vec Ideal S256x4096 .f32) (p : Fin 256) :
    k0_pay2 (F := Ideal) a (ix2 p (0 : Fin 1)) = Ideal.rsqrt (1 + ∑ j : Fin 4096, a (ix2 p j)) := by
  dsimp only [Gen.k0_pay2]
  rw [shapeCast_self]
  show Ideal.rsqrt (Ideal.ofBits .f32 0x3F800000#32 + shapeCast S256x1 _ shapeCasts_S256_S256x1 (ix2 p (0 : Fin 1))) = _
  rw [ofBits_one_f32, shapeCast_a_a1_apply]
  refine congrArg (fun z => Ideal.rsqrt (1 + z)) ?_
  exact laneSum_apply (φ := .f32) a 0x00000000#32 reduces_S256x4096_S256 (.inl rfl) rfl p

/-- The soft-max division at (p, q): the entry over its row's sum. -/
theorem pay5_apply (e : FVec Ideal S1024x16 .f32) (p : Fin 1024) (q : Fin 16) :
    k0_pay5 (F := Ideal) e (ix2 p q) = Ideal.div (e (ix2 p q)) (∑ c : Fin 16, e (ix2 p c)) := by
  dsimp only [Gen.k0_pay5]
  rw [divf_apply, broadcastTo_a1_ab_apply, shapeCast_a_a1_apply]
  refine congrArg (Ideal.div (e (ix2 p q))) ?_
  exact laneSum_apply (φ := .f32) e 0x00000000#32 reduces_S1024x16_S1024 (.inl rfl) rfl p

end Cert.KernelIdeal.Pay

end
-- ==== Proof.InvStepA.lean ====
/-
  THE DEGREE PASS KEEPS THE INVARIANT.

  At a point n of the first sixteen the body loads rows [256 n, 256 n + 256) of the adjacency, stores them unchanged
  into the adjacency copy and stores beside them, into the degree column, the reciprocal square root of one plus
  each row's sum. So after the point the rows below 256 (n + 1) of the copy are the adjacency's and the degree
  column holds the specification's scale d there: the rows below 256 n were not touched, and on the new rows the
  stored values are the loaded rows and rsqrt (1 + row sum), which is d by definition. The two support buffers
  are not claimed yet (no row of them is below their thresholds before point sixteen).
-/
import proofs.«154251_g79121887527625_cont_sun_m_466_24_alg».proof.Proof.Rows
import proofs.«154251_g79121887527625_cont_sun_m_466_24_alg».proof.Proof.Inv
import proofs.«154251_g79121887527625_cont_sun_m_466_24_alg».proof.Proof.KernelInputs
import proofs.«154251_g79121887527625_cont_sun_m_466_24_alg».proof.Proof.PayloadA

noncomputable section

namespace Cert.Gcn

open Cert.Rows Cert.KernelIdeal Cert.KernelIdeal.Gen Cert.KernelIdeal.Val Cert.KernelIdeal.Pay
open Idealize.ShloMosaic Idealize.ShloMosaic.ValueIdx
open scoped BigOperators

/-- A point of the degree pass. -/
theorem stepA (I : Inputs) (n : ℕ) (hn : n < 16) (x1 : Vec Ideal S256x4096 .f32)
    (hx1 : ∀ (p : Fin 256) (j : Fin 4096), x1 (ix2 p j) = I.adj (ix2 (row (256 * n + p.val)) j))
    {adjb adjb' : (⟨2, ![4096, 4096]⟩ : Shape).Idx → EReal} {s0b : (⟨2, ![4096, 512]⟩ : Shape).Idx → EReal}
    {s1b : (⟨2, ![4096, 256]⟩ : Shape).Idx → EReal} {db db' : (⟨2, ![4096, 1]⟩ : Shape).Idx → EReal}
    (hI : Inv I n adjb s0b s1b db)
    (h13 : RowsOf (d := ![4096, 4096]) (dw := ![256, 4096]) adjb adjb' (256 * n) (k0_pay1 (F := Ideal) x1))
    (h16 : RowsOf (d := ![4096, 1]) (dw := ![256, 1]) db db' (256 * n) (k0_pay2 (F := Ideal) x1)) :
    Inv I (n + 1) adjb' s0b s1b db' := by
  refine ⟨fun r hr => ?_, fun r hr => absurd hr (by omega), fun r hr => absurd hr (by omega)⟩
  by_cases hlt : r.val < 256 * n
  · obtain ⟨ha, hd⟩ := hI.1 r hlt
    refine ⟨fun j => ?_, ?_⟩
    · rw [← ha j]; exact h13.2 (ix2 r j) (Or.inl hlt)
    · rw [← hd]; exact h16.2 (ix2 r (0 : Fin 1)) (Or.inl hlt)
  · have hp : r.val - 256 * n < 256 := by omega
    have hr' : r.val = 256 * n + (⟨r.val - 256 * n, hp⟩ : Fin 256).val := by
      show r.val = 256 * n + (r.val - 256 * n); omega
    have hrow : row (256 * n + (⟨r.val - 256 * n, hp⟩ : Fin 256).val) = r := row_eq r hr'
    refine ⟨fun j => ?_, ?_⟩
    · rw [h13.1 (ix2 r j) (ix2 ⟨r.val - 256 * n, hp⟩ j) hr' rfl, pay1_apply, hx1, hrow]
    · rw [h16.1 (ix2 r (0 : Fin 1)) (ix2 ⟨r.val - 256 * n, hp⟩ (0 : Fin 1)) hr' rfl, pay2_apply]
      simp only [hx1, hrow]
      rfl

end Cert.Gcn

end
-- ==== Proof.WindowReadRows.lean ====
/-
  The row-blocked input windows read at an index. A window's block at grid point t, read at (p, j), is the window's
  array at (block index × block rows + p, j). Over the 28 grid points the adjacency's row block is min (t, 15), the
  features' is t - 16 clipped to 0 … 3 and the side features' is t - 24 clipped to 0 … 3; each has one column block.
  The features are staged after a change of float format, which leaves an extended real as it is.
-/
import proofs.«154251_g79121887527625_cont_sun_m_466_24_alg».proof.Proof.KernelInputs
import proofs.«154251_g79121887527625_cont_sun_m_466_24_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

/-- The adjacency window's block index over the grid: the row block min (t, 15), the one column block. -/
theorem idx0 : ∀ t : Fin cfg0.N, win0_0.index t (0 : Fin 2) = min t.val 15 ∧ win0_0.index t (1 : Fin 2) = 0 :=
  (by decide +kernel : ∀ t : Fin grid0.N, _)

/-- At the first sixteen points the adjacency window holds rows 256 t … 256 t + 255 of the adjacency. -/
theorem blk0 (t : Fin cfg0.N) (ht : t.val < 16) (p : Fin 256) (j : Fin 4096) :
    iblk m c 0 t (ix2 p j) = (inp m c).adj (ix2 (row (256 * t.val + p.val)) j) := by
  obtain ⟨e0, e1⟩ := idx0 t
  have hp := p.isLt
  show V m c main_arg1 (((cfg0.win 0).blk t).view.emb (ix2 p j)) = m ((c.tc : Thread nD τ).loc main_arg1) (ix2 (row (256 * t.val + p.val)) j)
  rw [V_main_arg1]
  have h : ((cfg0.win 0).blk t).view.emb (ix2 p j) = ix2 (row (256 * t.val + p.val)) j := by
    funext a; apply Fin.ext
    match a with
    | ⟨0, _⟩ => show win0_0.index t (0 : Fin 2) * 256 + 1 * p.val = (row (256 * t.val + p.val)).val; rw [row_val (by omega)]; omega
    | ⟨1, _⟩ => show win0_0.index t (1 : Fin 2) * 4096 + 1 * j.val = j.val; omega
  rw [h]

/-- The feature window's block index over the grid: the row block t - 16 at points 16 … 19, the one column block. -/
theorem idx1 : ∀ t : Fin cfg0.N, (16 ≤ t.val → t.val < 20 → win0_1.index t (0 : Fin 2) = t.val - 16) ∧ win0_1.index t (1 : Fin 2) = 0 :=
  (by decide +kernel : ∀ t : Fin grid0.N, _)

/-- The features as the region finds them, after the change of float format: the argument itself. -/
theorem V_v0 : @Eq (S4096x512.Idx → EReal) (V m c main_v0) (m ((c.tc : Thread nD τ).loc main_arg0)) := by
  dsimp only [Gen.V, Gen.hostOps0]
  after_results
  rfl

/-- At points 16 … 19 the feature window holds rows 1024 (t - 16) … 1024 (t - 16) + 1023 of the features. -/
theorem blk1 (t : Fin cfg0.N) (ht : 16 ≤ t.val) (ht' : t.val < 20) (p : Fin 1024) (k : Fin 512) :
    iblk m c 1 t (ix2 p k) = (inp m c).x (ix2 (row (1024 * (t.val - 16) + p.val)) k) := by
  obtain ⟨e0, e1⟩ := idx1 t
  have e0 := e0 ht ht'
  have hp := p.isLt
  show (V m c main_v0 : S4096x512.Idx → EReal) (((cfg0.win 1).blk t).view.emb (ix2 p k)) = m ((c.tc : Thread nD τ).loc main_arg0) (ix2 (row (1024 * (t.val - 16) + p.val)) k)
  rw [V_v0]
  have h : ((cfg0.win 1).blk t).view.emb (ix2 p k) = ix2 (row (1024 * (t.val - 16) + p.val)) k := by
    funext a; apply Fin.ext
    match a with
    | ⟨0, _⟩ => show win0_1.index t (0 : Fin 2) * 1024 + 1 * p.val = (row (1024 * (t.val - 16) + p.val)).val; rw [row_val (by omega)]; omega
    | ⟨1, _⟩ => show win0_1.index t (1 : Fin 2) * 512 + 1 * k.val = k.val; omega
  rw [h]

/-- The side-feature window's block index over the grid: the row block t - 24 from point 24 on, the one column block. -/
theorem idx6 : ∀ t : Fin cfg0.N, (24 ≤ t.val → win0_6.index t (0 : Fin 2) = t.val - 24) ∧ win0_6.index t (1 : Fin 2) = 0 :=
  (by decide +kernel : ∀ t : Fin grid0.N, _)

/-- The grid has 28 points. -/
theorem lt_28 (t : Fin cfg0.N) : t.val < 28 := t.isLt

/-- From point 24 on the side-feature window holds rows 1024 (t - 24) … 1024 (t - 24) + 1023 of the side features. -/
theorem blk6 (t : Fin cfg0.N) (ht : 24 ≤ t.val) (p : Fin 1024) (k : Fin 32) :
    iblk m c 6 t (ix2 p k) = (inp m c).sd (ix2 (row (1024 * (t.val - 24) + p.val)) k) := by
  obtain ⟨e0, e1⟩ := idx6 t
  have e0 := e0 ht
  have hp := p.isLt
  have ht' := lt_28 t
  show V m c main_arg2 (((cfg0.win 6).blk t).view.emb (ix2 p k)) = m ((c.tc : Thread nD τ).loc main_arg2) (ix2 (row (1024 * (t.val - 24) + p.val)) k)
  rw [V_main_arg2]
  have h : ((cfg0.win 6).blk t).view.emb (ix2 p k) = ix2 (row (1024 * (t.val - 24) + p.val)) k := by
    funext a; apply Fin.ext
    match a with
    | ⟨0, _⟩ => show win0_6.index t (0 : Fin 2) * 1024 + 1 * p.val = (row (1024 * (t.val - 24) + p.val)).val; rw [row_val (by omega)]; omega
    | ⟨1, _⟩ => show win0_6.index t (1 : Fin 2) * 32 + 1 * k.val = k.val; omega
  rw [h]

end Cert.KernelIdeal.Val

end
-- ==== Proof.TrackA.lean ====
/-
  THE BODY OBLIGATION AT A POINT OF THE DEGREE PASS (points 0 … 15).

  The pass's run gives the two stored buffers as "the stored rows replaced, the others kept"; the adjacency
  window's block is rows 256 t … of the adjacency; so the scratch invariant moves from t to t + 1. The output
  windows are idle and are handed back as found.
-/
import proofs.«154251_g79121887527625_cont_sun_m_466_24_alg».proof.Proof.KernelIdealTrack
import proofs.«154251_g79121887527625_cont_sun_m_466_24_alg».proof.Proof.PhaseA
import proofs.«154251_g79121887527625_cont_sun_m_466_24_alg».proof.Proof.InvStepA
import proofs.«154251_g79121887527625_cont_sun_m_466_24_alg».proof.Proof.WindowReadRows

set_option maxRecDepth 16384

noncomputable section

namespace Cert.KernelIdeal.Track

open Cert.KernelIdeal Cert.KernelIdeal.Gen Cert.KernelIdeal.Val Cert.KernelIdeal.Body Cert.Gcn Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_A (c : Dev nD) (t : Fin cfg0.N) (ht : t.val < 16) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, Phi_castSucc]
  obtain ⟨l0, l1, l2, l3, l4, l5, l6, l7, l8, l9⟩ := leaves_in m c t
  rw [l0, l1, l2, l3, l4, l5, l6, l7, l8, l9]
  rw [Dat.leavesExact_idle (dats m 0 c) 10 t (idle_10 t (by omega)) (noFlush_10 t (by omega)),
    Dat.leavesExact_idle (dats m 0 c) 11 t (idle_11 t (by omega)) (noFlush_11 t (by omega))]
  rw [show (dats m 0 c).owesAt () t.succ = (dats m 0 c).owesAt () t.castSucc from rfl, Phi_succ]
  unfold Phi
  have hN := lt_28 t
  have hco := coords_val t
  have hc1 : k0_cond1 (grid0.coords t) = 1#1 := (cond1_iff t).mpr ht
  have hc2 : ¬k0_cond2 (grid0.coords t) = 1#1 := fun h => by have := (cond2_iff t).mp h; omega
  have hc3 : ¬k0_cond3 (grid0.coords t) = 1#1 := fun h => by have := (cond3_iff t).mp h; omega
  have hc4 : ¬k0_cond4 (grid0.coords t) = 1#1 := fun h => by have := (cond4_iff t).mp h; omega
  iintro ⟨⟨⟨%adjb, %s0b, %s1b, %db, %hI, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (Phase.phaseA (F := Ideal) c (grid0.coords t) _ _ _ _ _ _ _ _ _ _ _ _ _ _ _ _ _ _ _ _ _ _ _ _ _ _ _ _ _ _ _ _ hc1 hc2 hc3 hc4 (iblk m c 0 t) adjb db Set.univ _)
  isplitl [H0]; · iexact H0
  isplitl [S0]; · iexact S0
  isplitl [S3]; · iexact S3
  iintro ⟨H0, ⟨%adjb', S0, %h13⟩, ⟨%db', S3, %h16⟩⟩
  rw [hco] at h13 h16
  isplitl [S0 S1 S2 S3 Hg]
  · isplitr [Hg]; swap; · iexact Hg
    iexists adjb', s0b, s1b, db'
    isplitr
    · ipureintro
      exact stepA (inp m c) t.val ht (iblk m c 0 t) (fun p j => blk0 m c t ht p j) hI h13 h16
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Track

end
-- ==== Proof.PhaseB.lean ====
/-
  THE FIRST SUPPORT PASS OF THE BODY, RUN AT A SYMBOLIC GRID POINT.
-/
import proofs.«154251_g79121887527625_cont_sun_m_466_24_alg».proof.Proof.Gen.KernelIdeal.Skeleton
import proofs.«154251_g79121887527625_cont_sun_m_466_24_alg».proof.Proof.Gen.KernelIdeal.Launch
import proofs.«154251_g79121887527625_cont_sun_m_466_24_alg».proof.Proof.Rows
import Idealize.ShloMosaic.Lib.Pipeline.FrameBody
import Idealize.ShloMosaic.Lib.Pipeline.Value
import Idealize.ShloMosaic.Lib.WritesUnit
import Idealize.ShloMosaic.Lib.Tactic

set_option maxRecDepth 16384

noncomputable section

namespace Cert.KernelIdeal.Phase

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Under the pass's condition the degree column is read from row 1024 (i - 16) on. -/
private theorem off3_eq : ∀ i : grid0.Coords, k0_cond2 i = 1#1 → k0_off3 i = ![1024 * ((i 0).val - 16), 0] := by decide +kernel

/-- Under the pass's condition the support buffer is written from row 1024 (i - 16) on. -/
private theorem off4_eq : ∀ i : grid0.Coords, k0_cond2 i = 1#1 → k0_off4 i = ![1024 * ((i 0).val - 16), 0] := by decide +kernel

set_option maxHeartbeats 3200000 in
/-- The first support pass (grid points 16 … 19): a block of 1024 rows of the features, the first weight matrix and the same rows of the degree column come in; the scaled product goes into those rows of the first support buffer. -/
theorem phaseB (c : Dev nD) (i : grid0.Coords) (arg1 : Memref sig .tc .vmem S256x4096 .f32) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x32 .f32) (harg7 : arg7.IsWhole) (arg8 : Memref sig .tc .vmem S256x16 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S4096x4096 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4096x1 .f32) (harg16 : arg16.IsWhole)
    (hc1 : ¬k0_cond1 i = 1#1) (hc2 : k0_cond2 i = 1#1) (hc3 : ¬k0_cond3 i = 1#1) (hc4 : ¬k0_cond4 i = 1#1)
    (x2 : Vec F S1024x512 .bf16) (x3 : Vec F S512x512 .bf16) (b14 : Vec F S4096x512 .bf16) (b16 : Vec F S4096x1 .f32) :
    ∀ (E : Set ℕ) (K : PUnit → sProp 𝕄),
      iprop(owns (c : Thread nD τ) arg2 fullShare x2 ∗ owns (c : Thread nD τ) arg3 fullShare x3 ∗ owns (c : Thread nD τ) arg14 fullShare b14 ∗ owns (c : Thread nD τ) arg16 fullShare b16
          ∗ (iprop(owns (c : Thread nD τ) arg2 fullShare x2
              ∗ owns (c : Thread nD τ) arg3 fullShare x3
              ∗ (∃ b14' dc, owns (c : Thread nD τ) arg14 fullShare b14' ∗ ⌜Band (d := ![4096, 1]) (dw := ![1024, 1]) b16 dc (1024 * ((i 0).val - 16)) ∧ RowsOf (d := ![4096, 512]) (dw := ![1024, 512]) b14 b14' (1024 * ((i 0).val - 16)) (k0_pay3 dc x2 x3)⌝)
              ∗ owns (c : Thread nD τ) arg16 fullShare b16) -∗ K ⟨⟩))
        ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  unfold owns
  iintro ⟨⟨%g2, %hg2, R2⟩, ⟨%g3, %hg3, R3⟩, ⟨%f14, %hf14, W14⟩, ⟨%f16, %hf16, R16⟩, Hk⟩
  obtain rfl := harg2.eq_unread hg2
  obtain rfl := harg3.eq_unread hg3
  subst hf14
  subst hf16
  sl_exec (disch := first | exact hc1 | exact hc2 | exact hc3 | exact hc4)
  sl_step
  -- the two whole-block loads read the blocks themselves
  have hld2 : View.readAt (Elt F) arg2.view (Rect.unit ![0, 0] S1024x512.size inb_S1024x512_S1024x512_0_0).toLoadRect (harg2.unread x2) = x2 := by
    rw [View.readAt_eq_ld, harg2.read_unread]; exact View.ld_unit_zero (S := S1024x512) (funext fun a => by fin_cases a <;> rfl) _ _
  have hld3 : View.readAt (Elt F) arg3.view (Rect.unit ![0, 0] S512x512.size inb_S512x512_S512x512_0_0).toLoadRect (harg3.unread x3) = x3 := by
    rw [View.readAt_eq_ld, harg3.read_unread]; exact View.ld_unit_zero (S := S512x512) (funext fun a => by fin_cases a <;> rfl) _ _
  iapply Hk
  isplitl [R2]
  · iexists (harg2.unread x2); isplitr
    · ipureintro; exact harg2.read_unread _
    iexact R2
  isplitl [R3]
  · iexists (harg3.unread x3); isplitr
    · ipureintro; exact harg3.read_unread _
    iexact R3
  isplitl [W14]
  · iexists _, (View.readAt (Elt F) arg16.view (Rect.unit (s := S4096x1) (k0_off3 i) S1024x1.size (k0_off3_inb i hc2)).toLoadRect f16); isplitl [W14]
    · iexists _; isplitr; swap
      · iexact W14
      ipureintro; rfl
    ipureintro
    refine ⟨?_, ?_⟩
    · -- the band of the degree column that was loaded
      exact band_ld (arg16.view.read (Elt F) f16) (k0_off3_inb i hc2) (off3_eq i hc2)
    · -- one store of 1024 whole rows at row 1024 (i - 16) over the old contents
      have h := rowsOf_writes arg14.view f14 (k0_off4_inb i hc2) (k0_pay3 (View.readAt (Elt F) arg16.view (Rect.unit (s := S4096x1) (k0_off3 i) S1024x1.size (k0_off3_inb i hc2)).toLoadRect f16) (View.readAt (Elt F) arg2.view (Rect.unit ![0, 0] S1024x512.size inb_S1024x512_S1024x512_0_0).toLoadRect (harg2.unread x2)) (View.readAt (Elt F) arg3.view (Rect.unit ![0, 0] S512x512.size inb_S512x512_S512x512_0_0).toLoadRect (harg3.unread x3))) (off4_eq i hc2)
      have e : k0_pay3 (View.readAt (Elt F) arg16.view (Rect.unit (s := S4096x1) (k0_off3 i) S1024x1.size (k0_off3_inb i hc2)).toLoadRect f16) (View.readAt (Elt F) arg2.view (Rect.unit ![0, 0] S1024x512.size inb_S1024x512_S1024x512_0_0).toLoadRect (harg2.unread x2)) (View.readAt (Elt F) arg3.view (Rect.unit ![0, 0] S512x512.size inb_S512x512_S512x512_0_0).toLoadRect (harg3.unread x3)) = k0_pay3 (View.readAt (Elt F) arg16.view (Rect.unit (s := S4096x1) (k0_off3 i) S1024x1.size (k0_off3_inb i hc2)).toLoadRect f16) x2 x3 := by rw [hld2, hld3]
      exact ⟨fun y x h0 h1 => (h.1 y x h0 h1).trans (congrFun e x), h.2⟩
  iexists f16; isplitr
  · ipureintro; rfl
  iexact R16

end Cert.KernelIdeal.Phase

end
-- ==== Proof.LibPlainDot.lean ====
/-
  A plain matrix product read at one entry.  For an M×K matrix times a K×N matrix (contract the left
  operand's axis 1 with the right operand's axis 0, no batch axes) the contraction index has one
  coordinate, so the sum over it is a sum over `Fin K`: entry (a, b) is `∑ c, l (a, c) · r (c, b)`.
  Stated for the contraction sum itself, for a kernel's matmul into a zero accumulator, and for the host's
  dot_general; each for any record of dimension numbers that IS the plain one.  Also: a sum over
  `Fin (K₁ + K₂)` of a two-piece family is the sum of the two pieces' sums.  At the ideal values.
-/
import Idealize.ShloMosaic.Lib.ValueIdx
import Idealize.ShloMosaic.Lib.StackMember
import Idealize.ShloMosaic.PureOps.Ideal.Laws

noncomputable section

namespace Cert.LibPlainDot

open Idealize.ShloMosaic Idealize.ShloMosaic.ValueIdx

/-- The contraction sum of the plain M×K by K×N product at entry (a, b) is the sum over the shared
    coordinate. -/
theorem contr_sum {M K N : Nat} {φ₁ φ₂ : FTy}
    (l : FVec Ideal ⟨2, ![M, K]⟩ φ₁) (r : FVec Ideal ⟨2, ![K, N]⟩ φ₂) (a : Fin M) (b : Fin N) :
    ∑ k : (DotDims.plain M K N).contr.Idx,
        l ((DotDims.plain M K N).lhsIdx (ix2 a b) k) * r ((DotDims.plain M K N).rhsIdx (ix2 a b) k)
      = ∑ c : Fin K, l (ix2 a c) * r (ix2 c b) := by
  have h := StackMember.dotGeneral_plain_apply (m := M) (n := N) (k := K) none l r a b
  change FloatOps.dotGeneral _ none _ l r (ix2 a b) = _ at h
  rw [Ideal.dotGeneral_apply] at h
  exact h

/-- A kernel's matmul into the zero accumulator, for dimension numbers that are the plain ones: entry (a, b)
    is the sum over the shared coordinate of the products. -/
theorem matmul_zero_apply {M K N : Nat} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (a : Fin M) (b : Fin N) :
    matmul D prec l r (constant (F := Ideal) ⟨2, ![M, N]⟩ .f32 0x00000000#32) (ix2 a b)
      = ∑ c : Fin K, l (ix2 a c) * r (ix2 c b) := by
  subst hD
  exact (Ideal.matmul_constant_zero_apply _ prec l r (ix2 a b)).trans (contr_sum l r a b)

/-- The host's dot_general, for dimension numbers that are the plain ones, at entry (a, b). -/
theorem dotGeneral_apply {M K N : Nat} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (a : Fin M) (b : Fin N) :
    Host.dotGeneral D prec l r (ix2 a b) = ∑ c : Fin K, l (ix2 a c) * r (ix2 c b) := by
  subst hD
  exact StackMember.dotGeneral_plain_apply prec l r a b

/-- A sum over `Fin (K₁ + K₂)` splits into the sums over its first `K₁` and its last `K₂` positions. -/
theorem sum_fin_add {β : Type*} [AddCommMonoid β] (K₁ K₂ : Nat) (f : Fin (K₁ + K₂) → β) :
    ∑ k : Fin (K₁ + K₂), f k = ∑ k : Fin K₁, f (Fin.castAdd K₂ k) + ∑ k : Fin K₂, f (Fin.natAdd K₁ k) :=
  Fin.sum_univ_add f

end Cert.LibPlainDot

end
-- ==== Proof.PayloadB.lean ====
/-
  The kernel body's two propagation values that are one product deep, read at one entry.

  The first support is the degree of the row times the row of the features against the column of the first weight
  matrix: a matrix product into the zero accumulator is the sum over the shared coordinate, the degree column is
  carried over the lanes by a broadcast, and the format changes and the casts of a shape to itself are the identity.
  The second layer's pre-classifier value is the degree times (the adjacency row against the scaled support's
  column, plus the row's own scaled support), plus the bias carried down the rows.
-/
import proofs.«154251_g79121887527625_cont_sun_m_466_24_alg».proof.Proof.Gen.KernelIdeal.Skeleton
import proofs.«154251_g79121887527625_cont_sun_m_466_24_alg».proof.Proof.Spec
import proofs.«154251_g79121887527625_cont_sun_m_466_24_alg».proof.Proof.LibColumn
import proofs.«154251_g79121887527625_cont_sun_m_466_24_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Gcn
open scoped BigOperators
open Cert.Proof.Column

/-- The scaled first support at (p, q). -/
theorem pay3_apply (dc : Vec Ideal S1024x1 .f32) (xb : Vec Ideal S1024x512 .bf16) (w : Vec Ideal S512x512 .bf16)
    (p : Fin 1024) (q : Fin 512) :
    k0_pay3 (F := Ideal) dc xb w (ix2 p q) = dc (ix2 p (0 : Fin 1)) * ∑ k : Fin 512, xb (ix2 p k) * w (ix2 k q) := by
  dsimp only [Gen.k0_pay3]
  simp only [shapeCast_self]
  rw [truncf_apply, mulf_apply, broadcastTo_a1_ab_apply]
  refine congrArg (fun z => dc (ix2 p (0 : Fin 1)) * z) ?_
  exact Cert.LibPlainDot.matmul_zero_apply (φ₁ := .bf16) (φ₂ := .bf16)
    dot_S1024x512_S512x512_S1024x512_1_0_0_1_n_n rfl none xb w p q

/-- The second layer's value at (p, q). -/
theorem pay6_apply (A : Vec Ideal S1024x4096 .bf16) (S1 : Vec Ideal S4096x256 .bf16) (own : Vec Ideal S1024x256 .bf16)
    (dc : Vec Ideal S1024x1 .f32) (b1 : Vec Ideal S1x256 .f32) (p : Fin 1024) (q : Fin 256) :
    k0_pay6 (F := Ideal) A S1 own dc b1 (ix2 p q)
      = dc (ix2 p (0 : Fin 1)) * ((∑ j : Fin 4096, A (ix2 p j) * S1 (ix2 j q)) + own (ix2 p q))
        + b1 (ix2 (0 : Fin 1) q) := by
  dsimp only [Gen.k0_pay6]
  simp only [shapeCast_self]
  rw [addf_apply, mulf_apply, addf_apply, extf_apply, broadcastTo_a1_ab_apply, broadcastTo_1b_ab_apply]
  have hm := Cert.LibPlainDot.matmul_zero_apply (φ₁ := .bf16) (φ₂ := .bf16)
    dot_S1024x4096_S4096x256_S1024x256_1_0_0_1_n_n rfl none A S1 p q
  exact congrArg (fun z => dc (ix2 p (0 : Fin 1)) * (z + own (ix2 p q)) + b1 (ix2 (0 : Fin 1) q)) hm

end Cert.KernelIdeal.Pay

end
-- ==== Proof.InvStepB.lean ====
/-
  THE FIRST SUPPORT PASS KEEPS THE INVARIANT.

  At a point n of 16 … 19 the degree pass is over, so the degree column holds the scale d on every row. The body
  loads rows [1024 (n - 16), + 1024) of the features and of the degree column and stores, into the same rows of
  the first support buffer, d r * (the features' row r against each column of the first weight matrix): the
  specification's scaled support s0. The rows stored at earlier points are not touched; the other three buffers
  are not written.
-/
import proofs.«154251_g79121887527625_cont_sun_m_466_24_alg».proof.Proof.Rows
import proofs.«154251_g79121887527625_cont_sun_m_466_24_alg».proof.Proof.Inv
import proofs.«154251_g79121887527625_cont_sun_m_466_24_alg».proof.Proof.KernelInputs
import proofs.«154251_g79121887527625_cont_sun_m_466_24_alg».proof.Proof.PayloadB

noncomputable section

namespace Cert.Gcn

open Cert.Rows Cert.KernelIdeal Cert.KernelIdeal.Gen Cert.KernelIdeal.Val Cert.KernelIdeal.Pay
open Idealize.ShloMosaic Idealize.ShloMosaic.ValueIdx
open scoped BigOperators

/-- A point of the first support pass. -/
theorem stepB (I : Inputs) (n : ℕ) (h1 : 16 ≤ n) (h2 : n < 20)
    {adjb : (⟨2, ![4096, 4096]⟩ : Shape).Idx → EReal} {s0b s0b' : (⟨2, ![4096, 512]⟩ : Shape).Idx → EReal}
    {s1b : (⟨2, ![4096, 256]⟩ : Shape).Idx → EReal} {db : (⟨2, ![4096, 1]⟩ : Shape).Idx → EReal}
    (dc : Vec Ideal S1024x1 .f32) (hdc : Band (d := ![4096, 1]) (dw := ![1024, 1]) db dc (1024 * (n - 16)))
    (x2 : Vec Ideal S1024x512 .bf16)
    (hx2 : ∀ (p : Fin 1024) (k : Fin 512), x2 (ix2 p k) = I.x (ix2 (row (1024 * (n - 16) + p.val)) k))
    (x3 : Vec Ideal S512x512 .bf16) (hx3 : ∀ k q : Fin 512, x3 (ix2 k q) = I.w0 (ix2 k q))
    (hI : Inv I n adjb s0b s1b db)
    (h14 : RowsOf (d := ![4096, 512]) (dw := ![1024, 512]) s0b s0b' (1024 * (n - 16)) (k0_pay3 (F := Ideal) dc x2 x3)) :
    Inv I (n + 1) adjb s0b' s1b db := by
  refine ⟨fun r _ => hI.1 r (by have := r.isLt; omega), fun r hr q => ?_, fun r hr => absurd hr (by omega)⟩
  by_cases hlt : r.val + 16384 < 1024 * n
  · rw [← hI.2.1 r hlt q]
    exact h14.2 (ix2 r q) (Or.inl (by show r.val < 1024 * (n - 16); omega))
  · have hp : r.val - 1024 * (n - 16) < 1024 := by omega
    have hr' : r.val = 1024 * (n - 16) + (⟨r.val - 1024 * (n - 16), hp⟩ : Fin 1024).val := by
      show r.val = 1024 * (n - 16) + (r.val - 1024 * (n - 16)); omega
    have hrow : row (1024 * (n - 16) + (⟨r.val - 1024 * (n - 16), hp⟩ : Fin 1024).val) = r := row_eq r hr'
    have hd : dc (ix2 ⟨r.val - 1024 * (n - 16), hp⟩ (0 : Fin 1)) = Ker.d I r :=
      (hdc (ix2 r (0 : Fin 1)) (ix2 ⟨r.val - 1024 * (n - 16), hp⟩ (0 : Fin 1)) hr' rfl).trans
        (hI.1 r (by have := r.isLt; omega)).2
    rw [h14.1 (ix2 r q) (ix2 ⟨r.val - 1024 * (n - 16), hp⟩ q) hr' rfl, pay3_apply, hd]
    simp only [hx2, hx3, hrow]
    rfl

end Cert.Gcn

end
-- ==== Proof.WindowReadWhole.lean ====
/-
  The input windows whose block is the whole array, read at an index. At every one of the 28 grid points such a
  window's block index is 0 on both axes, so its block read at (k, q) is the window's array at (k, q). The arrays are
  what the region finds: the first weight matrix after a change of float format, which leaves an extended real as it
  is; the second weight matrix as launched; each bias vector of length n laid out as one row [1, n], whose entry
  (0, k) is the vector's entry k; rows 0 … 255 and rows 256 … 287 of the classifier matrix, cut out as slices, whose
  entry (k, q) is the matrix's entry (k, q) and (256 + k, q).
-/
import proofs.«154251_g79121887527625_cont_sun_m_466_24_alg».proof.Proof.KernelInputs
import proofs.«154251_g79121887527625_cont_sun_m_466_24_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

/-- The seven whole-array windows' block indices over the grid: 0 on both axes at every point. -/
theorem idxWhole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem idx2 (t : Fin cfg0.N) : win0_2.index t (0 : Fin 2) = 0 ∧ win0_2.index t (1 : Fin 2) = 0 := (idxWhole t).1
theorem idx3 (t : Fin cfg0.N) : win0_3.index t (0 : Fin 2) = 0 ∧ win0_3.index t (1 : Fin 2) = 0 := (idxWhole t).2.1
theorem idx4 (t : Fin cfg0.N) : win0_4.index t (0 : Fin 2) = 0 ∧ win0_4.index t (1 : Fin 2) = 0 := (idxWhole t).2.2.1
theorem idx5 (t : Fin cfg0.N) : win0_5.index t (0 : Fin 2) = 0 ∧ win0_5.index t (1 : Fin 2) = 0 := (idxWhole t).2.2.2.1
theorem idx7 (t : Fin cfg0.N) : win0_7.index t (0 : Fin 2) = 0 ∧ win0_7.index t (1 : Fin 2) = 0 := (idxWhole t).2.2.2.2.1
theorem idx8 (t : Fin cfg0.N) : win0_8.index t (0 : Fin 2) = 0 ∧ win0_8.index t (1 : Fin 2) = 0 := (idxWhole t).2.2.2.2.2.1
theorem idx9 (t : Fin cfg0.N) : win0_9.index t (0 : Fin 2) = 0 ∧ win0_9.index t (1 : Fin 2) = 0 := (idxWhole t).2.2.2.2.2.2

/-- The first weight matrix as the region finds it, after the change of float format: the argument itself. -/
theorem V_v1 : @Eq (S512x512.Idx → EReal) (V m c main_v1) (m ((c.tc : Thread nD τ).loc main_arg3)) := by
  dsimp only [Gen.V, Gen.hostOps0]
  after_results
  rfl

/-- The first weight matrix's window holds the whole matrix at every point. -/
theorem blk2 (t : Fin cfg0.N) (k q : Fin 512) : iblk m c 2 t (ix2 k q) = (inp m c).w0 (ix2 k q) := by
  obtain ⟨e0, e1⟩ := idx2 t
  show (V m c main_v1 : S512x512.Idx → EReal) (((cfg0.win 2).blk t).view.emb (ix2 k q)) = m ((c.tc : Thread nD τ).loc main_arg3) (ix2 k q)
  rw [V_v1]
  have h : ((cfg0.win 2).blk t).view.emb (ix2 k q) = ix2 k q := by
    funext a; apply Fin.ext
    match a with
    | ⟨0, _⟩ => show win0_2.index t (0 : Fin 2) * 512 + 1 * (k).val = (k).val; omega
    | ⟨1, _⟩ => show win0_2.index t (1 : Fin 2) * 512 + 1 * (q).val = (q).val; omega
  rw [h]

/-- The second weight matrix's window holds the whole matrix, as launched, at every point. -/
theorem blk3 (t : Fin cfg0.N) (k : Fin 512) (q : Fin 256) : iblk m c 3 t (ix2 k q) = (inp m c).w1 (ix2 k q) := by
  obtain ⟨e0, e1⟩ := idx3 t
  show V m c main_arg5 (((cfg0.win 3).blk t).view.emb (ix2 k q)) = m ((c.tc : Thread nD τ).loc main_arg5) (ix2 k q)
  rw [V_main_arg5]
  have h : ((cfg0.win 3).blk t).view.emb (ix2 k q) = ix2 k q := by
    funext a; apply Fin.ext
    match a with
    | ⟨0, _⟩ => show win0_3.index t (0 : Fin 2) * 512 + 1 * (k).val = (k).val; omega
    | ⟨1, _⟩ => show win0_3.index t (1 : Fin 2) * 256 + 1 * (q).val = (q).val; omega
  rw [h]

/-- The first layer's bias as the region finds it: the vector of length 512 laid out as one row. -/
theorem V_v2 : @Eq (S1x512.Idx → EReal) (V m c main_v2) (shapeCast S1x512 (m ((c.tc : Thread nD τ).loc main_arg4)) Gen.shapeCasts_S512_S1x512) := by
  dsimp only [Gen.V, Gen.hostOps0]
  after_results
  rfl

/-- The first layer's bias's window holds the whole row at every point: entry (0, k) is the vector's entry k. -/
theorem blk4 (t : Fin cfg0.N) (k : Fin 512) : iblk m c 4 t (ix2 (0 : Fin 1) k) = (inp m c).b0 (ix1 k) := by
  obtain ⟨e0, e1⟩ := idx4 t
  show (V m c main_v2 : S1x512.Idx → EReal) (((cfg0.win 4).blk t).view.emb (ix2 (0 : Fin 1) k)) = m ((c.tc : Thread nD τ).loc main_arg4) (ix1 k)
  rw [V_v2]
  have h : ((cfg0.win 4).blk t).view.emb (ix2 (0 : Fin 1) k) = ix2 (0 : Fin 1) k := by
    funext a; apply Fin.ext
    match a with
    | ⟨0, _⟩ => show win0_4.index t (0 : Fin 2) * 1 + 1 * ((0 : Fin 1)).val = ((0 : Fin 1)).val; omega
    | ⟨1, _⟩ => show win0_4.index t (1 : Fin 2) * 512 + 1 * (k).val = (k).val; omega
  rw [h]
  exact shapeCast_a_1a_apply _ _ (0 : Fin 1) k

/-- The second layer's bias as the region finds it: the vector of length 256 laid out as one row. -/
theorem V_v3 : @Eq (S1x256.Idx → EReal) (V m c main_v3) (shapeCast S1x256 (m ((c.tc : Thread nD τ).loc main_arg6)) Gen.shapeCasts_S256_S1x256) := by
  dsimp only [Gen.V, Gen.hostOps0]
  after_results
  rfl

/-- The second layer's bias's window holds the whole row at every point: entry (0, k) is the vector's entry k. -/
theorem blk5 (t : Fin cfg0.N) (k : Fin 256) : iblk m c 5 t (ix2 (0 : Fin 1) k) = (inp m c).b1 (ix1 k) := by
  obtain ⟨e0, e1⟩ := idx5 t
  show (V m c main_v3 : S1x256.Idx → EReal) (((cfg0.win 5).blk t).view.emb (ix2 (0 : Fin 1) k)) = m ((c.tc : Thread nD τ).loc main_arg6) (ix1 k)
  rw [V_v3]
  have h : ((cfg0.win 5).blk t).view.emb (ix2 (0 : Fin 1) k) = ix2 (0 : Fin 1) k := by
    funext a; apply Fin.ext
    match a with
    | ⟨0, _⟩ => show win0_5.index t (0 : Fin 2) * 1 + 1 * ((0 : Fin 1)).val = ((0 : Fin 1)).val; omega
    | ⟨1, _⟩ => show win0_5.index t (1 : Fin 2) * 256 + 1 * (k).val = (k).val; omega
  rw [h]
  exact shapeCast_a_1a_apply _ _ (0 : Fin 1) k

/-- Rows 0 … 255 of the classifier matrix as the region finds them: a slice of the argument. -/
theorem V_v4 : @Eq (S256x16.Idx → EReal) (V m c main_v4) (extractStridedSlice S256x16 ![0, 0] (m ((c.tc : Thread nD τ).loc main_arg7)) Gen.slices_S288x16_S256x16_0_0) := by
  dsimp only [Gen.V, Gen.hostOps0]
  after_results

/-- The window of rows 0 … 255 of the classifier matrix holds them all at every point: entry (k, q) is the matrix's entry (k, q). -/
theorem blk7 (t : Fin cfg0.N) (k : Fin 256) (q : Fin 16) : iblk m c 7 t (ix2 k q) = (inp m c).wc (ix2 (Cert.Gcn.lo k) q) := by
  obtain ⟨e0, e1⟩ := idx7 t
  show (V m c main_v4 : S256x16.Idx → EReal) (((cfg0.win 7).blk t).view.emb (ix2 k q)) = m ((c.tc : Thread nD τ).loc main_arg7) (ix2 (Cert.Gcn.lo k) q)
  rw [V_v4]
  have h : ((cfg0.win 7).blk t).view.emb (ix2 k q) = ix2 k q := by
    funext a; apply Fin.ext
    match a with
    | ⟨0, _⟩ => show win0_7.index t (0 : Fin 2) * 256 + 1 * (k).val = (k).val; omega
    | ⟨1, _⟩ => show win0_7.index t (1 : Fin 2) * 16 + 1 * (q).val = (q).val; omega
  rw [h]
  exact slice2_axis0_apply 0 _ _ k q (Cert.Gcn.lo k) (by show k.val = 0 + k.val; omega)

/-- Rows 256 … 287 of the classifier matrix as the region finds them: a slice of the argument. -/
theorem V_v5 : @Eq (S32x16.Idx → EReal) (V m c main_v5) (extractStridedSlice S32x16 ![256, 0] (m ((c.tc : Thread nD τ).loc main_arg7)) Gen.slices_S288x16_S32x16_256_0) := by
  dsimp only [Gen.V, Gen.hostOps0]
  after_results

/-- The window of rows 256 … 287 of the classifier matrix holds them all at every point: entry (k, q) is the matrix's entry (256 + k, q). -/
theorem blk8 (t : Fin cfg0.N) (k : Fin 32) (q : Fin 16) : iblk m c 8 t (ix2 k q) = (inp m c).wc (ix2 (Cert.Gcn.hi k) q) := by
  obtain ⟨e0, e1⟩ := idx8 t
  show (V m c main_v5 : S32x16.Idx → EReal) (((cfg0.win 8).blk t).view.emb (ix2 k q)) = m ((c.tc : Thread nD τ).loc main_arg7) (ix2 (Cert.Gcn.hi k) q)
  rw [V_v5]
  have h : ((cfg0.win 8).blk t).view.emb (ix2 k q) = ix2 k q := by
    funext a; apply Fin.ext
    match a with
    | ⟨0, _⟩ => show win0_8.index t (0 : Fin 2) * 32 + 1 * (k).val = (k).val; omega
    | ⟨1, _⟩ => show win0_8.index t (1 : Fin 2) * 16 + 1 * (q).val = (q).val; omega
  rw [h]
  exact slice2_axis0_apply 256 _ _ k q (Cert.Gcn.hi k) (by show 256 + k.val = 256 + k.val; omega)

/-- The classifier's bias as the region finds it: the vector of length 16 laid out as one row. -/
theorem V_v6 : @Eq (S1x16.Idx → EReal) (V m c main_v6) (shapeCast S1x16 (m ((c.tc : Thread nD τ).loc main_arg8)) Gen.shapeCasts_S16_S1x16) := by
  dsimp only [Gen.V, Gen.hostOps0]
  after_results
  rfl

/-- The classifier's bias's window holds the whole row at every point: entry (0, q) is the vector's entry q. -/
theorem blk9 (t : Fin cfg0.N) (q : Fin 16) : iblk m c 9 t (ix2 (0 : Fin 1) q) = (inp m c).bc (ix1 q) := by
  obtain ⟨e0, e1⟩ := idx9 t
  show (V m c main_v6 : S1x16.Idx → EReal) (((cfg0.win 9).blk t).view.emb (ix2 (0 : Fin 1) q)) = m ((c.tc : Thread nD τ).loc main_arg8) (ix1 q)
  rw [V_v6]
  have h : ((cfg0.win 9).blk t).view.emb (ix2 (0 : Fin 1) q) = ix2 (0 : Fin 1) q := by
    funext a; apply Fin.ext
    match a with
    | ⟨0, _⟩ => show win0_9.index t (0 : Fin 2) * 1 + 1 * ((0 : Fin 1)).val = ((0 : Fin 1)).val; omega
    | ⟨1, _⟩ => show win0_9.index t (1 : Fin 2) * 16 + 1 * (q).val = (q).val; omega
  rw [h]
  exact shapeCast_a_1a_apply _ _ (0 : Fin 1) q

end Cert.KernelIdeal.Val

end
-- ==== Proof.TrackB.lean ====
/-
  THE BODY OBLIGATION AT A POINT OF THE FIRST SUPPORT PASS (points 16 … 19).
-/
import proofs.«154251_g79121887527625_cont_sun_m_466_24_alg».proof.Proof.KernelIdealTrack
import proofs.«154251_g79121887527625_cont_sun_m_466_24_alg».proof.Proof.PhaseB
import proofs.«154251_g79121887527625_cont_sun_m_466_24_alg».proof.Proof.InvStepB
import proofs.«154251_g79121887527625_cont_sun_m_466_24_alg».proof.Proof.WindowReadRows
import proofs.«154251_g79121887527625_cont_sun_m_466_24_alg».proof.Proof.WindowReadWhole

set_option maxRecDepth 16384

noncomputable section

namespace Cert.KernelIdeal.Track

open Cert.KernelIdeal Cert.KernelIdeal.Gen Cert.KernelIdeal.Val Cert.KernelIdeal.Body Cert.Gcn Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_B (c : Dev nD) (t : Fin cfg0.N) (ht : 16 ≤ t.val) (ht' : t.val < 20) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, Phi_castSucc]
  obtain ⟨l0, l1, l2, l3, l4, l5, l6, l7, l8, l9⟩ := leaves_in m c t
  rw [l0, l1, l2, l3, l4, l5, l6, l7, l8, l9]
  rw [Dat.leavesExact_idle (dats m 0 c) 10 t (idle_10 t (by omega)) (noFlush_10 t (by omega)),
    Dat.leavesExact_idle (dats m 0 c) 11 t (idle_11 t (by omega)) (noFlush_11 t (by omega))]
  rw [show (dats m 0 c).owesAt () t.succ = (dats m 0 c).owesAt () t.castSucc from rfl, Phi_succ]
  unfold Phi
  have hN := lt_28 t
  have hco := coords_val t
  have hc1 : ¬k0_cond1 (grid0.coords t) = 1#1 := fun h => by have := (cond1_iff t).mp h; omega
  have hc2 : k0_cond2 (grid0.coords t) = 1#1 := (cond2_iff t).mpr ⟨ht, ht'⟩
  have hc3 : ¬k0_cond3 (grid0.coords t) = 1#1 := fun h => by have := (cond3_iff t).mp h; omega
  have hc4 : ¬k0_cond4 (grid0.coords t) = 1#1 := fun h => by have := (cond4_iff t).mp h; omega
  iintro ⟨⟨⟨%adjb, %s0b, %s1b, %db, %hI, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (Phase.phaseB (F := Ideal) c (grid0.coords t) _ _ _ _ _ _ _ _ _ _ _ _ _ _ _ _ _ _ _ _ _ _ _ _ _ _ _ _ _ _ _ _ hc1 hc2 hc3 hc4 (iblk m c 1 t) (iblk m c 2 t) s0b db Set.univ _)
  isplitl [H1]; · iexact H1
  isplitl [H2]; · iexact H2
  isplitl [S1]; · iexact S1
  isplitl [S3]; · iexact S3
  iintro ⟨H1, H2, ⟨%s0b', %dc, S1, %hb⟩, S3⟩
  rw [hco] at hb
  isplitl [S0 S1 S2 S3 Hg]
  · isplitr [Hg]; swap; · iexact Hg
    iexists adjb, s0b', s1b, db
    isplitr
    · ipureintro
      exact stepB (inp m c) t.val ht ht' dc hb.1 (iblk m c 1 t) (fun p k => blk1 m c t ht ht' p k) (iblk m c 2 t) (fun k q => blk2 m c t k q) hI hb.2
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Track

end
-- ==== Proof.PhaseC.lean ====
/-
  THE SECOND SUPPORT PASS OF THE BODY, RUN AT A SYMBOLIC GRID POINT.
-/
import proofs.«154251_g79121887527625_cont_sun_m_466_24_alg».proof.Proof.Gen.KernelIdeal.Skeleton
import proofs.«154251_g79121887527625_cont_sun_m_466_24_alg».proof.Proof.Gen.KernelIdeal.Launch
import proofs.«154251_g79121887527625_cont_sun_m_466_24_alg».proof.Proof.Rows
import Idealize.ShloMosaic.Lib.Pipeline.FrameBody
import Idealize.ShloMosaic.Lib.Pipeline.Value
import Idealize.ShloMosaic.Lib.WritesUnit
import Idealize.ShloMosaic.Lib.Tactic

set_option maxRecDepth 16384

noncomputable section

namespace Cert.KernelIdeal.Phase

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Under the pass's condition (grid points 20 … 23) the row offset of each of its band accesses is 1024 times the
    point's distance from 20: the 32-bit subtraction and multiplication do not wrap there. -/
theorem off5_eq : ∀ i : grid0.Coords, k0_cond3 i = 1#1 → k0_off5 i = ![1024 * ((i 0).val - 20), 0] := by decide +kernel
theorem off6_eq : ∀ i : grid0.Coords, k0_cond3 i = 1#1 → k0_off6 i = ![1024 * ((i 0).val - 20), 0] := by decide +kernel
theorem off7_eq : ∀ i : grid0.Coords, k0_cond3 i = 1#1 → k0_off7 i = ![1024 * ((i 0).val - 20), 0] := by decide +kernel
theorem off8_eq : ∀ i : grid0.Coords, k0_cond3 i = 1#1 → k0_off8 i = ![1024 * ((i 0).val - 20), 0] := by decide +kernel

set_option maxHeartbeats 3200000 in
/-- The second support pass (grid points 20 … 23): 1024 rows of the adjacency copy against the whole first support buffer, the same rows of that buffer and of the degree column, the first bias and the second weight matrix come in; the scaled second support goes into those rows of the second support buffer. -/
theorem phaseC (c : Dev nD) (i : grid0.Coords) (arg1 : Memref sig .tc .vmem S256x4096 .f32) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x32 .f32) (harg7 : arg7.IsWhole) (arg8 : Memref sig .tc .vmem S256x16 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S4096x4096 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4096x1 .f32) (harg16 : arg16.IsWhole)
    (hc1 : ¬k0_cond1 i = 1#1) (hc2 : ¬k0_cond2 i = 1#1) (hc3 : k0_cond3 i = 1#1) (hc4 : ¬k0_cond4 i = 1#1)
    (x4 : Vec F S512x256 .f32) (x5 : Vec F S1x512 .f32) (b13 : Vec F S4096x4096 .bf16) (b14 : Vec F S4096x512 .bf16) (b15 : Vec F S4096x256 .bf16) (b16 : Vec F S4096x1 .f32) :
    ∀ (E : Set ℕ) (K : PUnit → sProp 𝕄),
      iprop(owns (c : Thread nD τ) arg4 fullShare x4 ∗ owns (c : Thread nD τ) arg5 fullShare x5 ∗ owns (c : Thread nD τ) arg13 fullShare b13 ∗ owns (c : Thread nD τ) arg14 fullShare b14 ∗ owns (c : Thread nD τ) arg15 fullShare b15 ∗ owns (c : Thread nD τ) arg16 fullShare b16
          ∗ (iprop(owns (c : Thread nD τ) arg4 fullShare x4
              ∗ owns (c : Thread nD τ) arg5 fullShare x5
              ∗ owns (c : Thread nD τ) arg13 fullShare b13
              ∗ owns (c : Thread nD τ) arg14 fullShare b14
              ∗ (∃ b15' A own dc, owns (c : Thread nD τ) arg15 fullShare b15' ∗ ⌜Band (d := ![4096, 4096]) (dw := ![1024, 4096]) b13 A (1024 * ((i 0).val - 20)) ∧ Band (d := ![4096, 512]) (dw := ![1024, 512]) b14 own (1024 * ((i 0).val - 20)) ∧ Band (d := ![4096, 1]) (dw := ![1024, 1]) b16 dc (1024 * ((i 0).val - 20)) ∧ RowsOf (d := ![4096, 256]) (dw := ![1024, 256]) b15 b15' (1024 * ((i 0).val - 20)) (k0_pay4 A b14 own dc x5 dc x4)⌝)
              ∗ owns (c : Thread nD τ) arg16 fullShare b16) -∗ K ⟨⟩))
        ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  unfold owns
  iintro ⟨⟨%g4, %hg4, R4⟩, ⟨%g5, %hg5, R5⟩, ⟨%g13, %hg13, R13⟩, ⟨%g14, %hg14, R14⟩, ⟨%f15, %hf15, W15⟩, ⟨%g16, %hg16, R16⟩, Hk⟩
  subst hg4 hg5 hg13 hg14 hf15 hg16
  sl_exec (disch := first | exact hc1 | exact hc2 | exact hc3 | exact hc4)
  sl_step
  -- a load through the whole-buffer rectangle at zero offsets reads the contents themselves
  have hz : (![0, 0] : Fin 2 → Nat) = fun _ => 0 := funext fun a => by fin_cases a <;> rfl
  have e14 : View.readAt (Elt F) arg14.view (Rect.unit (s := S4096x512) ![0, 0] S4096x512.size inb_S4096x512_S4096x512_0_0).toLoadRect g14
      = arg14.view.read (Elt F) g14 := by
    rw [View.readAt_eq_ld]; exact View.ld_unit_zero (S := S4096x512) hz _ _
  have e5 : View.readAt (Elt F) arg5.view (Rect.unit (s := S1x512) ![0, 0] S1x512.size inb_S1x512_S1x512_0_0).toLoadRect g5
      = arg5.view.read (Elt F) g5 := by
    rw [View.readAt_eq_ld]; exact View.ld_unit_zero (S := S1x512) hz _ _
  have e4 : View.readAt (Elt F) arg4.view (Rect.unit (s := S512x256) ![0, 0] S512x256.size inb_S512x256_S512x256_0_0).toLoadRect g4
      = arg4.view.read (Elt F) g4 := by
    rw [View.readAt_eq_ld]; exact View.ld_unit_zero (S := S512x256) hz _ _
  iapply Hk
  isplitl [R4]
  · iexists g4; isplitr; · ipureintro; rfl
    iexact R4
  isplitl [R5]
  · iexists g5; isplitr; · ipureintro; rfl
    iexact R5
  isplitl [R13]
  · iexists g13; isplitr; · ipureintro; rfl
    iexact R13
  isplitl [R14]
  · iexists g14; isplitr; · ipureintro; rfl
    iexact R14
  isplitl [W15]
  · iexists _,
      (View.readAt (Elt F) arg13.view (Rect.unit (s := S4096x4096) (k0_off5 i) S1024x4096.size (k0_off5_inb i hc3)).toLoadRect g13),
      (View.readAt (Elt F) arg14.view (Rect.unit (s := S4096x512) (k0_off6 i) S1024x512.size (k0_off6_inb i hc3)).toLoadRect g14),
      (View.readAt (Elt F) arg16.view (Rect.unit (s := S4096x1) (k0_off7 i) S1024x1.size (k0_off7_inb i hc3)).toLoadRect g16)
    isplitl [W15]
    · iexists _; isplitr; swap; · iexact W15
      ipureintro; rfl
    ipureintro
    refine ⟨?_, ?_, ?_, ?_⟩
    · exact band_ld (d := ![4096, 4096]) (arg13.view.read (Elt F) g13) (k0_off5_inb i hc3) (off5_eq i hc3)
    · exact band_ld (d := ![4096, 512]) (arg14.view.read (Elt F) g14) (k0_off6_inb i hc3) (off6_eq i hc3)
    · exact band_ld (d := ![4096, 1]) (arg16.view.read (Elt F) g16) (k0_off7_inb i hc3) (off7_eq i hc3)
    · rw [← e14, ← e5, ← e4]
      exact rowsOf_writes arg15.view f15 (k0_off8_inb i hc3) _ (off8_eq i hc3)
  iexists g16; isplitr; · ipureintro; rfl
  iexact R16

end Cert.KernelIdeal.Phase

end
-- ==== Proof.PayloadC.lean ====
/-
  The kernel body's first propagation step, read at one entry.

  At row p the body forms z k = d p * ((adjacency row p against column k of the scaled first support) + the row's
  own scaled support at k) + b0 k for each of the 512 hidden coordinates, passes it through the leaky rectifier as
  the program spells it (a comparison with zero, a product with the slope, a select), multiplies the row by the
  second weight matrix and scales by the degree again. Each matrix product into the zero accumulator is the sum
  over the shared coordinate; the degree column and the bias row are carried by broadcasts; the format changes and
  the casts of a shape to itself are the identity.
-/
import proofs.«154251_g79121887527625_cont_sun_m_466_24_alg».proof.Proof.Gen.KernelIdeal.Skeleton
import proofs.«154251_g79121887527625_cont_sun_m_466_24_alg».proof.Proof.Spec
import proofs.«154251_g79121887527625_cont_sun_m_466_24_alg».proof.Proof.LibColumn
import proofs.«154251_g79121887527625_cont_sun_m_466_24_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Gcn
open scoped BigOperators
open Cert.Proof.Column

/-- The rectifier as the body spells it on a vector, read at an index, is the specification's leaky. -/
theorem leaky_vec {s : Shape} (z : FVec Ideal s .f32) (i : s.Idx) :
    select (cmpf .oge z (broadcast s (Scalar.ofBits (F := Ideal) .f32 0x00000000#32)))
        z (mulf (broadcast s (Scalar.ofBits (F := Ideal) .f32 0x3C23D70A#32)) z) i = leaky (z i) := by
  rw [select_apply, cmpf_apply, mulf_apply, broadcast_apply, broadcast_apply, Ideal.cmpf_def]
  show Scalar.select (Ideal.cmp .oge (z i) (Ideal.ofBits .f32 0x00000000#32)) (z i)
    (Ideal.ofBits .f32 0x3C23D70A#32 * z i) = _
  rw [Ideal.ofBits_zero_f32]
  rfl

/-- The scaled second support at (p, q). -/
theorem pay4_apply (A : Vec Ideal S1024x4096 .bf16) (S0 : Vec Ideal S4096x512 .bf16) (own : Vec Ideal S1024x512 .bf16)
    (dc : Vec Ideal S1024x1 .f32) (b0 : Vec Ideal S1x512 .f32) (dc' : Vec Ideal S1024x1 .f32)
    (w1 : Vec Ideal S512x256 .f32) (p : Fin 1024) (q : Fin 256) :
    k0_pay4 (F := Ideal) A S0 own dc b0 dc' w1 (ix2 p q)
      = dc' (ix2 p (0 : Fin 1)) * ∑ k : Fin 512,
          Cert.Gcn.leaky (dc (ix2 p (0 : Fin 1)) * ((∑ j : Fin 4096, A (ix2 p j) * S0 (ix2 j k)) + own (ix2 p k))
            + b0 (ix2 (0 : Fin 1) k)) * w1 (ix2 k q) := by
  dsimp only [Gen.k0_pay4]
  simp only [shapeCast_self]
  rw [truncf_apply, mulf_apply, broadcastTo_a1_ab_apply]
  refine congrArg (fun z => dc' (ix2 p (0 : Fin 1)) * z) ?_
  refine (Cert.LibPlainDot.matmul_zero_apply (φ₁ := .f32) (φ₂ := .f32)
    dot_S1024x512_S512x256_S1024x256_1_0_0_1_n_n rfl none _ w1 p q).trans ?_
  refine Finset.sum_congr rfl fun k _ => congrArg (fun z => z * w1 (ix2 k q)) ?_
  refine (leaky_vec (s := S1024x512) _ (ix2 p k)).trans (congrArg leaky ?_)
  rw [addf_apply, mulf_apply, addf_apply, extf_apply, broadcastTo_a1_ab_apply, broadcastTo_1b_ab_apply]
  have hm := Cert.LibPlainDot.matmul_zero_apply (φ₁ := .bf16) (φ₂ := .bf16)
    dot_S1024x4096_S4096x512_S1024x512_1_0_0_1_n_n rfl none A S0 p k
  exact congrArg (fun z => dc (ix2 p (0 : Fin 1)) * (z + own (ix2 p k)) + b0 (ix2 (0 : Fin 1) k)) hm

end Cert.KernelIdeal.Pay

end
-- ==== Proof.InvStepC.lean ====
/-
  THE SECOND SUPPORT PASS KEEPS THE INVARIANT.

  At a point n of 20 … 23 the adjacency copy, the degree column and the first support buffer hold the
  specification's values on every row. The body loads rows [1024 (n - 20), + 1024) of the adjacency copy, of the
  first support buffer and of the degree column, and the whole first support buffer, and stores into the same rows
  of the second support buffer d r * (the rectified first layer's row r against each column of the second weight
  matrix), where the first layer's entry (r, k) is the leaky rectifier of
  d r * ((adjacency row r against column k of s0) + s0 r k) + b0 k: the specification's h0, so the stored rows are
  its scaled support s1. Earlier rows are not touched; the other three buffers are not written.
-/
import proofs.«154251_g79121887527625_cont_sun_m_466_24_alg».proof.Proof.Rows
import proofs.«154251_g79121887527625_cont_sun_m_466_24_alg».proof.Proof.Inv
import proofs.«154251_g79121887527625_cont_sun_m_466_24_alg».proof.Proof.KernelInputs
import proofs.«154251_g79121887527625_cont_sun_m_466_24_alg».proof.Proof.PayloadC

noncomputable section

namespace Cert.Gcn

open Cert.Rows Cert.KernelIdeal Cert.KernelIdeal.Gen Cert.KernelIdeal.Val Cert.KernelIdeal.Pay
open Idealize.ShloMosaic Idealize.ShloMosaic.ValueIdx
open scoped BigOperators

/-- A point of the second support pass. -/
theorem stepC (I : Inputs) (n : ℕ) (h1 : 20 ≤ n) (h2 : n < 24)
    {adjb : (⟨2, ![4096, 4096]⟩ : Shape).Idx → EReal} {s0b : (⟨2, ![4096, 512]⟩ : Shape).Idx → EReal}
    {s1b s1b' : (⟨2, ![4096, 256]⟩ : Shape).Idx → EReal} {db : (⟨2, ![4096, 1]⟩ : Shape).Idx → EReal}
    (A : Vec Ideal S1024x4096 .bf16) (hA : Band (d := ![4096, 4096]) (dw := ![1024, 4096]) adjb A (1024 * (n - 20)))
    (own : Vec Ideal S1024x512 .bf16) (hown : Band (d := ![4096, 512]) (dw := ![1024, 512]) s0b own (1024 * (n - 20)))
    (dc : Vec Ideal S1024x1 .f32) (hdc : Band (d := ![4096, 1]) (dw := ![1024, 1]) db dc (1024 * (n - 20)))
    (x5 : Vec Ideal S1x512 .f32) (hx5 : ∀ k : Fin 512, x5 (ix2 (0 : Fin 1) k) = I.b0 (ix1 k))
    (x4 : Vec Ideal S512x256 .f32) (hx4 : ∀ (k : Fin 512) (q : Fin 256), x4 (ix2 k q) = I.w1 (ix2 k q))
    (hI : Inv I n adjb s0b s1b db)
    (h15 : RowsOf (d := ![4096, 256]) (dw := ![1024, 256]) s1b s1b' (1024 * (n - 20))
      (k0_pay4 (F := Ideal) A s0b own dc x5 dc x4)) :
    Inv I (n + 1) adjb s0b s1b' db := by
  refine ⟨fun r _ => hI.1 r (by have := r.isLt; omega), fun r _ => hI.2.1 r (by have := r.isLt; omega),
    fun r hr q => ?_⟩
  by_cases hlt : r.val + 20480 < 1024 * n
  · rw [← hI.2.2 r hlt q]
    exact h15.2 (ix2 r q) (Or.inl (by show r.val < 1024 * (n - 20); omega))
  · have hp : r.val - 1024 * (n - 20) < 1024 := by omega
    have hr' : r.val = 1024 * (n - 20) + (⟨r.val - 1024 * (n - 20), hp⟩ : Fin 1024).val := by
      show r.val = 1024 * (n - 20) + (r.val - 1024 * (n - 20)); omega
    have hall : ∀ j : Fin 4096, j.val < 256 * n := fun j => by have := j.isLt; omega
    have hAr : ∀ j : Fin 4096, A (ix2 ⟨r.val - 1024 * (n - 20), hp⟩ j) = I.adj (ix2 r j) := fun j =>
      (hA (ix2 r j) (ix2 ⟨r.val - 1024 * (n - 20), hp⟩ j) hr' rfl).trans ((hI.1 r (hall r)).1 j)
    have hS : ∀ (j : Fin 4096) (k : Fin 512), s0b (ix2 j k) = Ker.s0 I j k := fun j k =>
      hI.2.1 j (by have := j.isLt; omega) k
    have hown' : ∀ k : Fin 512, own (ix2 ⟨r.val - 1024 * (n - 20), hp⟩ k) = Ker.s0 I r k := fun k =>
      (hown (ix2 r k) (ix2 ⟨r.val - 1024 * (n - 20), hp⟩ k) hr' rfl).trans (hS r k)
    have hd : dc (ix2 ⟨r.val - 1024 * (n - 20), hp⟩ (0 : Fin 1)) = Ker.d I r :=
      (hdc (ix2 r (0 : Fin 1)) (ix2 ⟨r.val - 1024 * (n - 20), hp⟩ (0 : Fin 1)) hr' rfl).trans (hI.1 r (hall r)).2
    rw [h15.1 (ix2 r q) (ix2 ⟨r.val - 1024 * (n - 20), hp⟩ q) hr' rfl, pay4_apply, hd]
    simp only [hAr, hS, hown', hx5, hx4]
    rfl

end Cert.Gcn

end
-- ==== Proof.TrackC.lean ====
/-
  THE BODY OBLIGATION AT A POINT OF THE SECOND SUPPORT PASS (points 20 … 23).
-/
import proofs.«154251_g79121887527625_cont_sun_m_466_24_alg».proof.Proof.KernelIdealTrack
import proofs.«154251_g79121887527625_cont_sun_m_466_24_alg».proof.Proof.PhaseC
import proofs.«154251_g79121887527625_cont_sun_m_466_24_alg».proof.Proof.InvStepC
import proofs.«154251_g79121887527625_cont_sun_m_466_24_alg».proof.Proof.WindowReadWhole

set_option maxRecDepth 16384

noncomputable section

namespace Cert.KernelIdeal.Track

open Cert.KernelIdeal Cert.KernelIdeal.Gen Cert.KernelIdeal.Val Cert.KernelIdeal.Body Cert.Gcn Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_C (c : Dev nD) (t : Fin cfg0.N) (ht : 20 ≤ t.val) (ht' : t.val < 24) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, Phi_castSucc]
  obtain ⟨l0, l1, l2, l3, l4, l5, l6, l7, l8, l9⟩ := leaves_in m c t
  rw [l0, l1, l2, l3, l4, l5, l6, l7, l8, l9]
  rw [Dat.leavesExact_idle (dats m 0 c) 10 t (idle_10 t (by omega)) (noFlush_10 t (by omega)),
    Dat.leavesExact_idle (dats m 0 c) 11 t (idle_11 t (by omega)) (noFlush_11 t (by omega))]
  rw [show (dats m 0 c).owesAt () t.succ = (dats m 0 c).owesAt () t.castSucc from rfl, Phi_succ]
  unfold Phi
  have hN := lt_28 t
  have hco := coords_val t
  have hc1 : ¬k0_cond1 (grid0.coords t) = 1#1 := fun h => by have := (cond1_iff t).mp h; omega
  have hc2 : ¬k0_cond2 (grid0.coords t) = 1#1 := fun h => by have := (cond2_iff t).mp h; omega
  have hc3 : k0_cond3 (grid0.coords t) = 1#1 := (cond3_iff t).mpr ⟨ht, ht'⟩
  have hc4 : ¬k0_cond4 (grid0.coords t) = 1#1 := fun h => by have := (cond4_iff t).mp h; omega
  iintro ⟨⟨⟨%adjb, %s0b, %s1b, %db, %hI, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (Phase.phaseC (F := Ideal) c (grid0.coords t) _ _ _ _ _ _ _ _ _ _ _ _ _ _ _ _ _ _ _ _ _ _ _ _ _ _ _ _ _ _ _ _ hc1 hc2 hc3 hc4 (iblk m c 3 t) (iblk m c 4 t) adjb s0b s1b db Set.univ _)
  isplitl [H3]; · iexact H3
  isplitl [H4]; · iexact H4
  isplitl [S0]; · iexact S0
  isplitl [S1]; · iexact S1
  isplitl [S2]; · iexact S2
  isplitl [S3]; · iexact S3
  iintro ⟨H3, H4, S0, S1, ⟨%s1b', %A, %own, %dc, S2, %hb⟩, S3⟩
  rw [hco] at hb
  isplitl [S0 S1 S2 S3 Hg]
  · isplitr [Hg]; swap; · iexact Hg
    iexists adjb, s0b, s1b', db
    isplitr
    · ipureintro
      exact stepC (inp m c) t.val ht ht' A hb.1 own hb.2.1 dc hb.2.2.1 (iblk m c 4 t) (fun k => blk4 m c t k) (iblk m c 3 t) (fun k q => blk3 m c t k q) hI hb.2.2.2
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Track

end
-- ==== Proof.PhaseD.lean ====
/-
  THE OUTPUT PASS OF THE BODY, RUN AT A SYMBOLIC GRID POINT.
-/
import proofs.«154251_g79121887527625_cont_sun_m_466_24_alg».proof.Proof.Gen.KernelIdeal.Skeleton
import proofs.«154251_g79121887527625_cont_sun_m_466_24_alg».proof.Proof.Gen.KernelIdeal.Launch
import proofs.«154251_g79121887527625_cont_sun_m_466_24_alg».proof.Proof.Rows
import Idealize.ShloMosaic.Lib.Pipeline.FrameBody
import Idealize.ShloMosaic.Lib.Pipeline.Value
import Idealize.ShloMosaic.Lib.WritesUnit
import Idealize.ShloMosaic.Lib.Tactic

set_option maxRecDepth 16384

noncomputable section

namespace Cert.KernelIdeal.Phase

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Under the pass's condition (grid points 24 … 27) the row offset of each of its band loads is 1024 times the
    point's distance from 24: the 32-bit subtraction and multiplication do not wrap there. -/
theorem off9_eq : ∀ i : grid0.Coords, k0_cond4 i = 1#1 → k0_off9 i = ![1024 * ((i 0).val - 24), 0] := by decide +kernel
theorem off10_eq : ∀ i : grid0.Coords, k0_cond4 i = 1#1 → k0_off10 i = ![1024 * ((i 0).val - 24), 0] := by decide +kernel
theorem off11_eq : ∀ i : grid0.Coords, k0_cond4 i = 1#1 → k0_off11 i = ![1024 * ((i 0).val - 24), 0] := by decide +kernel

set_option maxHeartbeats 3200000 in
/-- The output pass (grid points 24 … 27): 1024 rows of the adjacency copy against the whole second support buffer, the same rows of that buffer and of the degree column and the second bias give the block of hidden features, stored whole; with the two parts of the classifier matrix, the block of side features and the classifier bias they give the block of class probabilities, stored whole. -/
theorem phaseD (c : Dev nD) (i : grid0.Coords) (arg1 : Memref sig .tc .vmem S256x4096 .f32) (harg1 : arg1.IsWhole) (arg2 : Memref sig .tc .vmem S1024x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x256 .f32) (harg6 : arg6.IsWhole) (arg7 : Memref sig .tc .vmem S1024x32 .f32) (harg7 : arg7.IsWhole) (arg8 : Memref sig .tc .vmem S256x16 .f32) (harg8 : arg8.IsWhole) (arg9 : Memref sig .tc .vmem S32x16 .f32) (harg9 : arg9.IsWhole) (arg10 : Memref sig .tc .vmem S1x16 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S4096x4096 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4096x1 .f32) (harg16 : arg16.IsWhole)
    (hc1 : ¬k0_cond1 i = 1#1) (hc2 : ¬k0_cond2 i = 1#1) (hc3 : ¬k0_cond3 i = 1#1) (hc4 : k0_cond4 i = 1#1)
    (x6 : Vec F S1x256 .f32) (x7 : Vec F S1024x32 .f32) (x8 : Vec F S256x16 .f32) (x9 : Vec F S32x16 .f32) (x10 : Vec F S1x16 .f32) (o11 : Vec F S1024x256 .f32) (o12 : Vec F S1024x16 .f32) (b13 : Vec F S4096x4096 .bf16) (b15 : Vec F S4096x256 .bf16) (b16 : Vec F S4096x1 .f32) :
    ∀ (E : Set ℕ) (K : PUnit → sProp 𝕄),
      iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare o11 ∗ owns (c : Thread nD τ) arg12 fullShare o12 ∗ owns (c : Thread nD τ) arg13 fullShare b13 ∗ owns (c : Thread nD τ) arg15 fullShare b15 ∗ owns (c : Thread nD τ) arg16 fullShare b16
          ∗ (iprop(owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (∃ A own dc, ⌜Band (d := ![4096, 4096]) (dw := ![1024, 4096]) b13 A (1024 * ((i 0).val - 24)) ∧ Band (d := ![4096, 256]) (dw := ![1024, 256]) b15 own (1024 * ((i 0).val - 24)) ∧ Band (d := ![4096, 1]) (dw := ![1024, 1]) b16 dc (1024 * ((i 0).val - 24))⌝ ∗ owns (c : Thread nD τ) arg11 fullShare (k0_pay6 A b15 own dc x6) ∗ owns (c : Thread nD τ) arg12 fullShare (k0_pay5 (k0_pay7 A b15 own dc x6 x8 x7 x9 x10)))
              ∗ owns (c : Thread nD τ) arg13 fullShare b13
              ∗ owns (c : Thread nD τ) arg15 fullShare b15
              ∗ owns (c : Thread nD τ) arg16 fullShare b16) -∗ K ⟨⟩))
        ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  simp only [k0_part1_eq_skeleton]; unfold k0_part1_skel
  unfold owns
  iintro ⟨⟨%g6, %hg6, R6⟩, ⟨%g7, %hg7, R7⟩, ⟨%g8, %hg8, R8⟩, ⟨%g9, %hg9, R9⟩, ⟨%g10, %hg10, R10⟩, ⟨%f11, %hf11, W11⟩, ⟨%f12, %hf12, W12⟩, ⟨%g13, %hg13, R13⟩, ⟨%g15, %hg15, R15⟩, ⟨%g16, %hg16, R16⟩, Hk⟩
  subst hg6 hg7 hg8 hg9 hg10 hf11 hf12 hg13 hg15 hg16
  sl_exec (disch := first | exact hc1 | exact hc2 | exact hc3 | exact hc4)
  sl_step
  -- a load through the whole-buffer rectangle at zero offsets reads the contents themselves
  have hz : (![0, 0] : Fin 2 → Nat) = fun _ => 0 := funext fun a => by fin_cases a <;> rfl
  have e15 : View.readAt (Elt F) arg15.view (Rect.unit (s := S4096x256) ![0, 0] S4096x256.size inb_S4096x256_S4096x256_0_0).toLoadRect g15
      = arg15.view.read (Elt F) g15 := by
    rw [View.readAt_eq_ld]; exact View.ld_unit_zero (S := S4096x256) hz _ _
  have e6 : View.readAt (Elt F) arg6.view (Rect.unit (s := S1x256) ![0, 0] S1x256.size inb_S1x256_S1x256_0_0).toLoadRect g6
      = arg6.view.read (Elt F) g6 := by
    rw [View.readAt_eq_ld]; exact View.ld_unit_zero (S := S1x256) hz _ _
  have e8 : View.readAt (Elt F) arg8.view (Rect.unit (s := S256x16) ![0, 0] S256x16.size inb_S256x16_S256x16_0_0).toLoadRect g8
      = arg8.view.read (Elt F) g8 := by
    rw [View.readAt_eq_ld]; exact View.ld_unit_zero (S := S256x16) hz _ _
  have e7 : View.readAt (Elt F) arg7.view (Rect.unit (s := S1024x32) ![0, 0] S1024x32.size inb_S1024x32_S1024x32_0_0).toLoadRect g7
      = arg7.view.read (Elt F) g7 := by
    rw [View.readAt_eq_ld]; exact View.ld_unit_zero (S := S1024x32) hz _ _
  have e9 : View.readAt (Elt F) arg9.view (Rect.unit (s := S32x16) ![0, 0] S32x16.size inb_S32x16_S32x16_0_0).toLoadRect g9
      = arg9.view.read (Elt F) g9 := by
    rw [View.readAt_eq_ld]; exact View.ld_unit_zero (S := S32x16) hz _ _
  have e10 : View.readAt (Elt F) arg10.view (Rect.unit (s := S1x16) ![0, 0] S1x16.size inb_S1x16_S1x16_0_0).toLoadRect g10
      = arg10.view.read (Elt F) g10 := by
    rw [View.readAt_eq_ld]; exact View.ld_unit_zero (S := S1x16) hz _ _
  iapply Hk
  isplitl [R6]
  · iexists g6; isplitr; · ipureintro; rfl
    iexact R6
  isplitl [R7]
  · iexists g7; isplitr; · ipureintro; rfl
    iexact R7
  isplitl [R8]
  · iexists g8; isplitr; · ipureintro; rfl
    iexact R8
  isplitl [R9]
  · iexists g9; isplitr; · ipureintro; rfl
    iexact R9
  isplitl [R10]
  · iexists g10; isplitr; · ipureintro; rfl
    iexact R10
  isplitl [W11 W12]
  · iexists
      (View.readAt (Elt F) arg13.view (Rect.unit (s := S4096x4096) (k0_off9 i) S1024x4096.size (k0_off9_inb i hc4)).toLoadRect g13),
      (View.readAt (Elt F) arg15.view (Rect.unit (s := S4096x256) (k0_off10 i) S1024x256.size (k0_off10_inb i hc4)).toLoadRect g15),
      (View.readAt (Elt F) arg16.view (Rect.unit (s := S4096x1) (k0_off11 i) S1024x1.size (k0_off11_inb i hc4)).toLoadRect g16)
    isplitr
    · ipureintro
      refine ⟨?_, ?_, ?_⟩
      · exact band_ld (d := ![4096, 4096]) (arg13.view.read (Elt F) g13) (k0_off9_inb i hc4) (off9_eq i hc4)
      · exact band_ld (d := ![4096, 256]) (arg15.view.read (Elt F) g15) (k0_off10_inb i hc4) (off10_eq i hc4)
      · exact band_ld (d := ![4096, 1]) (arg16.view.read (Elt F) g16) (k0_off11_inb i hc4) (off11_eq i hc4)
    -- one store through the whole-buffer rectangle leaves its payload, whatever the buffer held
    isplitl [W11]
    · iexists _; isplitr; swap; · iexact W11
      ipureintro
      rw [← e15, ← e6]
      refine (View.read_writes_eq_canon _ _ _ ?_).trans (View.canon_unit_zero hz _ _)
      exact fun y => ⟨_, List.mem_singleton_self _, View.mem_set_unit_zero hz inb_S1024x256_S1024x256_0_0 y⟩
    iexists _; isplitr; swap; · iexact W12
    ipureintro
    rw [← e15, ← e6, ← e8, ← e7, ← e9, ← e10]
    refine (View.read_writes_eq_canon _ _ _ ?_).trans (View.canon_unit_zero hz _ _)
    exact fun y => ⟨_, List.mem_singleton_self _, View.mem_set_unit_zero hz inb_S1024x16_S1024x16_0_0 y⟩
  isplitl [R13]
  · iexists g13; isplitr; · ipureintro; rfl
    iexact R13
  isplitl [R15]
  · iexists g15; isplitr; · ipureintro; rfl
    iexact R15
  iexists g16; isplitr; · ipureintro; rfl
  iexact R16

end Cert.KernelIdeal.Phase

end
-- ==== Proof.PayloadD.lean ====
/-
  The kernel body's classifier exponentials, read at one entry.

  At row p the body forms the sixteen logits z c = (the second layer's row against column c of the upper classifier
  weights) + (the side features' row against column c of the lower ones) + bc c, takes the row's maximum (a fold of
  max from the word of minus infinity, which is the bottom of the extended reals), carries it back to the row
  through a column and a broadcast, and stores exp (z c - that maximum). Each matrix product into the zero
  accumulator is the sum over the shared coordinate, and a cast of a shape to itself moves nothing.
-/
import proofs.«154251_g79121887527625_cont_sun_m_466_24_alg».proof.Proof.Gen.KernelIdeal.Skeleton
import proofs.«154251_g79121887527625_cont_sun_m_466_24_alg».proof.Proof.Spec
import proofs.«154251_g79121887527625_cont_sun_m_466_24_alg».proof.Proof.LibColumn
import proofs.«154251_g79121887527625_cont_sun_m_466_24_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Gcn
open scoped BigOperators
open Cert.Proof.Column

/-- The f32 word 0xFF800000 is minus infinity, the bottom of the extended reals. -/
theorem ofBits_negInf_f32 : Ideal.ofBits .f32 0xFF800000#32 = (⊥ : EReal) := by
  simp [Ideal.ofBits, Ideal.ieee]

/-- The body's logits as one vector: the two products added, plus the bias row carried down the rows. -/
def logitsVec (A : Vec Ideal S1024x4096 .bf16) (S1 : Vec Ideal S4096x256 .bf16) (own : Vec Ideal S1024x256 .bf16)
    (dc : Vec Ideal S1024x1 .f32) (b1 : Vec Ideal S1x256 .f32) (wch : Vec Ideal S256x16 .f32)
    (sdb : Vec Ideal S1024x32 .f32) (wcs : Vec Ideal S32x16 .f32) (bc : Vec Ideal S1x16 .f32) :
    FVec Ideal S1024x16 .f32 :=
  addf (addf
      (matmul (φ₁ := .f32) (φ₂ := .f32) dot_S1024x256_S256x16_S1024x16_1_0_0_1_n_n none
        (k0_pay6 (F := Ideal) A S1 own dc b1) wch
        (constant (F := Ideal) S1024x16 .f32 0x00000000#32))
      (matmul (φ₁ := .f32) (φ₂ := .f32) dot_S1024x32_S32x16_S1024x16_1_0_0_1_n_n none sdb wcs
        (constant (F := Ideal) S1024x16 .f32 0x00000000#32)))
    (broadcastTo S1024x16 bc broadcasts_S1x16_S1024x16)

/-- The logits at (p, c). -/
theorem logitsVec_apply (A : Vec Ideal S1024x4096 .bf16) (S1 : Vec Ideal S4096x256 .bf16)
    (own : Vec Ideal S1024x256 .bf16) (dc : Vec Ideal S1024x1 .f32) (b1 : Vec Ideal S1x256 .f32)
    (wch : Vec Ideal S256x16 .f32) (sdb : Vec Ideal S1024x32 .f32) (wcs : Vec Ideal S32x16 .f32)
    (bc : Vec Ideal S1x16 .f32) (p : Fin 1024) (c : Fin 16) :
    logitsVec A S1 own dc b1 wch sdb wcs bc (ix2 p c)
      = ((∑ k : Fin 256, k0_pay6 (F := Ideal) A S1 own dc b1 (ix2 p k) * wch (ix2 k c))
          + ∑ k : Fin 32, sdb (ix2 p k) * wcs (ix2 k c)) + bc (ix2 (0 : Fin 1) c) := by
  unfold logitsVec
  rw [addf_apply, addf_apply, broadcastTo_1b_ab_apply]
  have h1 := Cert.LibPlainDot.matmul_zero_apply (φ₁ := .f32) (φ₂ := .f32)
    dot_S1024x256_S256x16_S1024x16_1_0_0_1_n_n rfl none (k0_pay6 (F := Ideal) A S1 own dc b1) wch p c
  have h2 := Cert.LibPlainDot.matmul_zero_apply (φ₁ := .f32) (φ₂ := .f32)
    dot_S1024x32_S32x16_S1024x16_1_0_0_1_n_n rfl none sdb wcs p c
  exact congrArg₂ (fun x y => (x + y) + bc (ix2 (0 : Fin 1) c)) h1 h2

/-- The row maximum of a 1024 x 16 vector, from the word of minus infinity, at row p: the fold of max from the
    bottom over the row's sixteen entries. -/
theorem rowMax_apply (z : FVec Ideal S1024x16 .f32) (p : Fin 1024) :
    multiReduction (F := Ideal) .maximumf [1] S1024 z 0xFF800000#32 reduces_S1024x16_S1024 (.inl rfl) rfl (ix1 p)
      = rowMax (fun c => z (ix2 p c)) := by
  refine (Ideal.multiReduction_maximumf_single z 0xFF800000#32 reduces_S1024x16_S1024 (.inl rfl) rfl (ix1 p)).trans ?_
  show (Finset.univ : Finset (Fin 16)).fold max (Ideal.ofBits .f32 0xFF800000#32)
      (z ∘ reduces_S1024x16_S1024.lift (ix1 p)) = _
  rw [ofBits_negInf_f32]
  unfold rowMax
  refine congrArg (fun f => (Finset.univ : Finset (Fin 16)).fold max (⊥ : EReal) f) (funext fun c => ?_)
  refine congrArg z (funext fun a => ?_)
  match a with
  | ⟨0, _⟩ => rfl
  | ⟨1, _⟩ => rfl

/-- The body's stored exponentials are the exponential of the logits less their row maximum, as vectors. -/
theorem pay7_eq (A : Vec Ideal S1024x4096 .bf16) (S1 : Vec Ideal S4096x256 .bf16) (own : Vec Ideal S1024x256 .bf16)
    (dc : Vec Ideal S1024x1 .f32) (b1 : Vec Ideal S1x256 .f32) (wch : Vec Ideal S256x16 .f32)
    (sdb : Vec Ideal S1024x32 .f32) (wcs : Vec Ideal S32x16 .f32) (bc : Vec Ideal S1x16 .f32) :
    k0_pay7 (F := Ideal) A S1 own dc b1 wch sdb wcs bc
      = exp (subf (logitsVec A S1 own dc b1 wch sdb wcs bc)
          (broadcastTo S1024x16
            (shapeCast S1024x1
              (multiReduction (F := Ideal) .maximumf [1] S1024 (logitsVec A S1 own dc b1 wch sdb wcs bc) 0xFF800000#32
                reduces_S1024x16_S1024 (.inl rfl) rfl)
              shapeCasts_S1024_S1024x1)
            broadcasts_S1024x1_S1024x16)) := by
  dsimp only [Gen.k0_pay7, logitsVec]
  simp only [shapeCast_self]

/-- The classifier exponential at (p, q). -/
theorem pay7_apply (A : Vec Ideal S1024x4096 .bf16) (S1 : Vec Ideal S4096x256 .bf16) (own : Vec Ideal S1024x256 .bf16)
    (dc : Vec Ideal S1024x1 .f32) (b1 : Vec Ideal S1x256 .f32) (wch : Vec Ideal S256x16 .f32)
    (sdb : Vec Ideal S1024x32 .f32) (wcs : Vec Ideal S32x16 .f32) (bc : Vec Ideal S1x16 .f32)
    (p : Fin 1024) (q : Fin 16) :
    k0_pay7 (F := Ideal) A S1 own dc b1 wch sdb wcs bc (ix2 p q)
      = Cert.Gcn.expShift (fun c => ((∑ k : Fin 256, k0_pay6 (F := Ideal) A S1 own dc b1 (ix2 p k) * wch (ix2 k c))
          + ∑ k : Fin 32, sdb (ix2 p k) * wcs (ix2 k c)) + bc (ix2 (0 : Fin 1) c)) q := by
  rw [pay7_eq]
  show Ideal.exp (subf (logitsVec A S1 own dc b1 wch sdb wcs bc) _ (ix2 p q)) = _
  rw [subf_apply, broadcastTo_a1_ab_apply, shapeCast_a_a1_apply, rowMax_apply]
  simp only [logitsVec_apply]
  rfl

end Cert.KernelIdeal.Pay

end
-- ==== Proof.InvStepD.lean ====
/-
  THE LAST PASS READS THE FINISHED BUFFERS AND KEEPS THE INVARIANT.

  At a point n of 24 … 27 all three earlier passes are over: 256 n is at least 4096 and 1024 n is at least
  20480 + 4096, so the adjacency copy, the degree column and both support buffers hold the specification's values on
  every row. The body loads rows [1024 (n - 24), + 1024) of the adjacency copy, of the second support buffer and of
  the degree column, and the whole second support buffer. Its first store is, at row r and column q,
  d r * ((adjacency row r against column q of s1) + s1 r q) + b1 q: the specification's second layer h. Its second
  store forms the sixteen logits of the row, (h's row against the first 256 rows of the classifier weights) +
  (the side features' row against the last 32 rows) + bc, takes the exponential of each logit less the row's maximum
  and divides by the row's sum of those exponentials: the specification's soft-max y. Nothing is written to the
  four buffers, and every row is already below every threshold, so the invariant carries over as it stands.
-/
import proofs.«154251_g79121887527625_cont_sun_m_466_24_alg».proof.Proof.Rows
import proofs.«154251_g79121887527625_cont_sun_m_466_24_alg».proof.Proof.Inv
import proofs.«154251_g79121887527625_cont_sun_m_466_24_alg».proof.Proof.KernelInputs
import proofs.«154251_g79121887527625_cont_sun_m_466_24_alg».proof.Proof.PayloadA
import proofs.«154251_g79121887527625_cont_sun_m_466_24_alg».proof.Proof.PayloadB
import proofs.«154251_g79121887527625_cont_sun_m_466_24_alg».proof.Proof.PayloadD

noncomputable section

namespace Cert.Gcn

open Cert.Rows Cert.KernelIdeal Cert.KernelIdeal.Gen Cert.KernelIdeal.Val Cert.KernelIdeal.Pay
open Idealize.ShloMosaic Idealize.ShloMosaic.ValueIdx
open scoped BigOperators

/-- From point 24 on every row is below every threshold: the invariant does not depend on the point any more. -/
theorem stepD_inv (I : Inputs) (n : ℕ) (h1 : 24 ≤ n)
    {adjb : (⟨2, ![4096, 4096]⟩ : Shape).Idx → EReal} {s0b : (⟨2, ![4096, 512]⟩ : Shape).Idx → EReal}
    {s1b : (⟨2, ![4096, 256]⟩ : Shape).Idx → EReal} {db : (⟨2, ![4096, 1]⟩ : Shape).Idx → EReal}
    (hI : Inv I n adjb s0b s1b db) : Inv I (n + 1) adjb s0b s1b db :=
  ⟨fun r _ => hI.1 r (by have := r.isLt; omega), fun r _ => hI.2.1 r (by have := r.isLt; omega),
    fun r _ => hI.2.2 r (by have := r.isLt; omega)⟩

/-- The first store of a point of the last pass: the second layer's rows. -/
theorem stepD_h (I : Inputs) (n : ℕ) (h1 : 24 ≤ n) (h2 : n < 28)
    {adjb : (⟨2, ![4096, 4096]⟩ : Shape).Idx → EReal} {s0b : (⟨2, ![4096, 512]⟩ : Shape).Idx → EReal}
    {s1b : (⟨2, ![4096, 256]⟩ : Shape).Idx → EReal} {db : (⟨2, ![4096, 1]⟩ : Shape).Idx → EReal}
    (hI : Inv I n adjb s0b s1b db)
    (A : Vec Ideal S1024x4096 .bf16) (hA : Band (d := ![4096, 4096]) (dw := ![1024, 4096]) adjb A (1024 * (n - 24)))
    (own : Vec Ideal S1024x256 .bf16) (hown : Band (d := ![4096, 256]) (dw := ![1024, 256]) s1b own (1024 * (n - 24)))
    (dc : Vec Ideal S1024x1 .f32) (hdc : Band (d := ![4096, 1]) (dw := ![1024, 1]) db dc (1024 * (n - 24)))
    (x6 : Vec Ideal S1x256 .f32) (hx6 : ∀ k : Fin 256, x6 (ix2 (0 : Fin 1) k) = I.b1 (ix1 k))
    (p : Fin 1024) (q : Fin 256) :
    k0_pay6 (F := Ideal) A s1b own dc x6 (ix2 p q) = Ker.h I (row (1024 * (n - 24) + p.val)) q := by
  have hlt : 1024 * (n - 24) + p.val < 4096 := by have := p.isLt; omega
  have hr' : (row (1024 * (n - 24) + p.val)).val = 1024 * (n - 24) + p.val := row_val hlt
  generalize row (1024 * (n - 24) + p.val) = r at hr' ⊢
  have hall : ∀ j : Fin 4096, j.val < 256 * n := fun j => by have := j.isLt; omega
  have hAr : ∀ j : Fin 4096, A (ix2 p j) = I.adj (ix2 r j) := fun j =>
    (hA (ix2 r j) (ix2 p j) hr' rfl).trans ((hI.1 r (hall r)).1 j)
  have hS : ∀ (j : Fin 4096) (k : Fin 256), s1b (ix2 j k) = Ker.s1 I j k := fun j k =>
    hI.2.2 j (by have := j.isLt; omega) k
  have hown' : own (ix2 p q) = Ker.s1 I r q := (hown (ix2 r q) (ix2 p q) hr' rfl).trans (hS r q)
  have hd : dc (ix2 p (0 : Fin 1)) = Ker.d I r :=
    (hdc (ix2 r (0 : Fin 1)) (ix2 p (0 : Fin 1)) hr' rfl).trans (hI.1 r (hall r)).2
  rw [pay6_apply, hd, hown']
  simp only [hAr, hS, hx6]
  rfl

/-- The second store of a point of the last pass: the soft-max rows. -/
theorem stepD_y (I : Inputs) (n : ℕ) (h1 : 24 ≤ n) (h2 : n < 28)
    {adjb : (⟨2, ![4096, 4096]⟩ : Shape).Idx → EReal} {s0b : (⟨2, ![4096, 512]⟩ : Shape).Idx → EReal}
    {s1b : (⟨2, ![4096, 256]⟩ : Shape).Idx → EReal} {db : (⟨2, ![4096, 1]⟩ : Shape).Idx → EReal}
    (hI : Inv I n adjb s0b s1b db)
    (A : Vec Ideal S1024x4096 .bf16) (hA : Band (d := ![4096, 4096]) (dw := ![1024, 4096]) adjb A (1024 * (n - 24)))
    (own : Vec Ideal S1024x256 .bf16) (hown : Band (d := ![4096, 256]) (dw := ![1024, 256]) s1b own (1024 * (n - 24)))
    (dc : Vec Ideal S1024x1 .f32) (hdc : Band (d := ![4096, 1]) (dw := ![1024, 1]) db dc (1024 * (n - 24)))
    (x6 : Vec Ideal S1x256 .f32) (hx6 : ∀ k : Fin 256, x6 (ix2 (0 : Fin 1) k) = I.b1 (ix1 k))
    (x8 : Vec Ideal S256x16 .f32) (hx8 : ∀ (k : Fin 256) (q : Fin 16), x8 (ix2 k q) = I.wc (ix2 (lo k) q))
    (x7 : Vec Ideal S1024x32 .f32)
    (hx7 : ∀ (p : Fin 1024) (k : Fin 32), x7 (ix2 p k) = I.sd (ix2 (row (1024 * (n - 24) + p.val)) k))
    (x9 : Vec Ideal S32x16 .f32) (hx9 : ∀ (k : Fin 32) (q : Fin 16), x9 (ix2 k q) = I.wc (ix2 (hi k) q))
    (x10 : Vec Ideal S1x16 .f32) (hx10 : ∀ q : Fin 16, x10 (ix2 (0 : Fin 1) q) = I.bc (ix1 q))
    (p : Fin 1024) (q : Fin 16) :
    k0_pay5 (F := Ideal) (k0_pay7 (F := Ideal) A s1b own dc x6 x8 x7 x9 x10) (ix2 p q)
      = Ker.y I (row (1024 * (n - 24) + p.val)) q := by
  have hz : (fun c : Fin 16 =>
        ((∑ k : Fin 256, k0_pay6 (F := Ideal) A s1b own dc x6 (ix2 p k) * x8 (ix2 k c))
          + ∑ k : Fin 32, x7 (ix2 p k) * x9 (ix2 k c)) + x10 (ix2 (0 : Fin 1) c))
      = Ker.logits I (row (1024 * (n - 24) + p.val)) := by
    funext c
    simp only [stepD_h I n h1 h2 hI A hA own hown dc hdc x6 hx6, hx8, hx7, hx9, hx10]
    rfl
  rw [pay5_apply]
  simp only [pay7_apply, hz]
  rfl

end Cert.Gcn

end
-- ==== Proof.TrackD.lean ====
/-
  THE BODY OBLIGATION AT A POINT OF THE OUTPUT PASS (points 24 … 27).

  By now the scratch invariant covers every row, so the two whole-block stores are rows 1024 (t - 24) … of the
  specification's hidden features and class probabilities.
-/
import proofs.«154251_g79121887527625_cont_sun_m_466_24_alg».proof.Proof.KernelIdealTrack
import proofs.«154251_g79121887527625_cont_sun_m_466_24_alg».proof.Proof.PhaseD
import proofs.«154251_g79121887527625_cont_sun_m_466_24_alg».proof.Proof.InvStepD
import proofs.«154251_g79121887527625_cont_sun_m_466_24_alg».proof.Proof.WindowReadRows
import proofs.«154251_g79121887527625_cont_sun_m_466_24_alg».proof.Proof.WindowReadWhole

set_option maxRecDepth 16384

noncomputable section

namespace Cert.KernelIdeal.Track

open Cert.KernelIdeal Cert.KernelIdeal.Gen Cert.KernelIdeal.Val Cert.KernelIdeal.Body Cert.Gcn Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_D (c : Dev nD) (t : Fin cfg0.N) (ht : 24 ≤ t.val) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, Phi_castSucc]
  obtain ⟨l0, l1, l2, l3, l4, l5, l6, l7, l8, l9⟩ := leaves_in m c t
  rw [l0, l1, l2, l3, l4, l5, l6, l7, l8, l9]
  rw [show (dats m 0 c).leavesExact 10 t = owns (c : Thread nD τ) (st0_10 t) fullShare (outH m c t) from by
      unfold Dat.leavesExact; rw [live_10 t ht, after_10],
    show (dats m 0 c).leavesExact 11 t = owns (c : Thread nD τ) (st0_11 t) fullShare (outY m c t) from by
      unfold Dat.leavesExact; rw [live_11 t ht, after_11]]
  rw [show (dats m 0 c).owesAt () t.succ = (dats m 0 c).owesAt () t.castSucc from rfl, Phi_succ]
  unfold Phi
  have hN := lt_28 t
  have hco := coords_val t
  have hc1 : ¬k0_cond1 (grid0.coords t) = 1#1 := fun h => by have := (cond1_iff t).mp h; omega
  have hc2 : ¬k0_cond2 (grid0.coords t) = 1#1 := fun h => by have := (cond2_iff t).mp h; omega
  have hc3 : ¬k0_cond3 (grid0.coords t) = 1#1 := fun h => by have := (cond3_iff t).mp h; omega
  have hc4 : k0_cond4 (grid0.coords t) = 1#1 := (cond4_iff t).mpr ht
  iintro ⟨⟨⟨%adjb, %s0b, %s1b, %db, %hI, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Phase.phaseD (F := Ideal) c (grid0.coords t) _ _ _ _ _ _ _ _ _ _ _ _ _ _ _ _ _ _ _ _ _ _ _ _ _ _ _ _ _ _ _ _ hc1 hc2 hc3 hc4 (iblk m c 5 t) (iblk m c 6 t) (iblk m c 7 t) (iblk m c 8 t) (iblk m c 9 t) _ _ adjb s1b db Set.univ _)
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S2]; · iexact S2
  isplitl [S3]; · iexact S3
  iintro ⟨H5, H6, H7, H8, H9, ⟨%A, %own, %dc, %hb, H10, H11⟩, S0, S2, S3⟩
  rw [hco] at hb
  have e10 : outH m c t = k0_pay6 (F := Ideal) A s1b own dc (iblk m c 5 t) := by
    funext y
    obtain ⟨p, q, rfl⟩ : ∃ (p : Fin 1024) (q : Fin 256), y = ix2 p q := ⟨y 0, y 1, eq_ix2 y⟩
    exact (stepD_h (inp m c) t.val ht hN hI A hb.1 own hb.2.1 dc hb.2.2 (iblk m c 5 t) (fun k => blk5 m c t k) p q).symm
  have e11 : outY m c t = k0_pay5 (F := Ideal) (k0_pay7 (F := Ideal) A s1b own dc (iblk m c 5 t) (iblk m c 7 t) (iblk m c 6 t) (iblk m c 8 t) (iblk m c 9 t)) := by
    funext y
    obtain ⟨p, q, rfl⟩ : ∃ (p : Fin 1024) (q : Fin 16), y = ix2 p q := ⟨y 0, y 1, eq_ix2 y⟩
    exact (stepD_y (inp m c) t.val ht hN hI A hb.1 own hb.2.1 dc hb.2.2 (iblk m c 5 t) (fun k => blk5 m c t k)
      (iblk m c 7 t) (fun k q => blk7 m c t k q) (iblk m c 6 t) (fun p k => blk6 m c t ht p k) (iblk m c 8 t) (fun k q => blk8 m c t k q)
      (iblk m c 9 t) (fun q => blk9 m c t q) p q).symm
  rw [e10, e11]
  isplitl [S0 S1 S2 S3 Hg]
  · isplitr [Hg]; swap; · iexact Hg
    iexists adjb, s0b, s1b, db
    isplitr
    · ipureintro
      exact stepD_inv (inp m c) t.val ht hI
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Track

end
-- ==== Proof.KernelIdealFinal.lean ====
/-
  THE TWO RESULT ARRAYS AFTER THE RUN.

  The two output windows are written back at points 24 … 27 only. At point t the block written back is block t - 24
  on the row axis and the one block on the column axis: rows 1024 (t - 24) … 1024 (t - 24) + 1023 of the array. What
  the body left in the window there is the specification's h (for the second window, y) on exactly those rows. So
  every write-back writes its own block of ONE array, the array whose entry (r, q) is h r q (resp. y r q): a block's
  coordinate on an axis is the block index times the block size plus the coordinate inside the block. Row r lies
  in the block of point 24 + r / 1024, so the four blocks cover the array, and the array ends holding that function.
-/
import proofs.«154251_g79121887527625_cont_sun_m_466_24_alg».proof.Proof.KernelIdealTrack
import proofs.«154251_g79121887527625_cont_sun_m_466_24_alg».proof.Proof.KernelInputs
import Idealize.ShloMosaic.Lib.Pipeline.Value

set_option maxRecDepth 16384

noncomputable section

namespace Cert.KernelIdeal.Track

open Cert.KernelIdeal Cert.KernelIdeal.Gen Cert.KernelIdeal.Val Cert.Gcn
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The hidden features -/

/-- The first output window's block index over the grid: the row block t - 24 from point 24 on, the one column
    block. -/
theorem idx10 : ∀ t : Fin cfg0.N, (24 ≤ t.val → win0_10.index t (0 : Fin 2) = t.val - 24) ∧ win0_10.index t (1 : Fin 2) = 0 :=
  (by decide +kernel : ∀ t : Fin grid0.N, _)

/-- Entry (p, q) of the block at a point t ≥ 24 is entry (1024 (t - 24) + p, q) of the array. -/
theorem emb_10 (t : Fin cfg0.N) (ht : 24 ≤ t.val) (p : Fin 1024) (q : Fin 256) :
    ((cfg0.win 10).blk t).view.emb (ix2 p q) = ix2 (row (1024 * (t.val - 24) + p.val)) q := by
  obtain ⟨e0, e1⟩ := idx10 t
  have e0 := e0 ht
  have hp := p.isLt
  have ht' : t.val < 28 := t.isLt
  funext a; apply Fin.ext
  match a with
  | ⟨0, _⟩ => show win0_10.index t (0 : Fin 2) * 1024 + 1 * p.val = (row (1024 * (t.val - 24) + p.val)).val; rw [row_val (by omega)]; omega
  | ⟨1, _⟩ => show win0_10.index t (1 : Fin 2) * 256 + 1 * q.val = q.val; omega

/-- What a point writes back into the first result array is its block of the specification's h. -/
theorem flushed_10 (c : Dev nD) (t : Fin cfg0.N) (hf : (cfg0.win 10).flush t = true) :
    (dats m 0 c).flushed 10 t
      = ((cfg0.win 10).blk t).view.read (Elt Ideal) (fun j => Ker.h (inp m c) (j 0) (j 1)) := by
  have ht : 24 ≤ t.val := (flush_10 t).mp hf
  show (cfg0.win 10).cut (grid0.coords t) ((dats m 0 c).after 10 t) = _
  rw [after_10]
  funext j
  obtain ⟨p, q, rfl⟩ : ∃ (p : Fin 1024) (q : Fin 256), j = ix2 p q := ⟨j 0, j 1, eq_ix2 j⟩
  rw [View.read_apply, emb_10 t ht p q]
  rfl

/-- The first result array ends holding the specification's h. -/
theorem final_10 (c : Dev nD) : (dats m 0 c).arrAt 10 cfg0.N = fun j => Ker.h (inp m c) (j 0) (j 1) :=
  (dats m 0 c).arrAt_eq_of_cover 10 (fun j => Ker.h (inp m c) (j 0) (j 1)) (flushed_10 m c) fun i => by
    have hi0 : (i 0 : Nat) < 4096 := (i 0).isLt
    have hi1 : (i 1 : Nat) < 256 := (i 1).isLt
    obtain ⟨t, htv⟩ : ∃ t : Fin cfg0.N, t.val = 24 + (i 0 : Nat) / 1024 :=
      ⟨⟨24 + (i 0 : Nat) / 1024, show 24 + (i 0 : Nat) / 1024 < 28 by omega⟩, rfl⟩
    have ht : 24 ≤ t.val := by omega
    obtain ⟨e0, e1⟩ := idx10 t
    have e0 := e0 ht
    refine ⟨t, (flush_10 t).mpr ht, ?_⟩
    show i ∈ ((View.whole main_v7_0).slice (win0_10.rect t)).set
    rw [View.set_slice_whole, Rect.mem_set_unit]
    intro a
    match a with
    | ⟨0, _⟩ =>
      show win0_10.index t (0 : Fin 2) * 1024 ≤ (i 0 : Nat) ∧ (i 0 : Nat) < win0_10.index t (0 : Fin 2) * 1024 + 1024
      omega
    | ⟨1, _⟩ =>
      show win0_10.index t (1 : Fin 2) * 256 ≤ (i 1 : Nat) ∧ (i 1 : Nat) < win0_10.index t (1 : Fin 2) * 256 + 256
      omega

/-! ## The class probabilities -/

/-- The second output window's block index over the grid: the row block t - 24 from point 24 on, the one column
    block. -/
theorem idx11 : ∀ t : Fin cfg0.N, (24 ≤ t.val → win0_11.index t (0 : Fin 2) = t.val - 24) ∧ win0_11.index t (1 : Fin 2) = 0 :=
  (by decide +kernel : ∀ t : Fin grid0.N, _)

/-- Entry (p, q) of the block at a point t ≥ 24 is entry (1024 (t - 24) + p, q) of the array. -/
theorem emb_11 (t : Fin cfg0.N) (ht : 24 ≤ t.val) (p : Fin 1024) (q : Fin 16) :
    ((cfg0.win 11).blk t).view.emb (ix2 p q) = ix2 (row (1024 * (t.val - 24) + p.val)) q := by
  obtain ⟨e0, e1⟩ := idx11 t
  have e0 := e0 ht
  have hp := p.isLt
  have ht' : t.val < 28 := t.isLt
  funext a; apply Fin.ext
  match a with
  | ⟨0, _⟩ => show win0_11.index t (0 : Fin 2) * 1024 + 1 * p.val = (row (1024 * (t.val - 24) + p.val)).val; rw [row_val (by omega)]; omega
  | ⟨1, _⟩ => show win0_11.index t (1 : Fin 2) * 16 + 1 * q.val = q.val; omega

/-- What a point writes back into the second result array is its block of the specification's y. -/
theorem flushed_11 (c : Dev nD) (t : Fin cfg0.N) (hf : (cfg0.win 11).flush t = true) :
    (dats m 0 c).flushed 11 t
      = ((cfg0.win 11).blk t).view.read (Elt Ideal) (fun j => Ker.y (inp m c) (j 0) (j 1)) := by
  have ht : 24 ≤ t.val := (flush_11 t).mp hf
  show (cfg0.win 11).cut (grid0.coords t) ((dats m 0 c).after 11 t) = _
  rw [after_11]
  funext j
  obtain ⟨p, q, rfl⟩ : ∃ (p : Fin 1024) (q : Fin 16), j = ix2 p q := ⟨j 0, j 1, eq_ix2 j⟩
  rw [View.read_apply, emb_11 t ht p q]
  rfl

/-- The second result array ends holding the specification's y. -/
theorem final_11 (c : Dev nD) : (dats m 0 c).arrAt 11 cfg0.N = fun j => Ker.y (inp m c) (j 0) (j 1) :=
  (dats m 0 c).arrAt_eq_of_cover 11 (fun j => Ker.y (inp m c) (j 0) (j 1)) (flushed_11 m c) fun i => by
    have hi0 : (i 0 : Nat) < 4096 := (i 0).isLt
    have hi1 : (i 1 : Nat) < 16 := (i 1).isLt
    obtain ⟨t, htv⟩ : ∃ t : Fin cfg0.N, t.val = 24 + (i 0 : Nat) / 1024 :=
      ⟨⟨24 + (i 0 : Nat) / 1024, show 24 + (i 0 : Nat) / 1024 < 28 by omega⟩, rfl⟩
    have ht : 24 ≤ t.val := by omega
    obtain ⟨e0, e1⟩ := idx11 t
    have e0 := e0 ht
    refine ⟨t, (flush_11 t).mpr ht, ?_⟩
    show i ∈ ((View.whole main_v7_1).slice (win0_11.rect t)).set
    rw [View.set_slice_whole, Rect.mem_set_unit]
    intro a
    match a with
    | ⟨0, _⟩ =>
      show win0_11.index t (0 : Fin 2) * 1024 ≤ (i 0 : Nat) ∧ (i 0 : Nat) < win0_11.index t (0 : Fin 2) * 1024 + 1024
      omega
    | ⟨1, _⟩ =>
      show win0_11.index t (1 : Fin 2) * 16 ≤ (i 1 : Nat) ∧ (i 1 : Nat) < win0_11.index t (1 : Fin 2) * 16 + 16
      omega

end Cert.KernelIdeal.Track

end
-- ==== Proof.KernelIdealRun.lean ====
/-
  THE VALUE RUN OF THE IDEALIZED KERNEL.

  At every grid point exactly one of the four passes runs, so the body obligation of the proof data holds at
  every point (by cases on the point). The launch hands the region the scratch buffers at any contents, which
  satisfy the scratch invariant at 0; after the last point the invariant is forgotten. Hence every weakly fair
  execution terminates with the two result arrays at what the write-backs of points 24 … 27 leave — the
  specification's hidden features and class probabilities — and the nine argument arrays unchanged.
-/
import proofs.«154251_g79121887527625_cont_sun_m_466_24_alg».proof.Proof.KernelIdealTrack
import proofs.«154251_g79121887527625_cont_sun_m_466_24_alg».proof.Proof.TrackA
import proofs.«154251_g79121887527625_cont_sun_m_466_24_alg».proof.Proof.TrackB
import proofs.«154251_g79121887527625_cont_sun_m_466_24_alg».proof.Proof.TrackC
import proofs.«154251_g79121887527625_cont_sun_m_466_24_alg».proof.Proof.TrackD
import proofs.«154251_g79121887527625_cont_sun_m_466_24_alg».proof.Proof.KernelIdealFinal

set_option maxRecDepth 16384

noncomputable section

namespace Cert.KernelIdeal.Track

open Cert.KernelIdeal Cert.KernelIdeal.Gen Cert.KernelIdeal.Val Cert.KernelIdeal.Body Cert.Gcn Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h1 : t.val < 16
  · exact sound_A m c t h1
  · by_cases h2 : t.val < 20
    · exact sound_B m c t (by omega) h2
    · by_cases h3 : t.val < 24
      · exact sound_C m c t (by omega) h3
      · exact sound_D m c t (by omega)

/-- The library's body obligation, at every point. -/
theorem body_obligation (c : Dev nD) : BodyObligation (dats m 0 c) (defs₀ (F := Ideal)) Variants.none () Set.univ := fun t => by
  rw [bigSep_W0, bigSep_W0]
  exact sound_body m c t

/-- What the launch hands the region yields the invariant before the first point: nothing is claimed of the scratch. -/
theorem hin (c : Dev nD) : Pipeline.ΦA spec0 c ⊢ (dats m 0 c).Φ 0 := by
  rw [show (dats m 0 c).Φ 0 = Phi m c 0 from rfl, PhiA_eq]
  unfold Phi
  iintro ⟨⟨⟨%a, S0⟩, ⟨%b, S1⟩, ⟨%e, S2⟩, ⟨%d, S3⟩⟩, Hg⟩
  isplitr [Hg]; swap; · iexact Hg
  iexists a, b, e, d
  isplitr; · ipureintro; exact inv_zero (inp m c) a b e d
  isplitl [S0]; · iexact S0
  isplitl [S1]; · iexact S1
  isplitl [S2]; · iexact S2
  iexact S3

/-- After the last point the scratch's contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%a, %b, %e, %d, %hI, S0, S1, S2, S3⟩, Hg⟩
  isplitr [Hg]; swap; · iexact Hg
  isplitl [S0]; · iexists a; iexact S0
  isplitl [S1]; · iexists b; iexact S1
  isplitl [S2]; · iexists e; iexact S2
  iexists d; iexact S3

set_option backward.isDefEq.respectTransparency.types false in
/-- Every weakly fair execution of @main terminates, every array of the pipeline at what the proof data computes,
    every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, read: the two result arrays at the specification's hidden features and class probabilities, the nine
    argument arrays unchanged. -/
theorem run : θ_run defs (onTc (τ := τ) (main (F := Ideal))) ⟨m, fun _ => 0, ρ⟩ (fun r => ∀ c : Dev nD,
      r.2.mem ((c.tc : Thread nD τ).loc main_v7_0) = (fun j => Ker.h (inp m c) (j 0) (j 1))
      ∧ r.2.mem ((c.tc : Thread nD τ).loc main_v7_1) = (fun j => Ker.y (inp m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 10).trans (final_10 m c), ((h c).1 11).trans (final_11 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.KernelIdeal.Track

end
-- ==== Proof.Claims.lean ====
/-
  The five claims about the graph-convolution kernel and its reference, each from the module that proves its substance.
-/
import proofs.«154251_g79121887527625_cont_sun_m_466_24_alg».proof.Defs
import proofs.«154251_g79121887527625_cont_sun_m_466_24_alg».proof.Proof.Gen.Kernel
import proofs.«154251_g79121887527625_cont_sun_m_466_24_alg».proof.Proof.Gen.KernelIdeal
import proofs.«154251_g79121887527625_cont_sun_m_466_24_alg».proof.Proof.Gen.ReferenceIdeal
import proofs.«154251_g79121887527625_cont_sun_m_466_24_alg».proof.Proof.Gen.Pre_finite_inputs
import proofs.«154251_g79121887527625_cont_sun_m_466_24_alg».proof.Proof.KernelFrame
import proofs.«154251_g79121887527625_cont_sun_m_466_24_alg».proof.Proof.KernelIdealFrame
import proofs.«154251_g79121887527625_cont_sun_m_466_24_alg».proof.Proof.ReferenceFrame
import proofs.«154251_g79121887527625_cont_sun_m_466_24_alg».proof.Proof.KernelInputs
import proofs.«154251_g79121887527625_cont_sun_m_466_24_alg».proof.Proof.RefValue
import proofs.«154251_g79121887527625_cont_sun_m_466_24_alg».proof.Proof.PreDecodeKernel
import proofs.«154251_g79121887527625_cont_sun_m_466_24_alg».proof.Proof.AlgebraLayers
import proofs.«154251_g79121887527625_cont_sun_m_466_24_alg».proof.Proof.AlgebraLogits
import proofs.«154251_g79121887527625_cont_sun_m_466_24_alg».proof.Proof.KernelIdealRun

noncomputable section

namespace Cert.Proof.GcnClaims

open Idealize.ShloMosaic Idealize.ShloMosaic.TcCoe Idealize.SL.Sem

/-- The kernel as printed runs and leaves its nine argument arrays as they were. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- So does the reference read over the extended reals. -/
theorem frame_r : Cert.frame_ReferenceIdeal := fun m ρ _ => Cert.ReferenceIdeal.Line.frame m ρ

/-- No operation of the kernel was rewritten on the way to the extended reals: nothing to preserve. -/
theorem preserves : Cert.preserves_Kernel_KernelIdeal := trivial

/-- Nine arrays equal one by one make equal inputs. -/
theorem inputs_congr {I J : Cert.Gcn.Inputs} (h0 : I.x = J.x) (h1 : I.adj = J.adj) (h2 : I.sd = J.sd) (h3 : I.w0 = J.w0)
    (h4 : I.b0 = J.b0) (h5 : I.w1 = J.w1) (h6 : I.b1 = J.b1) (h7 : I.wc = J.wc) (h8 : I.bc = J.bc) : I = J := by
  cases I; cases J; simp only at h0 h1 h2 h3 h4 h5 h6 h7 h8
  subst h0 h1 h2 h3 h4 h5 h6 h7 h8; rfl

/-- Over the extended reals, from memories that agree on the nine arguments, the kernel ends with d (A (d s) + d s) + b
    for the second layer and the soft-max of its logits, the reference with (d A d) s + b and the soft-max of its
    logits, of the same inputs; with every input entry a real number and every row sum of I + A positive the two
    are equal entry by entry (distributivity over the reals), so the results are the same arrays. -/
theorem algebraic : Cert.algebraic_KernelIdeal_ReferenceIdeal := by
  intro m ρ m' ρ' hpre hagree
  refine ⟨_, _, Cert.KernelIdeal.Track.run m ρ, ?_⟩
  have key : ∀ c : Dev Cert.KernelIdeal.nD, Cert.ReferenceIdeal.RefValue.inpM m' c = Cert.KernelIdeal.Val.inp m c
      ∧ (Cert.KernelIdeal.Val.inp m c).Finite ∧ (Cert.KernelIdeal.Val.inp m c).PosRows := fun c => by
    obtain ⟨h0, h1, h2, h3, h4, h5, h6, h7, h8⟩ := hagree c
    exact ⟨inputs_congr h0 h1 h2 h3 h4 h5 h6 h7 h8, Cert.PreDecode.of_pre m hpre c⟩
  refine (θ_run Cert.ReferenceIdeal.defs _ _).mono (fun _ h c => ⟨(h c).1.trans ?_, (h c).2.1.trans ?_, (h c).2.2⟩)
    (Cert.ReferenceIdeal.RefValue.run_values m' ρ')
  · obtain ⟨e, hF, hP⟩ := key c
    rw [e]; exact funext fun j => (Cert.Gcn.h_eq hF hP (j 0) (j 1)).symm
  · obtain ⟨e, hF, hP⟩ := key c
    rw [e]; exact funext fun j => (Cert.Gcn.y_eq hF hP (j 0) (j 1)).symm

end Cert.Proof.GcnClaims

end
-- ==== Proof.lean ====
/- The proof of `Cert.Claim`.

   The program is a two-layer graph convolution followed by a soft-max classifier. Write A for the adjacency, d for the
   column of reciprocal square roots of the row sums of I + A, and s for a layer's support (the layer's input times its
   weight matrix). The reference forms the normalised adjacency N, N i j = ((I + A) i j * d i) * d j, and computes
   N s + b. The kernel never forms N: it scales the support once, t = d s row by row, and computes d (A t + t) + b.
   The classifier multiplies the concatenation [h, sd] by wc in the reference, and h by the first 256 rows of wc plus sd
   by the last 32 rows in the kernel; both add bc and take the soft-max of each row of 16 logits.

   Over the extended reals the two results are equal when every input entry is a real number and every row sum of
   I + A is positive, which is what the precondition says: then d is a column of positive reals, every intermediate
   is a real number, and d i * (sum_j A i j * (d j * s j c) + d i * s i c) = sum_j (((I + A) i j * d i) * d j) * s j c
   by distributivity over the reals; the classifier's two sums are one sum over 288 split at 256.

   Each of the three programs terminates without a fault and leaves its nine argument arrays unchanged. The kernel read
   over the extended reals is the kernel's own text: no operation was rewritten, so there is nothing to preserve. -/
import proofs.«154251_g79121887527625_cont_sun_m_466_24_alg».proof.Defs
import proofs.«154251_g79121887527625_cont_sun_m_466_24_alg».proof.Proof.Gen.Kernel
import proofs.«154251_g79121887527625_cont_sun_m_466_24_alg».proof.Proof.Gen.Kernel.Skeleton
import proofs.«154251_g79121887527625_cont_sun_m_466_24_alg».proof.Proof.Gen.Kernel.Launch
import proofs.«154251_g79121887527625_cont_sun_m_466_24_alg».proof.Proof.Gen.Kernel.Points
import proofs.«154251_g79121887527625_cont_sun_m_466_24_alg».proof.Proof.Gen.Kernel.Frame
import proofs.«154251_g79121887527625_cont_sun_m_466_24_alg».proof.Proof.Gen.KernelIdeal
import proofs.«154251_g79121887527625_cont_sun_m_466_24_alg».proof.Proof.Gen.KernelIdeal.Skeleton
import proofs.«154251_g79121887527625_cont_sun_m_466_24_alg».proof.Proof.Gen.KernelIdeal.Launch
import proofs.«154251_g79121887527625_cont_sun_m_466_24_alg».proof.Proof.Gen.KernelIdeal.Points
import proofs.«154251_g79121887527625_cont_sun_m_466_24_alg».proof.Proof.Gen.KernelIdeal.Frame
import proofs.«154251_g79121887527625_cont_sun_m_466_24_alg».proof.Proof.Gen.ReferenceIdeal
import proofs.«154251_g79121887527625_cont_sun_m_466_24_alg».proof.Proof.Gen.Pre_finite_inputs
import proofs.«154251_g79121887527625_cont_sun_m_466_24_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_r, GcnClaims.preserves, GcnClaims.algebraic⟩

end Cert.Proof

end
